-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x256 : Shape := ⟨2, ![1024, 256]⟩
abbrev S1024x1024 : Shape := ⟨2, ![1024, 1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1024x256 .f32) (main_arg1 : FVec F S1024x1024 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S256x1024 : Shape := ⟨2, ![256, 1024]⟩
abbrev S4x256x256 : Shape := ⟨3, ![4, 256, 256]⟩
abbrev S3 : Shape := ⟨1, ![3]⟩
abbrev S4 : Shape := ⟨1, ![4]⟩
abbrev S256x256 : Shape := ⟨2, ![256, 256]⟩
abbrev S1x256x256 : Shape := ⟨3, ![1, 256, 256]⟩
abbrev S_ : Shape := ⟨0, ![]⟩
abbrev S1 : Shape := ⟨1, ![1]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S256x1024, .f32⟩
  | .local _ .vmem, ⟨0, _⟩ => ⟨S1024x256, .f32⟩
  | .local _ .vmem, ⟨1, _⟩ => ⟨S1024x1024, .f32⟩
  | .local _ .vmem, ⟨2, _⟩ => ⟨S256x1024, .f32⟩
  | .local _ .vmem, ⟨3, _⟩ => ⟨S4x256x256, .bf16⟩
  | .local _ .vmem, ⟨4, _⟩ => ⟨S4x256x256, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  { ofTc nBuf bufTy 1 10 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let v15 : Index := Scalar.indexCast v14
  let c0 : Index := 0#32
  ![v15.toNat, 0]
def k0_off2 (d0 : Dev nD) (c2_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let v19 : Index := Scalar.indexCast v13
  let c0_5 : Index := 0#32
  let c0_6 : Index := 0#32
  ![v19.toNat, 0, 0]
def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v64 : BitVec 32 := Scalar.addi v2 c1_i32_28
  let c4_i32_29 : BitVec 32 := 4#32
  let c0_i32_30 : BitVec 32 := 0#32
  let v65 : BitVec 1 := Scalar.cmpi .eq c4_i32_29 c0_i32_30
  let c1_i32_31 : BitVec 32 := 1#32
  let v66 : BitVec 32 := Scalar.select v65 c1_i32_31 c4_i32_29
  let v67 : BitVec 32 := Scalar.remsi v64 v66
  let c0_i32_33 : BitVec 32 := 0#32
  let v69 : BitVec 1 := Scalar.cmpi .slt v67 c0_i32_33
  let c0_i32_34 : BitVec 32 := 0#32
  let v70 : BitVec 1 := Scalar.cmpi .slt v66 c0_i32_34
  let v71 : BitVec 1 := Scalar.xori v69 v70
  let c0_i32_32 : BitVec 32 := 0#32
  let v68 : BitVec 1 := Scalar.cmpi .ne v67 c0_i32_32
  let v72 : BitVec 1 := Scalar.andi v71 v68
  let v73 : BitVec 32 := Scalar.addi v67 v66
  let v74 : BitVec 32 := Scalar.select v72 v73 v67
  let c1_i32_36 : BitVec 32 := 1#32
  let v75 : BitVec 32 := Scalar.muli v74 c1_i32_36
  let v76 : BitVec 32 := Scalar.addi c0_i32_37 v75
  v76.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v77 : BitVec 32 := Scalar.addi v2 c2_i32_38
  let c4_i32_39 : BitVec 32 := 4#32
  let c0_i32_40 : BitVec 32 := 0#32
  let v78 : BitVec 1 := Scalar.cmpi .eq c4_i32_39 c0_i32_40
  let c1_i32_41 : BitVec 32 := 1#32
  let v79 : BitVec 32 := Scalar.select v78 c1_i32_41 c4_i32_39
  let v80 : BitVec 32 := Scalar.remsi v77 v79
  let c0_i32_43 : BitVec 32 := 0#32
  let v82 : BitVec 1 := Scalar.cmpi .slt v80 c0_i32_43
  let c0_i32_44 : BitVec 32 := 0#32
  let v83 : BitVec 1 := Scalar.cmpi .slt v79 c0_i32_44
  let v84 : BitVec 1 := Scalar.xori v82 v83
  let c0_i32_42 : BitVec 32 := 0#32
  let v81 : BitVec 1 := Scalar.cmpi .ne v80 c0_i32_42
  let v85 : BitVec 1 := Scalar.andi v84 v81
  let v86 : BitVec 32 := Scalar.addi v80 v79
  let v87 : BitVec 32 := Scalar.select v85 v86 v80
  let c1_i32_46 : BitVec 32 := 1#32
  let v88 : BitVec 32 := Scalar.muli v87 c1_i32_46
  let v89 : BitVec 32 := Scalar.addi c0_i32_47 v88
  v89.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v90 : BitVec 32 := Scalar.addi v2 c3_i32_48
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi v90 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c1_i32_56 : BitVec 32 := 1#32
  let v101 : BitVec 32 := Scalar.muli v100 c1_i32_56
  let v102 : BitVec 32 := Scalar.addi c0_i32_57 v101
  v102.toNat
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_69 : BitVec 32 := 0#32
  let c0_i32_70 : BitVec 32 := 0#32
  ![v2.toNat, 0, 0]
def k0_off5 (d0 : Dev nD) (c2_i32_59 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c2_i32_59
  let c4_i32_60 : BitVec 32 := 4#32
  let c0_i32_61 : BitVec 32 := 0#32
  let v104 : BitVec 1 := Scalar.cmpi .eq c4_i32_60 c0_i32_61
  let c1_i32_62 : BitVec 32 := 1#32
  let v105 : BitVec 32 := Scalar.select v104 c1_i32_62 c4_i32_60
  let v106 : BitVec 32 := Scalar.remsi v103 v105
  let c0_i32_64 : BitVec 32 := 0#32
  let v108 : BitVec 1 := Scalar.cmpi .slt v106 c0_i32_64
  let c0_i32_65 : BitVec 32 := 0#32
  let v109 : BitVec 1 := Scalar.cmpi .slt v105 c0_i32_65
  let v110 : BitVec 1 := Scalar.xori v108 v109
  let c0_i32_63 : BitVec 32 := 0#32
  let v107 : BitVec 1 := Scalar.cmpi .ne v106 c0_i32_63
  let v111 : BitVec 1 := Scalar.andi v110 v107
  let v112 : BitVec 32 := Scalar.addi v106 v105
  let v113 : BitVec 32 := Scalar.select v111 v112 v106
  let c0_i32_71 : BitVec 32 := 0#32
  let c0_i32_72 : BitVec 32 := 0#32
  ![v113.toNat, 0, 0]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v103 : BitVec 32 := Scalar.addi v2 c2_i32_59
  let c4_i32_60 : BitVec 32 := 4#32
  let c0_i32_61 : BitVec 32 := 0#32
  let v104 : BitVec 1 := Scalar.cmpi .eq c4_i32_60 c0_i32_61
  let c1_i32_62 : BitVec 32 := 1#32
  let v105 : BitVec 32 := Scalar.select v104 c1_i32_62 c4_i32_60
  let v106 : BitVec 32 := Scalar.remsi v103 v105
  let c0_i32_64 : BitVec 32 := 0#32
  let v108 : BitVec 1 := Scalar.cmpi .slt v106 c0_i32_64
  let c0_i32_65 : BitVec 32 := 0#32
  let v109 : BitVec 1 := Scalar.cmpi .slt v105 c0_i32_65
  let v110 : BitVec 1 := Scalar.xori v108 v109
  let c0_i32_63 : BitVec 32 := 0#32
  let v107 : BitVec 1 := Scalar.cmpi .ne v106 c0_i32_63
  let v111 : BitVec 1 := Scalar.andi v110 v107
  let v112 : BitVec 32 := Scalar.addi v106 v105
  let v113 : BitVec 32 := Scalar.select v111 v112 v106
  let c1_i32_67 : BitVec 32 := 1#32
  let v114 : BitVec 32 := Scalar.muli v113 c1_i32_67
  let v115 : BitVec 32 := Scalar.addi c0_i32_68 v114
  v115.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_73 : BitVec 32 := 1#32
  let v124 : BitVec 32 := Scalar.addi v2 c1_i32_73
  let c4_i32_74 : BitVec 32 := 4#32
  let c0_i32_75 : BitVec 32 := 0#32
  let v125 : BitVec 1 := Scalar.cmpi .eq c4_i32_74 c0_i32_75
  let c1_i32_76 : BitVec 32 := 1#32
  let v126 : BitVec 32 := Scalar.select v125 c1_i32_76 c4_i32_74
  let v127 : BitVec 32 := Scalar.remsi v124 v126
  let c0_i32_78 : BitVec 32 := 0#32
  let v129 : BitVec 1 := Scalar.cmpi .slt v127 c0_i32_78
  let c0_i32_79 : BitVec 32 := 0#32
  let v130 : BitVec 1 := Scalar.cmpi .slt v126 c0_i32_79
  let v131 : BitVec 1 := Scalar.xori v129 v130
  let c0_i32_77 : BitVec 32 := 0#32
  let v128 : BitVec 1 := Scalar.cmpi .ne v127 c0_i32_77
  let v132 : BitVec 1 := Scalar.andi v131 v128
  let v133 : BitVec 32 := Scalar.addi v127 v126
  let v134 : BitVec 32 := Scalar.select v132 v133 v127
  let c1_i32_81 : BitVec 32 := 1#32
  let v135 : BitVec 32 := Scalar.muli v134 c1_i32_81
  let v136 : BitVec 32 := Scalar.addi c0_i32_82 v135
  v136.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v145 : BitVec 32 := Scalar.addi v2 c3_i32_87
  let c4_i32_88 : BitVec 32 := 4#32
  let c0_i32_89 : BitVec 32 := 0#32
  let v146 : BitVec 1 := Scalar.cmpi .eq c4_i32_88 c0_i32_89
  let c1_i32_90 : BitVec 32 := 1#32
  let v147 : BitVec 32 := Scalar.select v146 c1_i32_90 c4_i32_88
  let v148 : BitVec 32 := Scalar.remsi v145 v147
  let c0_i32_92 : BitVec 32 := 0#32
  let v150 : BitVec 1 := Scalar.cmpi .slt v148 c0_i32_92
  let c0_i32_93 : BitVec 32 := 0#32
  let v151 : BitVec 1 := Scalar.cmpi .slt v147 c0_i32_93
  let v152 : BitVec 1 := Scalar.xori v150 v151
  let c0_i32_91 : BitVec 32 := 0#32
  let v149 : BitVec 1 := Scalar.cmpi .ne v148 c0_i32_91
  let v153 : BitVec 1 := Scalar.andi v152 v149
  let v154 : BitVec 32 := Scalar.addi v148 v147
  let v155 : BitVec 32 := Scalar.select v153 v154 v148
  let c1_i32_95 : BitVec 32 := 1#32
  let v156 : BitVec 32 := Scalar.muli v155 c1_i32_95
  let v157 : BitVec 32 := Scalar.addi c0_i32_96 v156
  v157.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_101 : BitVec 32 := 256#32
  let v166 : BitVec 32 := Scalar.muli v2 c256_i32_101
  let v167 : Index := Scalar.indexCast v166
  let c0_102 : Index := 0#32
  ![v167.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_103 : BitVec 32 := 256#32
  let v170 : BitVec 32 := Scalar.muli v2 c256_i32_103
  let v171 : Index := Scalar.indexCast v170
  let c0_104 : Index := 0#32
  ![v171.toNat, 0]
def k0_off8 (d0 : Dev nD) (c1_i32_106 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v178 : BitVec 32 := Scalar.addi v2 c1_i32_106
  let c4_i32_107 : BitVec 32 := 4#32
  let c0_i32_108 : BitVec 32 := 0#32
  let v179 : BitVec 1 := Scalar.cmpi .eq c4_i32_107 c0_i32_108
  let c1_i32_109 : BitVec 32 := 1#32
  let v180 : BitVec 32 := Scalar.select v179 c1_i32_109 c4_i32_107
  let v181 : BitVec 32 := Scalar.remsi v178 v180
  let c0_i32_111 : BitVec 32 := 0#32
  let v183 : BitVec 1 := Scalar.cmpi .slt v181 c0_i32_111
  let c0_i32_112 : BitVec 32 := 0#32
  let v184 : BitVec 1 := Scalar.cmpi .slt v180 c0_i32_112
  let v185 : BitVec 1 := Scalar.xori v183 v184
  let c0_i32_110 : BitVec 32 := 0#32
  let v182 : BitVec 1 := Scalar.cmpi .ne v181 c0_i32_110
  let v186 : BitVec 1 := Scalar.andi v185 v182
  let v187 : BitVec 32 := Scalar.addi v181 v180
  let v188 : BitVec 32 := Scalar.select v186 v187 v181
  ![v188.toNat]
def k0_off9 (d0 : Dev nD) (c1_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v178 : BitVec 32 := Scalar.addi v2 c1_i32_106
  let c4_i32_107 : BitVec 32 := 4#32
  let c0_i32_108 : BitVec 32 := 0#32
  let v179 : BitVec 1 := Scalar.cmpi .eq c4_i32_107 c0_i32_108
  let c1_i32_109 : BitVec 32 := 1#32
  let v180 : BitVec 32 := Scalar.select v179 c1_i32_109 c4_i32_107
  let v181 : BitVec 32 := Scalar.remsi v178 v180
  let c0_i32_111 : BitVec 32 := 0#32
  let v183 : BitVec 1 := Scalar.cmpi .slt v181 c0_i32_111
  let c0_i32_112 : BitVec 32 := 0#32
  let v184 : BitVec 1 := Scalar.cmpi .slt v180 c0_i32_112
  let v185 : BitVec 1 := Scalar.xori v183 v184
  let c0_i32_110 : BitVec 32 := 0#32
  let v182 : BitVec 1 := Scalar.cmpi .ne v181 c0_i32_110
  let v186 : BitVec 1 := Scalar.andi v185 v182
  let v187 : BitVec 32 := Scalar.addi v181 v180
  let v188 : BitVec 32 := Scalar.select v186 v187 v181
  let c256_i32_122 : BitVec 32 := 256#32
  let v201 : BitVec 32 := Scalar.muli v188 c256_i32_122
  let v202 : Index := Scalar.indexCast v201
  let c0_123 : Index := 0#32
  ![v202.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  h_S256x256 : 0 < S256x256.numel
  shapeCasts_S256x256_S256x256 : S256x256.ShapeCasts S256x256
  bitsLt_bf16_f32 : FTy.bits .bf16 < FTy.bits .f32
  h_S1x256x256 : 0 < S1x256x256.numel
  shapeCasts_S1x256x256_S256x256 : S1x256x256.ShapeCasts S256x256
  shapeCasts_S256x256_S1x256x256 : S256x256.ShapeCasts S1x256x256
  hamt_1 : (1#32 : BitVec 32).msb = false
  hamt_3 : (3#32 : BitVec 32).msb = false
  inb_S3_S1_1 : ∀ a, (![1] : Fin 1 → Nat) a + S1.size a ≤ S3.size a
  squeezes_S1_S_ : S1.Squeezes S_
  squeezes_S1x256x256_S256x256 : S1x256x256.Squeezes S256x256
  inb_S3_S1_0 : ∀ a, (![0] : Fin 1 → Nat) a + S1.size a ≤ S3.size a
  inb_S3_S1_2 : ∀ a, (![2] : Fin 1 → Nat) a + S1.size a ≤ S3.size a
  h_S256x1024 : 0 < S256x1024.numel
  shapeCasts_S256x1024_S256x1024 : S256x1024.ShapeCasts S256x1024
  slices_S256x1024_o0_0_S256x512 : S256x1024.Slices ![0, 0] S256x512
  slices_S256x1024_o0_512_S256x512 : S256x1024.Slices ![0, 512] S256x512
  inb_S256x1024_S256x512_0_0 : ∀ a, (![0, 0] : Fin 2 → Nat) a + S256x512.size a ≤ S256x1024.size a
  h_S256x512 : 0 < S256x512.numel
  inb_S256x1024_S256x512_0_512 : ∀ a, (![0, 512] : Fin 2 → Nat) a + S256x512.size a ≤ S256x1024.size a
  dot_S256x256_S256x512_S256x512_1_0_0_1_n_n_wf : DotDims.WF S256x256 S256x512 S256x512 [1] [0] [0] [1] [] []
  hcc0_scratch2 : 3 + S3.numel ≤ 10
  hcc0_scratch3 : 6 + S4.numel ≤ 10
  k0_off1_inb : ∀ d0 : Dev nD, ∀ (r : Fin 3), ∀ a, (k0_off1 d0 (BitVec.ofNat 32 (1 + r.val))) a + S256x256.size a ≤ S1024x256.size a
  k0_off2_inb : ∀ d0 : Dev nD, ∀ (r : Fin 3), ∀ a, (k0_off2 d0 (BitVec.ofNat 32 (1 + r.val))) a + S1x256x256.size a ≤ S4x256x256.size a
  k0_off2_packedbf16 : ∀ d0 : Dev nD, ∀ (r : Fin 3), (Rect.unit (s := S4x256x256) (k0_off2 d0 (BitVec.ofNat 32 (1 + r.val))) S1x256x256.size (k0_off2_inb d0 r)).PackedRows (EltTy.packing .bf16)
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off3_inb : ∀ d0 : Dev nD, ∀ a, (k0_off3 d0) a + S1.size a ≤ S4.size a
  k0_off4_inb : ∀ d0 : Dev nD, ∀ a, (k0_off4 d0) a + S1x256x256.size a ≤ S4x256x256.size a
  k0_off5_inb : ∀ d0 : Dev nD, ∀ (r : Fin 3), ∀ a, (k0_off5 d0 (BitVec.ofNat 32 (1 + r.val))) a + S1x256x256.size a ≤ S4x256x256.size a
  k0_off5_wordsbf16 : ∀ d0 : Dev nD, ∀ (r : Fin 3), (Rect.unit (s := S4x256x256) (k0_off5 d0 (BitVec.ofNat 32 (1 + r.val))) S1x256x256.size (k0_off5_inb d0 r)).WholeWords (EltTy.packing .bf16)
  k0_off4_wordsbf16 : ∀ d0 : Dev nD, (Rect.unit (s := S4x256x256) (k0_off4 d0) S1x256x256.size (k0_off4_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off6_inb : ∀ d0 : Dev nD, ∀ a, (k0_off6 d0) a + S256x256.size a ≤ S1024x256.size a
  k0_off7_inb : ∀ d0 : Dev nD, ∀ a, (k0_off7 d0) a + S256x1024.size a ≤ S1024x1024.size a
  k0_off8_inb : ∀ d0 : Dev nD, ∀ (r : Fin 3), ∀ a, (k0_off8 d0 (BitVec.ofNat 32 (1 + r.val))) a + S1.size a ≤ S4.size a
  k0_off9_inb : ∀ d0 : Dev nD, ∀ (r : Fin 3), ∀ a, (k0_off9 d0 (BitVec.ofNat 32 (1 + r.val))) a + S256x1024.size a ≤ S1024x1024.size a
  hstage0_0 : ∀ j, (stage0_0 j).IsWhole
  hstage0_1 : ∀ j, (stage0_1 j).IsWhole
  hstage0_2 : ∀ j, (stage0_2 j).IsWhole

variable [Facts₀]

abbrev cc0_scratch2 : DmaSems sig S3 := SemArray.consecutive 3 S3 hcc0_scratch2
abbrev cc0_scratch3 : DmaSems sig S4 := SemArray.consecutive 6 S4 hcc0_scratch3
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Mesh.lean ====
/-
  The mesh arithmetic of the four-device all-to-all: device `c`'s peer at offset `o` is device `(c + o) mod 4`.
  Every device id and every block offset the kernel computes from its own position is one of these peers; each closed
  form below is decided over the four devices (and the three non-zero offsets).
-/
import proofs.«900402_g7700000000000403_dist_a2a_gemm_m1024_k1024_n1024_f32_gelu_v7x_i4_1_alg».proof.Proof.Gen.KernelIdeal

set_option maxRecDepth 16384

namespace Cert.KernelIdeal.A2A

open Cert.KernelIdeal Cert.KernelIdeal.Gen
open Idealize.ShloMosaic

/-- The device `o` places after `c` around the mesh. -/
def peer (c : Dev nD) (o : Fin 4) : Dev nD := ⟨(c.val + o.val) % 4, Nat.mod_lt _ (by decide)⟩

/-- The offset `4 - o`: going `o` places on and then `back o` places on returns to the start. -/
def back (o : Fin 4) : Fin 4 := ⟨(4 - o.val) % 4, Nat.mod_lt _ (by decide)⟩

theorem peer_zero (c : Dev nD) : peer c 0 = c := by revert c; decide
theorem peer_back (c : Dev nD) (o : Fin 4) : peer (peer c o) (back o) = c := by revert c o; decide
theorem peer_back' (c : Dev nD) (o : Fin 4) : peer (peer c (back o)) o = c := by revert c o; decide
theorem peer_ne (c : Dev nD) (o : Fin 4) (ho : o ≠ 0) : peer c o ≠ c := by revert c o; decide
theorem peer_inj_off (c : Dev nD) (o o' : Fin 4) (h : peer c o = peer c o') : o = o' := by revert c o o'; decide
theorem peer_inj_dev (c c' : Dev nD) (o : Fin 4) (h : peer c o = peer c' o) : c = c' := by revert c c' o; decide
theorem exists_off (c p : Dev nD) : ∃ o : Fin 4, peer c o = p := by revert c p; decide

/-- The three barrier signals go to the peers at offsets 1, 2, 3; the three remote copies to those at 2, 1, 3. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 2 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 3 := by revert c; decide +kernel

/-- The offset `1 + r` as an offset around the mesh. -/
def offOf (r : Fin 3) : Fin 4 := ⟨1 + r.val, by omega⟩

/-- Row block of the peer at offset `1 + r` in the device's `x` block and in `w`; its slot in the two scratch buffers;
    its receive semaphore. -/
theorem off1_eq (c : Dev nD) (r : Fin 3) : k0_off1 c (BitVec.ofNat 32 (1 + r.val)) = ![256 * (peer c (offOf r)).val, 0] := by
  revert c r; decide +kernel
theorem off2_eq (c : Dev nD) (r : Fin 3) : k0_off2 c (BitVec.ofNat 32 (1 + r.val)) = ![(peer c (offOf r)).val, 0, 0] := by
  revert c r; decide +kernel
theorem off5_eq (c : Dev nD) (r : Fin 3) : k0_off5 c (BitVec.ofNat 32 (1 + r.val)) = ![(peer c (offOf r)).val, 0, 0] := by
  revert c r; decide +kernel
theorem off8_eq (c : Dev nD) (r : Fin 3) : k0_off8 c (BitVec.ofNat 32 (1 + r.val)) = ![(peer c (offOf r)).val] := by
  revert c r; decide +kernel
theorem off9_eq (c : Dev nD) (r : Fin 3) : k0_off9 c (BitVec.ofNat 32 (1 + r.val)) = ![256 * (peer c (offOf r)).val, 0] := by
  revert c r; decide +kernel

end Cert.KernelIdeal.A2A
-- ==== Proof.Spec.lean ====
/-
  What one device of the four-device all-to-all matmul computes, as pure functions of the staged arrays.

  Device `c` holds the column block `c` of `x` (1024 × 256) and all of `w` (1024 × 1024). For each other device
  `p` it rounds rows `256 p … 256 p + 255` of its block to bf16 (`sent`) and ships them to `p`; what it receives from `p`
  is rows `256 c …` of `p`'s block. Its 256 × 1024 result is the gelu of the sum of four 256 × 256 by 256 × 1024 products:
  its own rows against rows `256 c …` of `w`, then the pieces received from the peers at offsets 1, 3, 2 against the
  matching row blocks of `w`, computed in two column halves.
-/
import proofs.«900402_g7700000000000403_dist_a2a_gemm_m1024_k1024_n1024_f32_gelu_v7x_i4_1_alg».proof.Proof.Gen.KernelIdeal.Skeleton
import proofs.«900402_g7700000000000403_dist_a2a_gemm_m1024_k1024_n1024_f32_gelu_v7x_i4_1_alg».proof.Proof.Mesh

noncomputable section

namespace Cert.KernelIdeal.A2A

open Cert.KernelIdeal Cert.KernelIdeal.Gen
open Idealize.ShloMosaic Idealize.SL.Sem

variable {F : FTy → Type} [FloatOps F]

abbrev xM : Memref sig .tc .vmem S1024x256 .f32 := Memref.whole cc0_stg0_0
abbrev wM : Memref sig .tc .vmem S1024x1024 .f32 := Memref.whole cc0_stg1_0
abbrev oM : Memref sig .tc .vmem S256x1024 .f32 := Memref.whole cc0_stg2_0
abbrev sbM : Memref sig .tc .vmem S4x256x256 .bf16 := Memref.whole cc0_scratch0
abbrev xgM : Memref sig .tc .vmem S4x256x256 .bf16 := Memref.whole cc0_scratch1

/-- Contents of the staged `x` block, of `w`, of the result, and of a scratch buffer of four bf16 slots. -/
abbrev XC (F : FTy → Type) : Type := (cc0_stg0_0 : Ref sig .tc).ty.Contents (Elt F)
abbrev WC (F : FTy → Type) : Type := (cc0_stg1_0 : Ref sig .tc).ty.Contents (Elt F)
abbrev OC (F : FTy → Type) : Type := (cc0_stg2_0 : Ref sig .tc).ty.Contents (Elt F)
abbrev SC (F : FTy → Type) : Type := (cc0_scratch0 : Ref sig .tc).ty.Contents (Elt F)

/-- The rectangles the body reads and writes. -/
abbrev rX (c : Dev nD) (r : Fin 3) : Rect S1024x256 := Rect.unit (s := S1024x256) (k0_off1 c (BitVec.ofNat 32 (1 + r.val))) S256x256.size (k0_off1_inb c r)
abbrev rXown (c : Dev nD) : Rect S1024x256 := Rect.unit (s := S1024x256) (k0_off6 c) S256x256.size (k0_off6_inb c)
abbrev rWown (c : Dev nD) : Rect S1024x1024 := Rect.unit (s := S1024x1024) (k0_off7 c) S256x1024.size (k0_off7_inb c)
abbrev rW (c : Dev nD) (r : Fin 3) : Rect S1024x1024 := Rect.unit (s := S1024x1024) (k0_off9 c (BitVec.ofNat 32 (1 + r.val))) S256x1024.size (k0_off9_inb c r)
abbrev rSlot (c : Dev nD) (r : Fin 3) : Rect S4x256x256 := Rect.unit (s := S4x256x256) (k0_off2 c (BitVec.ofNat 32 (1 + r.val))) S1x256x256.size (k0_off2_inb c r)
abbrev rOutL : Rect S256x1024 := Rect.unit (s := S256x1024) ![0, 0] S256x512.size inb_S256x1024_S256x512_0_0
abbrev rOutR : Rect S256x1024 := Rect.unit (s := S256x1024) ![0, 512] S256x512.size inb_S256x1024_S256x512_0_512

/-- Rows `256 p …` of the device's `x` block, `p` the peer at offset `1 + r`; its own rows; the row blocks of `w`. -/
def xRows (c : Dev nD) (r : Fin 3) (fx : XC F) : Vec F S256x256 .f32 := (xM).view.readAt (Elt F) (rX c r).toLoadRect fx
def xOwn (c : Dev nD) (fx : XC F) : Vec F S256x256 .f32 := (xM).view.readAt (Elt F) (rXown c).toLoadRect fx
def wOwn (c : Dev nD) (fw : WC F) : Vec F S256x1024 .f32 := (wM).view.readAt (Elt F) (rWown c).toLoadRect fw
def wRows (c : Dev nD) (r : Fin 3) (fw : WC F) : Vec F S256x1024 .f32 := (wM).view.readAt (Elt F) (rW c r).toLoadRect fw

/-- What device `c` puts in the slot it ships to the peer at offset `1 + r`: those rows rounded to bf16. -/
def sent (c : Dev nD) (r : Fin 3) (fx : XC F) : FVec F S1x256x256 .bf16 := k0_pay1 (xRows c r fx)

/-- What device `c` holds after the peer at offset `1 + r` has shipped to it: that peer's `sent` for the offset back. -/
def got (c : Dev nD) (r : Fin 3) (fxs : Dev nD → XC F) : FVec F S1x256x256 .bf16 :=
  sent (peer c (offOf r)) (2 - r) (fxs (peer c (offOf r)))

/-- The two accumulators before the epilogue (left and right column halves), in the kernel's own order of summation:
    own block, then the peers at offsets 1, 3, 2. -/
def accL (c : Dev nD) (fxs : Dev nD → XC F) (fw : WC F) : FVec F S256x512 .f32 :=
  k0_pay17 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw)
def accR (c : Dev nD) (fxs : Dev nD → XC F) (fw : WC F) : FVec F S256x512 .f32 :=
  k0_pay18 (k0_pay14 (k0_pay10 (k0_pay4 (xOwn c (fxs c))) (k0_pay5 (wOwn c fw))
      (got c 0 fxs) (wRows c 0 fw)) (got c 2 fxs) (wRows c 2 fw)) (got c 1 fxs) (wRows c 1 fw)

/-- The two stored halves: the gelu of each accumulator. -/
def outL (c : Dev nD) (fxs : Dev nD → XC F) (fw : WC F) : FVec F S256x512 .f32 :=
  k0_pay21
    (k0_pay19 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw))
    (k0_pay20 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw))
    (Scalar.ofBits .f32 0x3F800000#32)
def outR (c : Dev nD) (fxs : Dev nD → XC F) (fw : WC F) : FVec F S256x512 .f32 := k0_pay22 (accR c fxs fw)

/-- The result staging buffer after the two stores, from any earlier contents `f0`. -/
def outFinal (c : Dev nD) (fxs : Dev nD → XC F) (fw : WC F) (f0 : OC F) : OC F :=
  ((oM).access rOutR : View sig .tc _ _ _).write (Elt F)
    (((oM).access rOutL : View sig .tc _ _ _).write (Elt F) f0 (outL c fxs fw) Finset.univ) (outR c fxs fw) Finset.univ

end Cert.KernelIdeal.A2A

end
-- ==== Proof.Protocol.lean ====
/-
  The protocol of the four-device all-to-all, as one round per semaphore.

  Every device `c` has eight semaphores in play: the barrier semaphore (three signals of one unit, one from each other
  device, waited for together); three send semaphores (one per outgoing copy, credited when the copy has been read out of
  its source slot); and four receive semaphores, the one indexed by its own id unused, the one indexed `p` credited when
  device `p`'s copy has landed in slot `p` of the receive buffer.

  What each landing hands the waiter:
  * the barrier unit paid by device `p` hands `c` slot `c` of `p`'s receive buffer (which `c` will overwrite) and the fact
    that `p`'s receive semaphore `c` is at its first round;
  * a send semaphore's credit hands back the source slot, still holding what was sent;
  * a receive semaphore's credit hands over the slot it filled, holding the sender's rounded rows.
-/
import proofs.«900402_g7700000000000403_dist_a2a_gemm_m1024_k1024_n1024_f32_gelu_v7x_i4_1_alg».proof.Proof.Gen.KernelIdeal.Frame
import proofs.«900402_g7700000000000403_dist_a2a_gemm_m1024_k1024_n1024_f32_gelu_v7x_i4_1_alg».proof.Proof.Spec
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Semaphores and cells -/

abbrev barS : Sem sig := (SemArray.scalar (sig.barrier 0 rfl) : Sems sig S_).sem
abbrev sendSem (j : Fin 3) : DmaSem sig := ⟨3 + j.val, by have := j.isLt; show 3 + j.val < 10; omega⟩
abbrev recvSem (p : Dev nD) : DmaSem sig := ⟨6 + p.val, by have : p.val < 4 := p.isLt; show 6 + p.val < 10; omega⟩

abbrev barCell (c : Dev nD) : GSem nD τ sig := ((c : Thread nD τ), .reg barS)
abbrev sendCell (c : Dev nD) (j : Fin 3) : GSem nD τ sig := ((c : Thread nD τ), .dma (sendSem j))
abbrev recvCell (c : Dev nD) (p : Dev nD) : GSem nD τ sig := ((c : Thread nD τ), .dma (recvSem p))

/-- The kernel's own (scoped) semaphores: three send, four receive. -/
abbrev osem : Fin 7 → SemLoc sig := fun k => if h : k.val < 3 then .dma (sendSem ⟨k.val, h⟩) else .dma (recvSem ⟨k.val - 3, by have := k.isLt; show k.val - 3 < 4; omega⟩)
/-- All eight of the protocol's: the barrier first. -/
abbrev csem : Fin 8 → SemLoc sig := fun k =>
  if k.val = 0 then .reg barS else if h : k.val < 4 then .dma (sendSem ⟨k.val - 1, by omega⟩) else .dma (recvSem ⟨k.val - 4, by have := k.isLt; show k.val - 4 < 4; omega⟩)
abbrev kcell (ck : Dev nD × Fin 8) : GSem nD τ sig := ((ck.1 : Thread nD τ), csem ck.2)

/-- The semaphores the printed body names are these. -/
theorem send_sem_eq0 : (((cc0_scratch2).slice (Rect.unit (s := S3) ![0] S1.size inb_S3_S1_0)).squeeze S_ squeezes_S1_S_).sem = sendSem 0 := by decide
theorem send_sem_eq1 : (((cc0_scratch2).slice (Rect.unit (s := S3) ![1] S1.size inb_S3_S1_1)).squeeze S_ squeezes_S1_S_).sem = sendSem 1 := by decide
theorem send_sem_eq2 : (((cc0_scratch2).slice (Rect.unit (s := S3) ![2] S1.size inb_S3_S1_2)).squeeze S_ squeezes_S1_S_).sem = sendSem 2 := by decide
theorem recv_sem_own (c : Dev nD) :
    (((cc0_scratch3).slice (Rect.unit (s := S4) (k0_off3 c) S1.size (k0_off3_inb c))).squeeze S_ squeezes_S1_S_).sem = recvSem c := by
  revert c; decide +kernel
theorem recv_sem_peer (c : Dev nD) (r : Fin 3) :
    (((cc0_scratch3).slice (Rect.unit (s := S4) (k0_off8 c (BitVec.ofNat 32 (1 + r.val))) S1.size (k0_off8_inb c r))).squeeze S_ squeezes_S1_S_).sem
      = recvSem (peer c (offOf r)) := by
  revert c r; decide +kernel

/-- Which of the protocol's semaphores a semaphore is. -/
inductive Role where
  | bar
  | send (j : Fin 3)
  | recv (p : Dev nD)
  | other
  deriving DecidableEq

def roleOf : SemLoc sig → Role
  | .reg s => if s = barS then .bar else .other
  | .dma q => if h : 3 ≤ q.val ∧ q.val < 6 then .send ⟨q.val - 3, by omega⟩
      else if h' : 6 ≤ q.val then .recv ⟨q.val - 6, by have : q.val < 10 := q.isLt; show q.val - 6 < 4; omega⟩ else .other

theorem role_bar : roleOf (.reg barS) = .bar := by decide
theorem role_send (j : Fin 3) : roleOf (.dma (sendSem j)) = .send j := by revert j; decide
theorem role_recv (p : Dev nD) : roleOf (.dma (recvSem p)) = .recv p := by revert p; decide

/-! ## Slots of the two scratch buffers -/

/-- Slot `q` of a scratch buffer, and row block `q` of the `x` block, by their plain offsets. -/
theorem slot_inb (q : Dev nD) : ∀ a, (![q.val, 0, 0] : Fin 3 → Nat) a + S1x256x256.size a ≤ S4x256x256.size a := by revert q; decide
theorem rows_inb (q : Dev nD) : ∀ a, (![256 * q.val, 0] : Fin 2 → Nat) a + S256x256.size a ≤ S1024x256.size a := by revert q; decide
abbrev slotRect (q : Dev nD) : Rect S4x256x256 := Rect.unit (s := S4x256x256) ![q.val, 0, 0] S1x256x256.size (slot_inb q)
abbrev rowsRect (q : Dev nD) : Rect S1024x256 := Rect.unit (s := S1024x256) ![256 * q.val, 0] S256x256.size (rows_inb q)

/-- The source of device `c`'s copy to the peer at offset `1 + r` (a slot of its send buffer), and the destination of
    every copy device `c` makes (slot `c` of the addressed device's receive buffer), as the body spells them. -/
abbrev sbSrc (c : Dev nD) (r : Fin 3) : Memref sig .tc .vmem S256x256 .bf16 :=
  ((sbM).slice (Rect.unit (s := S4x256x256) (k0_off5 c (BitVec.ofNat 32 (1 + r.val))) S1x256x256.size (k0_off5_inb c r)) (fun _ => rfl)).squeeze S256x256 squeezes_S1x256x256_S256x256
abbrev xgDst (c : Dev nD) : Memref sig .tc .vmem S256x256 .bf16 :=
  ((xgM).slice (Rect.unit (s := S4x256x256) (k0_off4 c) S1x256x256.size (k0_off4_inb c)) (fun _ => rfl)).squeeze S256x256 squeezes_S1x256x256_S256x256

/-- What device `p` ships to device `c`: rows `256 c …` of its `x` block, rounded. -/
def sentTo (c : Dev nD) (fx : XC F) : FVec F S1x256x256 .bf16 := k0_pay1 ((xM).view.readAt (Elt F) (rowsRect c).toLoadRect fx)

/-- One copy's credit, the same for every slot. -/
abbrev N : ℕ := (xgDst (0 : Dev nD)).view.dmaCredit
theorem N_pos : 0 < N := View.dmaCredit_pos _ (by decide)
theorem amount_dst (c : Dev nD) (sm : DmaSem sig) : (xgDst c).view.amount (.dma sm) = N := rfl

/-! ## Contents -/

def xstg (c : Dev nD) : XC F := (win0_0.blk (0 : Fin 1)).view.read (Elt F) ((s₀ m ρ).mem ((c : Thread nD τ).loc main_arg0))
def wstg (c : Dev nD) : WC F := (win0_1.blk (0 : Fin 1)).view.read (Elt F) ((s₀ m ρ).mem ((c : Thread nD τ).loc main_arg1))
/-- The result staging buffer after the body. -/
def outAt (c : Dev nD) : OC F := outFinal c (fun d => xstg m ρ d) (wstg m ρ c) (fun _ => Classical.arbitrary _)

def sbPts (c : Dev nD) (r : Fin 3) (f : Buf (Elt F) ((sbSrc c r).view.loc (c : Thread nD τ))) : sProp 𝕄 :=
  (sbSrc c r).view.loc (c : Thread nD τ) ↦[(sbSrc c r).view.set]{fullShare} f
/-- Slot `q` of device `p`'s receive buffer. -/
def xgPts (p q : Dev nD) (f : Buf (Elt F) ((xgDst q).view.loc (p : Thread nD τ))) : sProp 𝕄 :=
  (xgDst q).view.loc (p : Thread nD τ) ↦[(xgDst q).view.set]{fullShare} f

omit [FloatOps F] in
instance sbPts_storable (c : Dev nD) (r : Fin 3) (f) : BI.Storable (upEmb : UEmb _ 𝕄) (sbPts (F := F) c r f) := by unfold sbPts; infer_instance
omit [FloatOps F] in
instance xgPts_storable (p q : Dev nD) (f) : BI.Storable (upEmb : UEmb _ 𝕄) (xgPts (F := F) p q f) := by unfold xgPts; infer_instance

/-! ## The schedule -/

/-- The barrier unit device `peer c (1 + d)` pays device `c`: slot `c` of the payer's receive buffer, and that the payer's
    receive semaphore `c` is at its first round. -/
def barPay (c : Dev nD) (d : Fin 3) : sProp 𝕄 :=
  iprop((∃ f, xgPts (peer c (offOf d)) c f) ∗ reached ER (recvCell (peer c (offOf d)) c) 0)
/-- A send semaphore's credit: the source slot back. -/
def sendPay (c : Dev nD) (j : Fin 3) : sProp 𝕄 := iprop(∃ f, sbPts c j f)
/-- A receive semaphore's credit: slot `p` of the receive buffer, holding what `p` shipped. -/
def recvPay (c p : Dev nD) : sProp 𝕄 :=
  iprop(∃ f, ⌜(xgM).view.readAt (Elt F) (slotRect p).toLoadRect f = sentTo c (xstg m ρ p)⌝ ∗ xgPts c p f)

def a2a : Rounds.Schedule (GSem nD τ sig) (Fin 3) 𝕄 where
  duties g r := if r = 0 ∧ g.1.2 = .tc then
      (match roleOf g.2 with
        | .bar => Finset.univ
        | .send _ => {0}
        | .recv p => if p = g.1.1 then ∅ else {0}
        | .other => ∅)
    else ∅
  unitless _ := False
  amount g _ _ := match roleOf g.2 with
    | .bar => 1
    | _ => N
  payload g _ d := match roleOf g.2 with
    | .bar => barPay g.1.1 d
    | .send j => sendPay g.1.1 j
    | .recv p => recvPay m ρ g.1.1 p
    | .other => iprop(emp)
  amount_pos g _ _ _ := by
    cases roleOf g.2 <;> first | exact Nat.one_pos | exact N_pos

instance a2a_payload_storable (g : GSem nD τ sig) (r : ℕ) (d : Fin 3) :
    BI.Storable (upEmb : UEmb _ 𝕄) ((a2a (F := F) m ρ).payload g r d) := by
  show BI.Storable upEmb (match roleOf g.2 with
    | .bar => barPay g.1.1 d
    | .send j => sendPay g.1.1 j
    | .recv p => recvPay m ρ g.1.1 p
    | .other => iprop(emp))
  unfold barPay sendPay recvPay
  split <;> infer_instance

section Tables
variable (c : Dev nD)

theorem duties_bar : (a2a (F := F) m ρ).duties (barCell c) 0 = Finset.univ := by
  dsimp only [a2a]; rw [if_pos ⟨rfl, rfl⟩, role_bar]
theorem duties_send (j : Fin 3) : (a2a (F := F) m ρ).duties (sendCell c j) 0 = {0} := by
  dsimp only [a2a]; rw [if_pos ⟨rfl, rfl⟩, role_send]
theorem duties_recv (p : Dev nD) (hp : p ≠ c) : (a2a (F := F) m ρ).duties (recvCell c p) 0 = {0} := by
  dsimp only [a2a]; rw [if_pos ⟨rfl, rfl⟩, role_recv]; exact if_neg hp
theorem duties_recv_own : ∀ r, (a2a (F := F) m ρ).duties (recvCell c c) r = ∅ := fun r => by
  dsimp only [a2a]; split
  · rw [role_recv]; exact if_pos rfl
  · rfl
theorem duties_later (g : GSem nD τ sig) : ∀ r, 1 ≤ r → (a2a (F := F) m ρ).duties g r = ∅ :=
  fun r hr => by dsimp only [a2a]; rw [if_neg fun h => by omega]

theorem amount_bar (d : Fin 3) : (a2a (F := F) m ρ).amount (barCell c) 0 d = 1 := by dsimp only [a2a]; rw [role_bar]
theorem amount_send (j d : Fin 3) : (a2a (F := F) m ρ).amount (sendCell c j) 0 d = N := by dsimp only [a2a]; rw [role_send]
theorem amount_recv (p : Dev nD) (d : Fin 3) : (a2a (F := F) m ρ).amount (recvCell c p) 0 d = N := by dsimp only [a2a]; rw [role_recv]

theorem expect_bar : (a2a (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (a2a (F := F) m ρ).expect (sendCell c j) 0 = N := by
  unfold Schedule.expect Schedule.amountOf; rw [duties_send, Finset.sum_singleton, amount_send]
theorem expect_recv (p : Dev nD) (hp : p ≠ c) : (a2a (F := F) m ρ).expect (recvCell c p) 0 = N := by
  unfold Schedule.expect Schedule.amountOf; rw [duties_recv m ρ c p hp, Finset.sum_singleton, amount_recv]

theorem payload_bar (d : Fin 3) : (a2a (F := F) m ρ).payload (barCell c) 0 d = barPay c d := by dsimp only [a2a]; rw [role_bar]
theorem payload_send (j d : Fin 3) : (a2a (F := F) m ρ).payload (sendCell c j) 0 d = sendPay c j := by dsimp only [a2a]; rw [role_send]
theorem payload_recv (p : Dev nD) (d : Fin 3) : (a2a (F := F) m ρ).payload (recvCell c p) 0 d = recvPay m ρ c p := by
  dsimp only [a2a]; rw [role_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of a barrier's round: the three peers' payloads. -/
theorem rest_bar : bigSep ((a2a (F := F) m ρ).duties (barCell c) 0 \ ∅) (fun d => (a2a (F := F) m ρ).payload (barCell c) 0 d)
    = iprop(barPay c 0 ∗ barPay c 1 ∗ barPay c 2) := by
  rw [Finset.sdiff_empty, duties_bar, bigSep_fin3, payload_bar, payload_bar, payload_bar]
theorem rest_send (j : Fin 3) : bigSep ((a2a (F := F) m ρ).duties (sendCell c j) 0 \ ∅) (fun d => (a2a (F := F) m ρ).payload (sendCell c j) 0 d) = sendPay c j := by
  rw [Finset.sdiff_empty, duties_send, bigSep_singleton, payload_send]
theorem rest_recv (p : Dev nD) (hp : p ≠ c) : bigSep ((a2a (F := F) m ρ).duties (recvCell c p) 0 \ ∅) (fun d => (a2a (F := F) m ρ).payload (recvCell c p) 0 d) = recvPay m ρ c p := by
  rw [Finset.sdiff_empty, duties_recv m ρ c p hp, bigSep_singleton, payload_recv]

end Tables

/-! ## What each device owes at launch; the levels -/

/-- Device `c` owes each peer's receive cell `c` one copy's credit and each peer's barrier cell one unit, summed so
    that the body's steps peel the summands from the right: the signals to the peers at offsets 1, 2, 3, then the copies to
    those at offsets 2, 1, 3. -/
def owedCopies (c : Dev nD) : CellTallies nD τ sig Unit :=
  tallyAt (recvCell (peer c 3) c) () N + tallyAt (recvCell (peer c 1) c) () N + tallyAt (recvCell (peer c 2) c) () N
def O₂ (c : Dev nD) : CellTallies nD τ sig Unit := owedCopies c + tallyAt (barCell (peer c 3)) () 1
def O₁ (c : Dev nD) : CellTallies nD τ sig Unit := O₂ c + tallyAt (barCell (peer c 2)) () 1
def O₀ (c : Dev nD) : CellTallies nD τ sig Unit := O₁ c + tallyAt (barCell (peer c 1)) () 1

def L (g : GSem nD τ sig) : Finset Unit := if g.1.2 = .tc then {()} else ∅
/-- Barrier cells at level 1, receive cells at 2, everything else (staging, send) at 0: a device waits on its barrier
    owing only receive credits, and on its receive and send cells owing nothing. -/
def lv (g : GSem nD τ sig) (_ : Unit) : ℕ := match roleOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c p : Dev nD) : lv (recvCell c p) () = 2 := by unfold lv; rw [role_recv]

theorem tallyAt_pos {g' g : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owedCopies_pos {c : Dev nD} {g : GSem nD τ sig} {u : Unit} (h : 0 < owedCopies c g u) : ∃ o : Fin 4, g = recvCell (peer c o) c := by
  unfold owedCopies at h
  rcases Pipeline.add_pos_cases h with h | h
  · rcases Pipeline.add_pos_cases h with h | h
    · exact ⟨3, tallyAt_pos h⟩
    · exact ⟨1, tallyAt_pos h⟩
  · exact ⟨2, tallyAt_pos h⟩

theorem O₀_pos {c : Dev nD} {g : GSem nD τ sig} {u : Unit} (h : 0 < O₀ c g u) :
    (∃ o : Fin 4, g = recvCell (peer c o) c) ∨ (∃ o : Fin 4, g = barCell (peer c o)) := by
  unfold O₀ O₁ O₂ at h
  rcases Pipeline.add_pos_cases h with h | h
  · rcases Pipeline.add_pos_cases h with h | h
    · rcases Pipeline.add_pos_cases h with h | h
      · exact .inl (owedCopies_pos h)
      · exact .inr ⟨3, tallyAt_pos h⟩
    · exact .inr ⟨2, tallyAt_pos h⟩
  · exact .inr ⟨1, tallyAt_pos h⟩

omit [FloatOps F] in
/-- The pipeline's own waits, on the staging semaphores (level 0), while the device owes everything or nothing. -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have hl : lv ((c : Thread nD τ), .dma q) () = 0 := by unfold lv; rw [hq]
    rcases O₀_pos hg with ⟨o, rfl⟩ | ⟨o, rfl⟩
    · exact ⟨by rw [L_tc]; exact Finset.mem_singleton_self _, by rw [hl, lv_recv]; decide⟩
    · exact ⟨by rw [L_tc]; exact Finset.mem_singleton_self _, by rw [hl, lv_bar]; decide⟩
  · rw [MayWait_zero]; iintro -; iempintro

omit [FloatOps F] in
/-- At its barrier wait a device owes the three receive credits only: receive cells, above its barrier cell. -/
theorem mayWait_bar (c : Dev nD) : (levAts L lv : sProp 𝕄) ⊢ MayWait (c : Thread nD τ) (.reg barS) () (owedCopies c) :=
  Pipeline.mayWait_of_levAts (by rw [L_tc]; exact Finset.mem_singleton_self _) fun g u hg => by
    obtain ⟨o, rfl⟩ := owedCopies_pos hg
    exact ⟨by rw [L_tc]; exact Finset.mem_singleton_self _, by rw [show lv ((c : Thread nD τ), .reg barS) () = 1 from lv_bar c, lv_recv]; decide⟩

/-! ## Ghost state -/

/-- Every cell's invariant, under the names `K`, and that every cell is at its first round: persistent, known to all. -/
def records (K : Dev nD × Fin 8 → ℕ) : sProp 𝕄 :=
  iprop((bigSep Finset.univ fun ck : Dev nD × Fin 8 => cellInv ER (a2a m ρ) (K ck) (kcell ck))
    ∗ bigSep Finset.univ fun ck : Dev nD × Fin 8 => reached ER (kcell ck) 0)

instance records_persistent (K : Dev nD × Fin 8 → ℕ) : BI.Persistent (records m ρ K) := by unfold records; infer_instance

/-- The index of a send or receive cell among a device's eight. -/
abbrev sendIx (j : Fin 3) : Fin 8 := ⟨1 + j.val, by omega⟩
abbrev recvIx (p : Dev nD) : Fin 8 := ⟨4 + p.val, by have : p.val < 4 := p.isLt; omega⟩
theorem kcell_bar (c : Dev nD) : kcell (c, 0) = barCell c := rfl
theorem kcell_send (c : Dev nD) (j : Fin 3) : kcell (c, sendIx j) = sendCell c j := by revert c j; decide
theorem kcell_recv (c p : Dev nD) : kcell (c, recvIx p) = recvCell c p := by revert c p; decide

/-- Device `c`'s positions on its own eight cells. -/
def positions (c : Dev nD) : sProp 𝕄 := bigSep Finset.univ fun k : Fin 8 => atPos ER (kcell (c, k)) 0 ∅ 0
/-- The tokens of the nine duties device `c` pays: for each peer, that peer's barrier unit and the arrival on that
    peer's receive cell `c`; and the departures of its own three copies. -/
def payToks (c : Dev nD) : sProp 𝕄 :=
  iprop((bigSep Finset.univ fun r : Fin 3 => dutyTok ER (barCell (peer c (offOf r))) 0 (2 - r))
    ∗ (bigSep Finset.univ fun r : Fin 3 => dutyTok ER (recvCell (peer c (offOf r)) c) 0 0)
    ∗ (bigSep Finset.univ fun r : Fin 3 => dutyTok ER (sendCell c r) 0 0))

def ghost (K : Dev nD × Fin 8 → ℕ) (c : Dev nD) : sProp 𝕄 := iprop(records m ρ K ∗ positions c ∗ payToks c)

/-- What device `c`'s body starts from: the ghost state at some names, the credit tokens of its barrier wait (three
    units) and of its three receive waits, and the level facts. -/
def start (c : Dev nD) : sProp 𝕄 :=
  iprop((∃ K, ghost m ρ K c) ∗ cred (tallyAt (barCell c) () 3)
    ∗ (bigSep Finset.univ fun r : Fin 3 => cred (tallyAt (recvCell c (peer c (offOf r))) () N)) ∗ levAts L lv)

def Φ₀ (c : Dev nD) : sProp 𝕄 := iprop(start m ρ c ∗ Pipeline.scopedRest cfg0.spec c)
/-- After the point: the two scratch buffers whole again, the seven own semaphores at zero. -/
def Φ₁ (c : Dev nD) : sProp 𝕄 := iprop(Pipeline.ownSems0 osem c ∗ Pipeline.scopedRest cfg0.spec c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.A2A

end
-- ==== Proof.Slots.lean ====
/-
  The two scratch buffers by slots: which elements a slot's view covers, that distinct slots share none, and what a
  copy from a send-buffer slot into a receive-buffer slot leaves to be read there.
-/
import proofs.«900402_g7700000000000403_dist_a2a_gemm_m1024_k1024_n1024_f32_gelu_v7x_i4_1_alg».proof.Proof.Protocol
import Idealize.ShloMosaic.Lib.Pipeline.Value

set_option maxRecDepth 16384

noncomputable section

namespace Cert.KernelIdeal.A2A

open Cert.KernelIdeal Cert.KernelIdeal.Gen
open Idealize.ShloMosaic Idealize.ShloMosaic.TcCoe
open Idealize.SL.Sem

variable {F : FTy → Type} [FloatOps F]

/-! ## The printed offsets are the plain ones -/

theorem rSlot_eq (c : Dev nD) (r : Fin 3) : rSlot c r = slotRect (peer c (offOf r)) := Rect.unit_congr (off2_eq c r) _ _
theorem rX_eq (c : Dev nD) (r : Fin 3) : rX c r = rowsRect (peer c (offOf r)) := Rect.unit_congr (off1_eq c r) _ _
theorem rSrc_eq (c : Dev nD) (r : Fin 3) :
    Rect.unit (s := S4x256x256) (k0_off5 c (BitVec.ofNat 32 (1 + r.val))) S1x256x256.size (k0_off5_inb c r) = slotRect (peer c (offOf r)) :=
  Rect.unit_congr (off5_eq c r) _ _
theorem rDst_eq (c : Dev nD) : Rect.unit (s := S4x256x256) (k0_off4 c) S1x256x256.size (k0_off4_inb c) = slotRect c :=
  Rect.unit_congr (k0_off4_eq c) _ _

/-! ## Which elements a slot covers -/

theorem xgDst_set (p : Dev nD) : (xgDst p).view.set = (slotRect p).set := by
  simp only [Memref.view_squeeze, Memref.view_slice, Memref.view_whole, View.set_reshape, View.set_slice_whole]
  exact congrArg (fun R : Rect S4x256x256 => R.set) (rDst_eq p)
theorem sbSrc_set (c : Dev nD) (r : Fin 3) : (sbSrc c r).view.set = (slotRect (peer c (offOf r))).set := by
  simp only [Memref.view_squeeze, Memref.view_slice, Memref.view_whole, View.set_reshape, View.set_slice_whole]
  exact congrArg (fun R : Rect S4x256x256 => R.set) (rSrc_eq c r)

theorem slot_disjoint (p q : Dev nD) (h : p ≠ q) : Disjoint (slotRect p).set (slotRect q).set := by
  rw [Finset.disjoint_left]
  intro i hp hq
  rw [Rect.mem_set_unit] at hp hq
  have h1 := hp 0; have h2 := hq 0
  apply h; apply Fin.ext
  simp only [Matrix.cons_val_zero] at h1 h2
  omega

theorem offOf_inj : ∀ r r' : Fin 3, offOf r = offOf r' → r = r' := by decide

theorem xg_disj (p q : Dev nD) (h : p ≠ q) : Disjoint ((xgDst p).view.set) ((xgDst q).view.set) := by
  rw [xgDst_set, xgDst_set]; exact slot_disjoint p q h
theorem sb_disj (c : Dev nD) (r r' : Fin 3) (h : r ≠ r') : Disjoint ((sbSrc c r).view.set) ((sbSrc c r').view.set) := by
  rw [sbSrc_set, sbSrc_set]
  exact slot_disjoint _ _ (fun e => h (offOf_inj _ _ (peer_inj_off c _ _ e)))

/-! ## Reading a rectangle after a write through a rectangle -/

section Moves

variable {κ : Kind} {sp : Space} {s : Shape} {e : EltTy} {Val : EltTy → Type}

/-- Loads at equal offsets read the same. -/
theorem readAt_unit_congr (v : View sig κ sp s e) {off off' size : Fin s.rank → Nat} (h : off = off')
    (p : ∀ a, off a + size a ≤ s.size a) (p' : ∀ a, off' a + size a ≤ s.size a) (f : v.ty.Contents Val) :
    v.readAt Val (Rect.unit off size p).toLoadRect f = v.readAt Val (Rect.unit off' size p').toLoadRect f := by
  subst h; rfl

/-- What is written through a rectangle on every index is read back through the rectangle at the same offsets. -/
theorem read_unit_write_unit (v : View sig κ sp s e) {off off' size : Fin s.rank → Nat} (h : off = off')
    (p : ∀ a, off a + size a ≤ s.size a) (p' : ∀ a, off' a + size a ≤ s.size a) (f : v.ty.Contents Val)
    (w : (Rect.unit off size p).shape.Idx → Val e) :
    (v.slice (Rect.unit off' size p')).read Val ((v.slice (Rect.unit off size p)).write Val f w Finset.univ) = w := by
  subst h; exact View.read_write_univ (v := v.slice (Rect.unit off size p)) f w

/-- A write through a rectangle of a whole buffer is not seen through a rectangle that shares no element with it. -/
theorem read_slice_write_disjoint (b : Ref sig κ) (r r' : Rect b.ty.shape) (h : Disjoint r.set r'.set)
    (f : b.ty.Contents Val) (w : r'.shape.Idx → Val b.ty.elt) :
    ((View.whole b).slice r).read Val (((View.whole b).slice r').write Val f w Finset.univ) = ((View.whole b).slice r).read Val f :=
  View.read_slice_write_slice_of_disjoint (v := View.whole b) r r' f w Finset.univ
    (Finset.disjoint_left.mpr fun i hi hj => Finset.disjoint_left.mp h (by rwa [View.set_slice_whole] at hi)
      (by rw [View.setOn_univ, View.set_slice_whole] at hj; exact hj))

/-- A re-indexed view reads, at an index, what the view reads at the index's place. -/
theorem read_reshape_apply (u : View sig κ sp s e) (s' : Shape) (hn : s'.numel = s.numel) (fs : u.ty.Contents Val) (z : s'.Idx) :
    (u.reshape s' hn).read Val fs z = u.read Val fs (Shape.reshapeEquiv hn z) := rfl

/-- A copy of every element from a view `u`, re-indexed to the shape `s'`, into a rectangle of `v` re-indexed to the same
    shape, leaves to be read through the rectangle at the same offsets what `u` read: the two re-indexings cancel. -/
theorem read_unit_copy (v : View sig κ sp s e) {sp' : Space} {off off' size : Fin s.rank → Nat} (h : off = off')
    (p : ∀ a, off a + size a ≤ s.size a) (p' : ∀ a, off' a + size a ≤ s.size a)
    (u : View sig κ sp' ⟨s.rank, size⟩ e) (s' : Shape) (hn : s'.numel = (⟨s.rank, size⟩ : Shape).numel)
    (fd : v.ty.Contents Val) (fs : u.ty.Contents Val) :
    (v.slice (Rect.unit off' size p')).read Val
        (((v.slice (Rect.unit off size p)).reshape s' hn).write Val fd ((u.reshape s' hn).read Val fs) Finset.univ)
      = u.read Val fs := by
  subst h
  funext y
  have hy : (v.slice (Rect.unit off size p')).emb y
      = ((v.slice (Rect.unit off size p)).reshape s' hn).emb ((Shape.reshapeEquiv hn).symm y) := by
    show _ = (v.slice (Rect.unit off size p)).emb (Shape.reshapeEquiv hn ((Shape.reshapeEquiv hn).symm y))
    rw [Equiv.apply_symm_apply]
  rw [View.read_apply, hy, View.write_emb_of_mem _ _ (Finset.mem_univ _), cast_cast, cast_eq, read_reshape_apply,
    Equiv.apply_symm_apply]

end Moves

/-! ## The send buffer's slots after the three stores; what lands in a receive slot -/

/-- The send buffer after the three rounded row blocks are stored (program order: offsets 2, 1, 3), from any earlier contents. -/
def sbAfter (c : Dev nD) (fx : XC F) (f0 : SC F) : SC F :=
  ((sbM).access (rSlot c 2) : View sig .tc _ _ _).write (Elt F)
    (((sbM).access (rSlot c 0) : View sig .tc _ _ _).write (Elt F)
      (((sbM).access (rSlot c 1) : View sig .tc _ _ _).write (Elt F) f0 (k0_pay1 (xRows c 1 fx)) Finset.univ)
      (k0_pay2 (xRows c 0 fx)) Finset.univ)
    (k0_pay3 (xRows c 2 fx)) Finset.univ

/-- The rectangle a copy's source is read through. -/
abbrev rSrc (c : Dev nD) (r : Fin 3) : Rect S4x256x256 :=
  Rect.unit (s := S4x256x256) (k0_off5 c (BitVec.ofNat 32 (1 + r.val))) S1x256x256.size (k0_off5_inb c r)

/-- A load of the receive buffer at the slot of the peer at offset `1 + r` reads only elements of that peer's slot. -/
theorem load_sub (c : Dev nD) (r : Fin 3) : (xgM).view.setOn (rSlot c r).toLoadRect.set ⊆ (xgDst (peer c (offOf r))).view.set := by
  rw [xgDst_set, ← rSlot_eq]
  intro i hi
  rw [View.setOn, Finset.mem_map] at hi
  obtain ⟨j, hj, rfl⟩ := hi
  exact hj

theorem peer_offOf_two_sub (c : Dev nD) (r : Fin 3) : peer (peer c (offOf r)) (offOf (2 - r)) = c := by revert c r; decide

/-- What device `c` reads in the slot of its peer `p` at offset `1 + r`, once `p`'s rows for `c` have landed there, is what `p`
    sent to ITS peer at offset `1 + (2 - r)`, which is `c`. -/
theorem got_of_landed (c : Dev nD) (r : Fin 3) (fx : XC F) (f : SC F)
    (h : (xgM).view.readAt (Elt F) (slotRect (peer c (offOf r))).toLoadRect f = sentTo c fx) :
    (xgM).view.readAt (Elt F) (rSlot c r).toLoadRect f = sent (peer c (offOf r)) (2 - r) fx := by
  have e1 : (xgM).view.readAt (Elt F) (rSlot c r).toLoadRect f = (xgM).view.readAt (Elt F) (slotRect (peer c (offOf r))).toLoadRect f :=
    readAt_unit_congr (xgM).view (off2_eq c r) _ _ f
  have hp := peer_offOf_two_sub c r
  have e2 : sent (peer c (offOf r)) (2 - r) fx = sentTo c fx := by
    unfold sent sentTo xRows
    exact congrArg (k0_pay1 (F := F))
      (readAt_unit_congr (xM).view ((off1_eq (peer c (offOf r)) (2 - r)).trans (by rw [hp])) _ _ fx)
  rw [e1, h, e2]

/-- A slot of the send buffer read after a store to the same slot: what was stored; -/
theorem sb_hit (c : Dev nD) (r : Fin 3) (f : SC F) (w : FVec F S1x256x256 .bf16) :
    ((sbM).view.slice (rSrc c r)).read (Elt F) (((sbM).access (rSlot c r) : View sig .tc _ _ _).write (Elt F) f w Finset.univ) = w :=
  read_unit_write_unit (sbM).view ((off2_eq c r).trans (off5_eq c r).symm) _ _ f w

/-- after a store to another slot: what it held before. -/
theorem sb_miss (c : Dev nD) (r k : Fin 3) (h : r ≠ k) (f : SC F) (w : FVec F S1x256x256 .bf16) :
    ((sbM).view.slice (rSrc c r)).read (Elt F) (((sbM).access (rSlot c k) : View sig .tc _ _ _).write (Elt F) f w Finset.univ)
      = ((sbM).view.slice (rSrc c r)).read (Elt F) f :=
  read_slice_write_disjoint cc0_scratch0 (rSrc c r) (rSlot c k) (by
    rw [show rSrc c r = slotRect (peer c (offOf r)) from rSrc_eq c r, rSlot_eq]
    exact slot_disjoint _ _ (fun e => h (offOf_inj _ _ (peer_inj_off c _ _ e)))) f w

/-- After the three stores the slot of the peer at offset `1 + r` holds that peer's rows of the device's block, rounded. -/
theorem sb_slot (c : Dev nD) (r : Fin 3) (fx : XC F) (f0 : SC F) :
    ((sbM).view.slice (rSrc c r)).read (Elt F) (sbAfter c fx f0) = k0_pay1 (xRows c r fx) := by
  have hr : ∀ r : Fin 3, r ≠ 2 → r ≠ 0 → r = 1 := by decide
  unfold sbAfter
  by_cases h2 : r = 2
  · subst h2; exact sb_hit c 2 _ _
  · rw [sb_miss c r 2 h2]
    by_cases h0 : r = 0
    · subst h0; exact sb_hit c 0 _ _
    · rw [sb_miss c r 0 h0]
      have h1 := hr r h2 h0
      subst h1; exact sb_hit c 1 _ _

/-- What is read in slot `c` of a receive buffer once device `c`'s copy to the peer at offset `1 + r` has landed there: the
    rows of `c`'s block that are that peer's, rounded. -/
theorem landed (c : Dev nD) (r : Fin 3) (fx : XC F) (f0 fn : SC F) :
    (xgM).view.readAt (Elt F) (slotRect c).toLoadRect
        ((xgDst c).view.write (Elt F) fn ((sbSrc c r).view.read (Elt F) (sbAfter c fx f0)) Finset.univ)
      = sentTo (peer c (offOf r)) fx := by
  have e1 := read_unit_copy (Val := Elt F) (xgM).view (k0_off4_eq c) (k0_off4_inb c) (slot_inb c)
    ((sbM).view.slice (rSrc c r)) S256x256 squeezes_S1x256x256_S256x256.numel_eq fn (sbAfter c fx f0)
  refine Eq.trans e1 ?_
  rw [sb_slot]
  unfold sentTo
  exact congrArg (k0_pay1 (F := F)) (readAt_unit_congr (xM).view (off1_eq c r) _ _ fx)

end Cert.KernelIdeal.A2A

end
-- ==== Proof.ValueStores.lean ====
/-
  The result buffer after the two stores, for any float values.

  The first store fills columns 0 … 511 of the 256 × 1024 buffer, the second columns 512 … 1023. A column from 512 on
  therefore holds the second payload; a column below 512 is outside the second rectangle and holds the first payload.
  Together the two rectangles cover the buffer, so nothing of its earlier contents survives.
-/
import proofs.«900402_g7700000000000403_dist_a2a_gemm_m1024_k1024_n1024_f32_gelu_v7x_i4_1_alg».proof.Proof.Spec
import Idealize.ShloMosaic.Lib.ValueIdx

noncomputable section

namespace Cert.KernelIdeal.A2A

open Cert.KernelIdeal Cert.KernelIdeal.Gen
open Idealize.ShloMosaic Idealize.ShloMosaic.ValueIdx Idealize.SL.Sem

variable {F : FTy → Type} [FloatOps F]

theorem storeL_lt (j : Fin 512) : j.val < 1024 := by omega
theorem storeR_lt (j : Fin 512) : 512 + j.val < 1024 := by omega

/-- After a store of `wL` into the left half and then of `wR` into the right half, a column from 512 on holds `wR`. -/
theorem halves_right (f0 : OC F) (wL wR : FVec F S256x512 .f32) (i : Fin 256) (j : Fin 512) :
    ((oM).access rOutR : View sig .tc _ _ _).write (Elt F)
        (((oM).access rOutL : View sig .tc _ _ _).write (Elt F) f0 wL Finset.univ) wR Finset.univ
        (ix2 i ⟨512 + j.val, storeR_lt j⟩)
      = wR (ix2 i j) := by
  have e : (ix2 i ⟨512 + j.val, storeR_lt j⟩ : S256x1024.Idx) = ((oM).access rOutR : View sig .tc _ _ _).emb (ix2 i j) :=
    funext fun a => Fin.ext (by
      match a with
      | ⟨0, _⟩ => show i.val = 0 + 1 * i.val; omega
      | ⟨1, _⟩ => show 512 + j.val = 512 + 1 * j.val; omega)
  rw [e]
  exact View.write_emb_of_mem _ _ (Finset.mem_univ _)

/-- A column below 512 is outside the right half, -/
theorem left_not_mem_right (i : Fin 256) (j : Fin 512) :
    (ix2 i ⟨j.val, storeL_lt j⟩ : S256x1024.Idx) ∉ ((oM).access rOutR : View sig .tc _ _ _).setOn Finset.univ := by
  show _ ∉ ((View.whole cc0_stg2_0).slice rOutR).set
  rw [View.set_slice_whole, Rect.mem_set_unit]
  intro h
  have h1 := (h ⟨1, by decide⟩).1
  have h2 : (512 : Nat) ≤ j.val := h1
  omega

/-- so it holds what the first store left there: `wL`. -/
theorem halves_left (f0 : OC F) (wL wR : FVec F S256x512 .f32) (i : Fin 256) (j : Fin 512) :
    ((oM).access rOutR : View sig .tc _ _ _).write (Elt F)
        (((oM).access rOutL : View sig .tc _ _ _).write (Elt F) f0 wL Finset.univ) wR Finset.univ
        (ix2 i ⟨j.val, storeL_lt j⟩)
      = wL (ix2 i j) := by
  rw [View.write_of_not_mem _ _ _ (left_not_mem_right i j)]
  have e : (ix2 i ⟨j.val, storeL_lt j⟩ : S256x1024.Idx) = ((oM).access rOutL : View sig .tc _ _ _).emb (ix2 i j) :=
    funext fun a => Fin.ext (by
      match a with
      | ⟨0, _⟩ => show i.val = 0 + 1 * i.val; omega
      | ⟨1, _⟩ => show j.val = 0 + 1 * j.val; omega)
  rw [e]
  exact View.write_emb_of_mem _ _ (Finset.mem_univ _)

/-- Every entry after the two stores: the first payload below column 512, the second from there on. -/
theorem halves_read (f0 : OC F) (wL wR : FVec F S256x512 .f32) (i : Fin 256) (J : Fin 1024) :
    ((oM).access rOutR : View sig .tc _ _ _).write (Elt F)
        (((oM).access rOutL : View sig .tc _ _ _).write (Elt F) f0 wL Finset.univ) wR Finset.univ (ix2 i J)
      = if h : J.val < 512 then wL (ix2 i ⟨J.val, h⟩) else wR (ix2 i ⟨J.val - 512, by omega⟩) := by
  by_cases hJ : J.val < 512
  · rw [dif_pos hJ]
    exact halves_left f0 wL wR i ⟨J.val, hJ⟩
  · rw [dif_neg hJ]
    have hJ' : J.val - 512 < 512 := by omega
    have key := halves_right f0 wL wR i ⟨J.val - 512, hJ'⟩
    have eJ : (⟨512 + (⟨J.val - 512, hJ'⟩ : Fin 512).val, storeR_lt ⟨J.val - 512, hJ'⟩⟩ : Fin 1024) = J :=
      Fin.ext (by show 512 + (J.val - 512) = J.val; omega)
    rw [eJ] at key
    exact key

/-- The result buffer at an entry: the stored left half below column 512, the stored right half from there on. -/
theorem outFinal_read (c : Dev nD) (fxs : Dev nD → XC F) (fw : WC F) (f0 : OC F) (i : Fin 256) (J : Fin 1024) :
    outFinal c fxs fw f0 (ix2 i J)
      = if h : J.val < 512 then outL c fxs fw (ix2 i ⟨J.val, h⟩) else outR c fxs fw (ix2 i ⟨J.val - 512, by omega⟩) :=
  halves_read f0 (outL c fxs fw) (outR c fxs fw) i J

/-- The two stores cover the buffer: its contents afterwards do not depend on what it held before. -/
theorem outFinal_indep (c : Dev nD) (fxs : Dev nD → XC F) (fw : WC F) (f0 f0' : OC F) :
    outFinal c fxs fw f0 = outFinal c fxs fw f0' := by
  funext y
  obtain ⟨i, J, rfl⟩ : ∃ (i : Fin 256) (J : Fin 1024), y = ix2 i J := ⟨y 0, y 1, eq_ix2 y⟩
  rw [outFinal_read, outFinal_read]

end Cert.KernelIdeal.A2A

/-- info: 'Cert.KernelIdeal.A2A.outFinal_indep' depends on axioms: [propext, Classical.choice, Quot.sound] -/
#guard_msgs in #print axioms Cert.KernelIdeal.A2A.outFinal_indep

end
-- ==== Proof.Body.lean ====
/-
  One device's body of the four-device all-to-all, run from its share of the protocol's ghost state.

  In program order: the device rounds the three row blocks of its `x` block bound for its peers into its send buffer; tells each
  peer, on that peer's barrier semaphore, that it is inside the kernel, handing over the slot of its receive buffer that peer
  will fill; waits for the three peers' units, receiving slot `c` of each peer's receive buffer; starts its three copies; multiplies
  its own rows; for each peer waits for that peer's copy, reads the slot it filled and accumulates the product; stores the gelu of
  the two halves; and waits for its three copies to have left. Every semaphore it owns ends at zero and both scratch buffers whole.
-/
import proofs.«900402_g7700000000000403_dist_a2a_gemm_m1024_k1024_n1024_f32_gelu_v7x_i4_1_alg».proof.Proof.Protocol
import proofs.«900402_g7700000000000403_dist_a2a_gemm_m1024_k1024_n1024_f32_gelu_v7x_i4_1_alg».proof.Proof.Slots
import proofs.«900402_g7700000000000403_dist_a2a_gemm_m1024_k1024_n1024_f32_gelu_v7x_i4_1_alg».proof.Proof.ValueStores

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- The four devices, listed from `c` around the mesh. -/
theorem bigSep_peers (c : Dev nD) (Φ : Dev nD → sProp 𝕄) : bigSep Finset.univ Φ = iprop(Φ c ∗ Φ (peer c 1) ∗ Φ (peer c 2) ∗ Φ (peer c 3)) :=
  bigSep_univ_eq_bigSepL [c, peer c 1, peer c 2, peer c 3] (by revert c; decide) (by revert c; decide) Φ

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_elim' {I : Type} [DecidableEq I] [Fintype I] (Φ : I → sProp 𝕄) (i : I) : bigSep Finset.univ Φ ⊢ Φ i := bigSep_elim (Finset.mem_univ i)
theorem inv_at (K : Dev nD × Fin 8 → ℕ) (ck : Dev nD × Fin 8) :
    (bigSep Finset.univ fun ck : Dev nD × Fin 8 => (cellInv ER (a2a m ρ) (K ck) (kcell ck) : sProp 𝕄)) ⊢ cellInv ER (a2a m ρ) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- Going to the peer at offset `1 + r` and from there to the peer at offset `1 + (2 - r)` comes back. -/
theorem peer_round (c : Dev nD) (r : Fin 3) : peer (peer c (offOf r)) (offOf (2 - r)) = c := by revert c r; decide
theorem peer_ne_self (c : Dev nD) (r : Fin 3) : peer c (offOf r) ≠ c := by revert c r; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 8 → ℕ)

def bodyPre (c : Dev nD) : sProp 𝕄 :=
  iprop((ghost m ρ K c ∗ cred (tallyAt (barCell c) () 3)
      ∗ (bigSep Finset.univ fun r : Fin 3 => cred (tallyAt (recvCell c (peer c (offOf r))) () N)) ∗ levAts L lv
      ∗ Pipeline.scopedRest cfg0.spec c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

theorem inv_bar (d : Dev nD) :
    (bigSep Finset.univ fun ck : Dev nD × Fin 8 => (cellInv ER (a2a m ρ) (K ck) (kcell ck) : sProp 𝕄)) ⊢ cellInv ER (a2a m ρ) (K (d, 0)) (barCell d) := inv_at m ρ K (d, 0)
theorem inv_send (d : Dev nD) (j : Fin 3) :
    (bigSep Finset.univ fun ck : Dev nD × Fin 8 => (cellInv ER (a2a m ρ) (K ck) (kcell ck) : sProp 𝕄)) ⊢ cellInv ER (a2a m ρ) (K (d, sendIx j)) (sendCell d j) := by
  rw [← kcell_send]; exact inv_at m ρ K (d, sendIx j)
theorem inv_recv (d p : Dev nD) :
    (bigSep Finset.univ fun ck : Dev nD × Fin 8 => (cellInv ER (a2a m ρ) (K ck) (kcell ck) : sProp 𝕄)) ⊢ cellInv ER (a2a m ρ) (K (d, recvIx p)) (recvCell d p) := by
  rw [← kcell_recv]; exact inv_at m ρ K (d, recvIx p)
omit [FloatOps F] in
theorem reached_bar (d : Dev nD) :
    (bigSep Finset.univ fun ck : Dev nD × Fin 8 => (reached ER (kcell ck) 0 : sProp 𝕄)) ⊢ reached ER (barCell d) 0 := reached_at (d, 0)
omit [FloatOps F] in
theorem reached_send (d : Dev nD) (j : Fin 3) :
    (bigSep Finset.univ fun ck : Dev nD × Fin 8 => (reached ER (kcell ck) 0 : sProp 𝕄)) ⊢ reached ER (sendCell d j) 0 := by
  rw [← kcell_send]; exact reached_at (d, sendIx j)
omit [FloatOps F] in
theorem reached_recv (d p : Dev nD) :
    (bigSep Finset.univ fun ck : Dev nD × Fin 8 => (reached ER (kcell ck) 0 : sProp 𝕄)) ⊢ reached ER (recvCell d p) 0 := by
  rw [← kcell_recv]; exact reached_at (d, recvIx p)

omit [FloatOps F] in
/-- A device's positions, its own receive cells listed around the mesh from itself. -/
theorem positions_eq (c : Dev nD) : (positions c : sProp 𝕄) =
    iprop(atPos ER (barCell c) 0 ∅ 0 ∗ atPos ER (sendCell c 0) 0 ∅ 0 ∗ atPos ER (sendCell c 1) 0 ∅ 0 ∗ atPos ER (sendCell c 2) 0 ∅ 0
      ∗ atPos ER (recvCell c c) 0 ∅ 0 ∗ atPos ER (recvCell c (peer c 1)) 0 ∅ 0 ∗ atPos ER (recvCell c (peer c 2)) 0 ∅ 0 ∗ atPos ER (recvCell c (peer c 3)) 0 ∅ 0) := by
  unfold positions
  rw [bigSep_fin8, ← bigSep_peers c (fun p => (atPos ER (recvCell c p) 0 ∅ 0 : sProp 𝕄)), bigSep_fin4]
  rfl

omit [FloatOps F] in
/-- The kernel's own semaphores at zero, the receive ones listed around the mesh from the device itself. -/
theorem ownSems_eq (c : Dev nD) : (Pipeline.ownSems0 (Ix := Unit) (Name := ℕ) (U := UU) (Lvl := ℕ) (Val := Elt F) (τ := τ) osem c : sProp 𝕄) =
    iprop(semVal (sendCell c 0) 0 ∗ semVal (sendCell c 1) 0 ∗ semVal (sendCell c 2) 0
      ∗ semVal (recvCell c c) 0 ∗ semVal (recvCell c (peer c 1)) 0 ∗ semVal (recvCell c (peer c 2)) 0 ∗ semVal (recvCell c (peer c 3)) 0) := by
  unfold Pipeline.ownSems0
  rw [bigSep_fin7, ← bigSep_peers c (fun p => (semVal (recvCell c p) 0 : sProp 𝕄)), bigSep_fin4]
  rfl

/-- One copy: device `c`'s slot for the peer at offset `1 + r`, into slot `c` of that peer's receive buffer. -/
theorem wp_send_a2a (c n : Dev nD) (r : Fin 3) (hn : n = peer c (offOf r))
    {hsc : (xgDst c : Memref sig (Dev.tc n : Thread nD τ).2.kind .vmem S256x256 .bf16).view.ref.isScScratch = false}
    {hsrc : (sbSrc c r).view.WordExact} {hdst : (xgDst c).view.WordExact}
    {hsem : DmaTarget.Typed .vmem (.dma (recvSem c)) (.remote (Dev.tc n : Thread nD τ) (xgDst c) (.dma (sendSem r)) hsc)}
    {α : Type} {Q : α → sProp 𝕄} {k : PUnit → Prog (TpuEff nD τ sig (Elt F) Λ₀ .tc) α}
    (fs : Buf (Elt F) ((sbSrc c r).view.loc (c : Thread nD τ))) (fn : Buf (Elt F) ((xgDst c).view.loc (peer c (offOf r) : Thread nD τ)))
    (O : CellTallies nD τ sig Unit) (W : Waits sig Unit)
    (hland : (xgM).view.readAt (Elt F) (slotRect c).toLoadRect ((xgDst c).view.write (Elt F) fn ((sbSrc c r).view.read (Elt F) fs) Finset.univ)
      = sentTo (peer c (offOf r)) (xstg m ρ c)) :
    iprop(cellInv ER (a2a m ρ) (K (c, sendIx r)) (sendCell c r) ∗ cellInv ER (a2a m ρ) (K (peer c (offOf r), recvIx c)) (recvCell (peer c (offOf r)) c)
        ∗ sbPts c r fs ∗ xgPts (peer c (offOf r)) c fn
        ∗ owes (c : Thread nD τ) (O + tallyAt (recvCell (peer c (offOf r)) c) () N) W
        ∗ dutyTok ER (sendCell c r) 0 0 ∗ reached ER (sendCell c r) 0
        ∗ dutyTok ER (recvCell (peer c (offOf r)) c) 0 0 ∗ reached ER (recvCell (peer c (offOf r)) c) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSrc c r) (.remote (Dev.tc n : Thread nD τ) (xgDst c) (.dma (sendSem r)) hsc) (.dma (recvSem c)) hsrc hdst hsem) k) Q) := by
  subst hn
  unfold sbPts xgPts
  exact Rounds.wp_send_pointsTo 𝒱₀ ER (a2a m ρ) (c : Thread nD τ) none (κ₁ := K (c, sendIx r)) (κ₂ := K (peer c (offOf r), recvIx c))
    (r₁ := 0) (r₂ := 0) (d₁ := 0) (d₂ := 0) (fd := fn)
    (by rw [duties_send]; exact Finset.mem_singleton_self _)
    (by rw [duties_recv m ρ _ _ (peer_ne_self c r).symm]; exact Finset.mem_singleton_self _)
    () () N rfl (amount_send m ρ c r 0) (amount_recv m ρ (peer c (offOf r)) c 0) O rfl (W := W)
    (by rw [payload_send]; unfold sendPay sbPts; iintro H; iexists fs; iexact H)
    (by rw [payload_recv]; unfold recvPay xgPts; iintro H; iexists _; isplitr; · (ipureintro; exact hland)
        iexact H)

/-- The receive semaphores the body waits on, for the peers at offsets 1, 2, 3. -/
theorem recv_sem_p1 (c : Dev nD) :
    (((cc0_scratch3).slice (Rect.unit (s := S4) (k0_off8 c 1#32) S1.size (k0_off8_inb c 0))).squeeze S_ squeezes_S1_S_).sem = recvSem (peer c 1) := recv_sem_peer c 0
theorem recv_sem_p2 (c : Dev nD) :
    (((cc0_scratch3).slice (Rect.unit (s := S4) (k0_off8 c 2#32) S1.size (k0_off8_inb c 1))).squeeze S_ squeezes_S1_S_).sem = recvSem (peer c 2) := recv_sem_peer c 1
theorem recv_sem_p3 (c : Dev nD) :
    (((cc0_scratch3).slice (Rect.unit (s := S4) (k0_off8 c 3#32) S1.size (k0_off8_inb c 2))).squeeze S_ squeezes_S1_S_).sem = recvSem (peer c 3) := recv_sem_peer c 2

/-- `rest_send` at a send semaphore however it is spelt. -/
theorem rest_send' (c : Dev nD) (j : Fin 3) (q : DmaSem sig) (hq : q = sendSem j) :
    bigSep ((a2a (F := F) m ρ).duties ((c : Thread nD τ), .dma q) 0 \ ∅) (fun d => (a2a (F := F) m ρ).payload ((c : Thread nD τ), .dma q) 0 d) = sendPay c j := by
  subst hq; exact rest_send m ρ c j

set_option maxHeartbeats 8000000 in
/-- The body, run from `bodyPre` one rule per effect in program order, to `bodyPost`. The facts about the scratch buffers'
    slots it uses are its hypotheses: distinct slots share no element; a slot read through the body's load rectangle lies in the
    slot; what lands in a peer's slot reads as the rounded rows sent; a slot known by its plain rectangle reads the same
    through the body's; and the two result stores leave nothing of the buffer's earlier contents. -/
theorem sound_body
    (hxg_disj : ∀ p q : Dev nD, p ≠ q → Disjoint ((xgDst p).view.set) ((xgDst q).view.set))
    (hsb_disj : ∀ (c : Dev nD) (r r' : Fin 3), r ≠ r' → Disjoint ((sbSrc c r).view.set) ((sbSrc c r').view.set))
    (hload_sub : ∀ (c : Dev nD) (r : Fin 3), (xgM).view.setOn (rSlot c r).toLoadRect.set ⊆ (xgDst (peer c (offOf r))).view.set)
    (hland : ∀ (c : Dev nD) (r : Fin 3) (fx : XC F) (f0 fn : SC F),
      (xgM).view.readAt (Elt F) (slotRect c).toLoadRect ((xgDst c).view.write (Elt F) fn ((sbSrc c r).view.read (Elt F) (sbAfter c fx f0)) Finset.univ)
        = sentTo (peer c (offOf r)) fx)
    (hgot : ∀ (c : Dev nD) (r : Fin 3) (fx : XC F) (f : SC F),
      (xgM).view.readAt (Elt F) (slotRect (peer c (offOf r))).toLoadRect f = sentTo c fx →
      (xgM).view.readAt (Elt F) (rSlot c r).toLoadRect f = sent (peer c (offOf r)) (2 - r) fx)
    (hout : ∀ (c : Dev nD) (fxs : Dev nD → XC F) (fw : WC F) (f0 f0' : OC F), outFinal c fxs fw f0 = outFinal c fxs fw f0')
    (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) wM (Memref.isWhole_whole _) oM (Memref.isWhole_whole _) sbM (Memref.isWhole_whole _) xgM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  simp only [recv_sem_own c, recv_sem_p1 c, recv_sem_p2 c, recv_sem_p3 c, dev1_eq c, dev2_eq c, dev3_eq c]
  unfold bodyPre ghost payToks records
  rw [Gen.scopedRest0_eq, positions_eq]
  simp only [bigSep_fin3]
  iintro ⟨⟨⟨⟨⟨#HI, #HR⟩, ⟨HaB, HaS0, HaS1, HaS2, HaRc, HaR1, HaR2, HaR3⟩, ⟨HtB0, HtB1, HtB2⟩, ⟨HtR0, HtR1, HtR2⟩, ⟨HtS0, HtS1, HtS2⟩⟩, HcB, ⟨HcR0, HcR1, HcR2⟩, #Hlev,
      ⟨%fsb0, Hsb⟩, ⟨%fxg0, Hxg⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]

  -- the three row blocks bound for the peers, rounded, into the send buffer (offsets 2, 1, 3)
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 1) (Mk := Finset.univ) (Finset.subset_univ _)) $$ Hsb; iintro Hsb
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 0) (Mk := Finset.univ) (Finset.subset_univ _)) $$ Hsb; iintro Hsb
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 2) (Mk := Finset.univ) (Finset.subset_univ _)) $$ Hsb; iintro Hsb
  have hJ2 : (xgDst (peer c 2)).view.set ⊆ Finset.univ \ (xgDst (peer c 1)).view.set :=
    Finset.subset_sdiff.mpr ⟨Finset.subset_univ _, hxg_disj _ _ (fun e => absurd (peer_inj_off c _ _ e) (by decide))⟩
  have hJ3 : (xgDst (peer c 3)).view.set ⊆ (Finset.univ \ (xgDst (peer c 1)).view.set) \ (xgDst (peer c 2)).view.set :=
    Finset.subset_sdiff.mpr ⟨Finset.subset_sdiff.mpr ⟨Finset.subset_univ _, hxg_disj _ _ (fun e => absurd (peer_inj_off c _ _ e) (by decide))⟩,
      hxg_disj _ _ (fun e => absurd (peer_inj_off c _ _ e) (by decide))⟩
  have hI0 : (sbSrc c 0).view.set ⊆ Finset.univ \ (sbSrc c 1).view.set :=
    Finset.subset_sdiff.mpr ⟨Finset.subset_univ _, hsb_disj c 0 1 (by decide)⟩
  have hI2 : (sbSrc c 2).view.set ⊆ (Finset.univ \ (sbSrc c 1).view.set) \ (sbSrc c 0).view.set :=
    Finset.subset_sdiff.mpr ⟨Finset.subset_sdiff.mpr ⟨Finset.subset_univ _, hsb_disj c 2 1 (by decide)⟩, hsb_disj c 2 0 (by decide)⟩
  -- the receive buffer by slots: one for each peer, and the rest
  ihave Hs := (pointsTo_split_subset (I := (xgDst (peer c 1)).view.set) (Finset.subset_univ _)).1 $$ Hxg
  icases Hs with ⟨Hxg1, Hxg⟩
  ihave Hs := (pointsTo_split_subset (I := (xgDst (peer c 2)).view.set) hJ2).1 $$ Hxg
  icases Hs with ⟨Hxg2, Hxg⟩
  ihave Hs := (pointsTo_split_subset (I := (xgDst (peer c 3)).view.set) hJ3).1 $$ Hxg
  icases Hs with ⟨Hxg3, Hxg⟩
  -- the three barrier units, each handing the peer the slot it will fill
  have hp1 : peer (peer c 1) (offOf 2) = c := peer_round c 0
  have hp2 : peer (peer c 2) (offOf 1) = c := peer_round c 1
  have hp3 : peer (peer c 3) (offOf 0) = c := peer_round c 2
  iapply (Rounds.wp_signal 𝒱₀ ER (a2a m ρ) (c : Thread nD τ) none (dst := (peer c 1 : Thread nD τ)) (κ := K (peer c 1, 0))
      (d := 2) (by rw [duties_bar]; exact Finset.mem_univ _) ((amount_bar m ρ (peer c 1) 2).trans (by decide)) () (O₁ c) rfl)
    $$ [HO HtB0 Hxg1]
  · isplitr; · iapply (inv_bar m ρ K (peer c 1)); iexact HI
    isplitl [HO]; · iexact HO
    isplitl [HtB0]; · iexact HtB0
    isplitl [Hxg1]
    · rw [payload_bar]; unfold barPay xgPts; rw [hp1]
      isplitl [Hxg1]; · iexists fxg0; iexact Hxg1
      iapply (reached_recv c (peer c 1)); iexact HR
    · iapply (reached_bar (peer c 1)); iexact HR
  iintro HO

  unfold O₁
  iapply (Rounds.wp_signal 𝒱₀ ER (a2a m ρ) (c : Thread nD τ) none (dst := (peer c 2 : Thread nD τ)) (κ := K (peer c 2, 0))
      (d := 1) (by rw [duties_bar]; exact Finset.mem_univ _) ((amount_bar m ρ (peer c 2) 1).trans (by decide)) () (O₂ c) rfl)
    $$ [HO HtB1 Hxg2]
  · isplitr; · iapply (inv_bar m ρ K (peer c 2)); iexact HI
    isplitl [HO]; · iexact HO
    isplitl [HtB1]; · iexact HtB1
    isplitl [Hxg2]
    · rw [payload_bar]; unfold barPay xgPts; rw [hp2]
      isplitl [Hxg2]; · iexists fxg0; iexact Hxg2
      iapply (reached_recv c (peer c 2)); iexact HR
    · iapply (reached_bar (peer c 2)); iexact HR
  iintro HO
  unfold O₂
  iapply (Rounds.wp_signal 𝒱₀ ER (a2a m ρ) (c : Thread nD τ) none (dst := (peer c 3 : Thread nD τ)) (κ := K (peer c 3, 0))
      (d := 0) (by rw [duties_bar]; exact Finset.mem_univ _) ((amount_bar m ρ (peer c 3) 0).trans (by decide)) () (owedCopies c) rfl)
    $$ [HO HtB2 Hxg3]
  · isplitr; · iapply (inv_bar m ρ K (peer c 3)); iexact HI
    isplitl [HO]; · iexact HO
    isplitl [HtB2]; · iexact HtB2
    isplitl [Hxg3]
    · rw [payload_bar]; unfold barPay xgPts; rw [hp3]
      isplitl [Hxg3]; · iexists fxg0; iexact Hxg3
      iapply (reached_recv c (peer c 3)); iexact HR
    · iapply (reached_bar (peer c 3)); iexact HR
  iintro HO
  -- the wait for the three peers' units: slot `c` of each peer's receive buffer comes with them
  iapply (Rounds.wp_wait_rest_token 𝒱₀ ER (a2a m ρ) (c : Thread nD τ) none (κ := K (c, 0))
      (wpE_semWait_eq 𝒱₀ (c : Thread nD τ) none Set.univ) (Set.mem_univ _) () (O := owedCopies c) (W := W) (R := 0) (m := 0) (T := ∅)
      (by rw [expect_bar]; decide)) $$ [HcB HO HaB]
  · isplitr; · iapply (inv_bar m ρ K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn1, Hd1⟩, -⟩, ⟨⟨%fn2, Hd2⟩, -⟩, ⟨⟨%fn3, Hd3⟩, -⟩⟩

  -- the send buffer by slots: one for each copy, and the rest
  ihave Hs := (pointsTo_split_subset (I := (sbSrc c 1).view.set) (Finset.subset_univ _)).1 $$ Hsb
  icases Hs with ⟨Hsb1, Hsb⟩
  ihave Hs := (pointsTo_split_subset (I := (sbSrc c 0).view.set) hI0).1 $$ Hsb
  icases Hs with ⟨Hsb0, Hsb⟩
  ihave Hs := (pointsTo_split_subset (I := (sbSrc c 2).view.set) hI2).1 $$ Hsb
  icases Hs with ⟨Hsb2, Hsb⟩
  -- the three copies: to the peers at offsets 2, 1, 3
  unfold owedCopies
  iapply (wp_send_a2a m ρ K c _ 1 (dev4_eq c) (sbAfter c (xstg m ρ c) fsb0) fn2
      (tallyAt (recvCell (peer c 3) c) () N + tallyAt (recvCell (peer c 1) c) () N) _
      (hland c 1 (xstg m ρ c) fsb0 fn2)) $$ [Hsb1 Hd2 HO HtS1 HtR1]
  · isplitr; · iapply (inv_send m ρ K c 1); iexact HI
    isplitr; · iapply (inv_recv m ρ K (peer c 2) c); iexact HI
    isplitl [Hsb1]; · unfold sbPts; iexact Hsb1
    isplitl [Hd2]; · iexact Hd2
    isplitl [HO]; · iexact HO
    isplitl [HtS1]; · iexact HtS1
    isplitr; · iapply (reached_send c 1); iexact HR
    isplitl [HtR1]; · iexact HtR1
    iapply (reached_recv (peer c 2) c); iexact HR
  iintro ⟨HcS1, HO⟩
  iapply (wp_send_a2a m ρ K c _ 0 (dev5_eq c) (sbAfter c (xstg m ρ c) fsb0) fn1
      (tallyAt (recvCell (peer c 3) c) () N) _
      (hland c 0 (xstg m ρ c) fsb0 fn1)) $$ [Hsb0 Hd1 HO HtS0 HtR0]
  · isplitr; · iapply (inv_send m ρ K c 0); iexact HI
    isplitr; · iapply (inv_recv m ρ K (peer c 1) c); iexact HI
    isplitl [Hsb0]; · unfold sbPts; iexact Hsb0
    isplitl [Hd1]; · iexact Hd1
    isplitl [HO]; · iexact HO
    isplitl [HtS0]; · iexact HtS0
    isplitr; · iapply (reached_send c 0); iexact HR
    isplitl [HtR0]; · iexact HtR0
    iapply (reached_recv (peer c 1) c); iexact HR
  iintro ⟨HcS0, HO⟩
  iapply (wp_send_a2a m ρ K c _ 2 (dev6_eq c) (sbAfter c (xstg m ρ c) fsb0) fn3
      0 _
      (hland c 2 (xstg m ρ c) fsb0 fn3)) $$ [Hsb2 Hd3 HO HtS2 HtR2]
  · isplitr; · iapply (inv_send m ρ K c 2); iexact HI
    isplitr; · iapply (inv_recv m ρ K (peer c 3) c); iexact HI
    isplitl [Hsb2]; · unfold sbPts; iexact Hsb2
    isplitl [Hd3]; · iexact Hd3
    isplitl [HO]; · rw [zero_add]; iexact HO
    isplitl [HtS2]; · iexact HtS2
    isplitr; · iapply (reached_send c 2); iexact HR
    isplitl [HtR2]; · iexact HtR2
    iapply (reached_recv (peer c 3) c); iexact HR
  iintro ⟨HcS2, HO⟩
  -- the device's own rows and the matching rows of the weights
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw

  -- the copy from the peer at offset 1 has landed: its slot, holding that peer's rounded rows
  iapply (Rounds.wp_wait_rest_token 𝒱₀ ER (a2a m ρ) (c : Thread nD τ) none (κ := K (c, recvIx (peer c 1)))
      (wpE_waitDma2_eq 𝒱₀ (c : Thread nD τ) none Set.univ) (Set.mem_univ _) () (O := 0) (R := 0) (m := 0) (T := ∅)
      (by rw [Nat.zero_add, expect_recv m ρ c (peer c 1) (peer_ne_self c 0)])) $$ [HcR0 HO HaR1]
  · isplitr; · iapply (inv_recv m ρ K c (peer c 1)); iexact HI
    isplitl [HcR0]; · iexact HcR0
    isplitl [HO]; · iexact HO
    isplitr; · rw [MayWait_zero]; iempintro
    iexact HaR1
  iintro ⟨HO, HaR1, -, Hpay⟩
  ihave Hp := (Entails.of_eq (rest_recv m ρ c (peer c 1) (peer_ne_self c 0))) $$ Hpay
  unfold recvPay xgPts
  icases Hp with ⟨%gx1, %hgx1, Hgx1⟩
  have hv1 := hgot c 0 (xstg m ρ (peer c 1)) gx1 hgx1
  iapply (wp_load 𝒱₀ (c : Thread nD τ) none Set.univ (m := xgM) (S := (xgDst (peer c 1)).view.set) (q := fullShare) (f := gx1) (hload_sub c 0)) $$ Hgx1; iintro Hgx1
  iapply (wp_load 𝒱₀ (c : Thread nD τ) none Set.univ (m := wM) (Finset.subset_univ _)) $$ Hw; iintro Hw

  -- the copy from the peer at offset 3 has landed: its slot, holding that peer's rounded rows
  iapply (Rounds.wp_wait_rest_token 𝒱₀ ER (a2a m ρ) (c : Thread nD τ) none (κ := K (c, recvIx (peer c 3)))
      (wpE_waitDma2_eq 𝒱₀ (c : Thread nD τ) none Set.univ) (Set.mem_univ _) () (O := 0) (R := 0) (m := 0) (T := ∅)
      (by rw [Nat.zero_add, expect_recv m ρ c (peer c 3) (peer_ne_self c 2)])) $$ [HcR2 HO HaR3]
  · isplitr; · iapply (inv_recv m ρ K c (peer c 3)); iexact HI
    isplitl [HcR2]; · iexact HcR2
    isplitl [HO]; · iexact HO
    isplitr; · rw [MayWait_zero]; iempintro
    iexact HaR3
  iintro ⟨HO, HaR3, -, Hpay⟩
  ihave Hp := (Entails.of_eq (rest_recv m ρ c (peer c 3) (peer_ne_self c 2))) $$ Hpay
  unfold recvPay xgPts
  icases Hp with ⟨%gx3, %hgx3, Hgx3⟩
  have hv3 := hgot c 2 (xstg m ρ (peer c 3)) gx3 hgx3
  iapply (wp_load 𝒱₀ (c : Thread nD τ) none Set.univ (m := xgM) (S := (xgDst (peer c 3)).view.set) (q := fullShare) (f := gx3) (hload_sub c 2)) $$ Hgx3; iintro Hgx3
  iapply (wp_load 𝒱₀ (c : Thread nD τ) none Set.univ (m := wM) (Finset.subset_univ _)) $$ Hw; iintro Hw

  -- the copy from the peer at offset 2 has landed: its slot, holding that peer's rounded rows
  iapply (Rounds.wp_wait_rest_token 𝒱₀ ER (a2a m ρ) (c : Thread nD τ) none (κ := K (c, recvIx (peer c 2)))
      (wpE_waitDma2_eq 𝒱₀ (c : Thread nD τ) none Set.univ) (Set.mem_univ _) () (O := 0) (R := 0) (m := 0) (T := ∅)
      (by rw [Nat.zero_add, expect_recv m ρ c (peer c 2) (peer_ne_self c 1)])) $$ [HcR1 HO HaR2]
  · isplitr; · iapply (inv_recv m ρ K c (peer c 2)); iexact HI
    isplitl [HcR1]; · iexact HcR1
    isplitl [HO]; · iexact HO
    isplitr; · rw [MayWait_zero]; iempintro
    iexact HaR2
  iintro ⟨HO, HaR2, -, Hpay⟩
  ihave Hp := (Entails.of_eq (rest_recv m ρ c (peer c 2) (peer_ne_self c 1))) $$ Hpay
  unfold recvPay xgPts
  icases Hp with ⟨%gx2, %hgx2, Hgx2⟩
  have hv2 := hgot c 1 (xstg m ρ (peer c 2)) gx2 hgx2
  iapply (wp_load 𝒱₀ (c : Thread nD τ) none Set.univ (m := xgM) (S := (xgDst (peer c 2)).view.set) (q := fullShare) (f := gx2) (hload_sub c 1)) $$ Hgx2; iintro Hgx2
  iapply (wp_load 𝒱₀ (c : Thread nD τ) none Set.univ (m := wM) (Finset.subset_univ _)) $$ Hw; iintro Hw

  -- the gelu of the two halves into the result block
  iapply (wp_load 𝒱₀ (c : Thread nD τ) none Set.univ (m := oM) (Finset.subset_univ _)) $$ Hout; iintro Hout
  iapply (wp_store 𝒱₀ (c : Thread nD τ) none Set.univ (m := oM) (r := rOutL) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rOutR) (Mk := Finset.univ) (Finset.subset_univ _)) $$ Hout; iintro Hout
  -- the three copies have left their source slots

  iapply (Rounds.wp_wait_rest_token 𝒱₀ ER (a2a m ρ) (c : Thread nD τ) none (κ := K (c, sendIx 1))
      (wpE_waitDma2_eq 𝒱₀ (c : Thread nD τ) none Set.univ) (Set.mem_univ _) () (O := 0) (R := 0) (m := 0) (T := ∅)
      (by show 0 + _ = (a2a m ρ).expect (sendCell c 1) 0; rw [Nat.zero_add, expect_send])) $$ [HcS1 HO HaS1]
  · isplitr; · iapply (inv_send m ρ K c 1); iexact HI
    isplitl [HcS1]; · iexact HcS1
    isplitl [HO]; · iexact HO
    isplitr; · rw [MayWait_zero]; iempintro
    iexact HaS1
  iintro ⟨HO, HaS1, -, Hpay⟩
  ihave Hp := (Entails.of_eq (rest_send' m ρ c 1 _ send_sem_eq1)) $$ Hpay
  unfold sendPay sbPts
  icases Hp with ⟨%fs1, Hs1⟩

  iapply (Rounds.wp_wait_rest_token 𝒱₀ ER (a2a m ρ) (c : Thread nD τ) none (κ := K (c, sendIx 0))
      (wpE_waitDma2_eq 𝒱₀ (c : Thread nD τ) none Set.univ) (Set.mem_univ _) () (O := 0) (R := 0) (m := 0) (T := ∅)
      (by show 0 + _ = (a2a m ρ).expect (sendCell c 0) 0; rw [Nat.zero_add, expect_send])) $$ [HcS0 HO HaS0]
  · isplitr; · iapply (inv_send m ρ K c 0); iexact HI
    isplitl [HcS0]; · iexact HcS0
    isplitl [HO]; · iexact HO
    isplitr; · rw [MayWait_zero]; iempintro
    iexact HaS0
  iintro ⟨HO, HaS0, -, Hpay⟩
  ihave Hp := (Entails.of_eq (rest_send' m ρ c 0 _ send_sem_eq0)) $$ Hpay
  unfold sendPay sbPts
  icases Hp with ⟨%fs0, Hs0⟩

  iapply (Rounds.wp_wait_rest_token 𝒱₀ ER (a2a m ρ) (c : Thread nD τ) none (κ := K (c, sendIx 2))
      (wpE_waitDma2_eq 𝒱₀ (c : Thread nD τ) none Set.univ) (Set.mem_univ _) () (O := 0) (R := 0) (m := 0) (T := ∅)
      (by show 0 + _ = (a2a m ρ).expect (sendCell c 2) 0; rw [Nat.zero_add, expect_send])) $$ [HcS2 HO HaS2]
  · isplitr; · iapply (inv_send m ρ K c 2); iexact HI
    isplitl [HcS2]; · iexact HcS2
    isplitl [HO]; · iexact HO
    isplitr; · rw [MayWait_zero]; iempintro
    iexact HaS2
  iintro ⟨HO, HaS2, -, Hpay⟩
  ihave Hp := (Entails.of_eq (rest_send' m ρ c 2 _ send_sem_eq2)) $$ Hpay
  unfold sendPay sbPts
  icases Hp with ⟨%fs2, Hs2⟩

  -- the seven own cells close: their counters at zero are the device's again

  imod (Rounds.cell_close ER (a2a m ρ) (Set.mem_univ (K (c, sendIx 0))) (fun h => h) (R := 0 + 1) (duties_later m ρ (sendCell c 0))) $$ [HaS0] with HzS0
  · isplitr; · iapply (inv_send m ρ K c 0); iexact HI
    iexact HaS0
  imod (Rounds.cell_close ER (a2a m ρ) (Set.mem_univ (K (c, sendIx 1))) (fun h => h) (R := 0 + 1) (duties_later m ρ (sendCell c 1))) $$ [HaS1] with HzS1
  · isplitr; · iapply (inv_send m ρ K c 1); iexact HI
    iexact HaS1
  imod (Rounds.cell_close ER (a2a m ρ) (Set.mem_univ (K (c, sendIx 2))) (fun h => h) (R := 0 + 1) (duties_later m ρ (sendCell c 2))) $$ [HaS2] with HzS2
  · isplitr; · iapply (inv_send m ρ K c 2); iexact HI
    iexact HaS2
  imod (Rounds.cell_close ER (a2a m ρ) (Set.mem_univ (K (c, recvIx c))) (fun h => h) (R := 0) (fun r _ => duties_recv_own m ρ c r)) $$ [HaRc] with HzRc
  · isplitr; · iapply (inv_recv m ρ K c c); iexact HI
    iexact HaRc
  imod (Rounds.cell_close ER (a2a m ρ) (Set.mem_univ (K (c, recvIx (peer c 1)))) (fun h => h) (R := 0 + 1) (duties_later m ρ (recvCell c (peer c 1)))) $$ [HaR1] with HzR1
  · isplitr; · iapply (inv_recv m ρ K c (peer c 1)); iexact HI
    iexact HaR1
  imod (Rounds.cell_close ER (a2a m ρ) (Set.mem_univ (K (c, recvIx (peer c 2)))) (fun h => h) (R := 0 + 1) (duties_later m ρ (recvCell c (peer c 2)))) $$ [HaR2] with HzR2
  · isplitr; · iapply (inv_recv m ρ K c (peer c 2)); iexact HI
    iexact HaR2
  imod (Rounds.cell_close ER (a2a m ρ) (Set.mem_univ (K (c, recvIx (peer c 3)))) (fun h => h) (R := 0 + 1) (duties_later m ρ (recvCell c (peer c 3)))) $$ [HaR3] with HzR3
  · isplitr; · iapply (inv_recv m ρ K c (peer c 3)); iexact HI
    iexact HaR3
  -- the two scratch buffers whole again
  ihave Hsb := (pointsTo_join (Finset.sdiff_disjoint)) $$ [Hsb Hs2]
  · isplitl [Hsb]; · iexact Hsb
    iexact Hs2
  rw [Finset.sdiff_union_of_subset hI2]
  ihave Hsb := (pointsTo_join (Finset.sdiff_disjoint)) $$ [Hsb Hs0]
  · isplitl [Hsb]; · iexact Hsb
    iexact Hs0
  rw [Finset.sdiff_union_of_subset hI0]
  ihave Hsb := (pointsTo_join (Finset.sdiff_disjoint)) $$ [Hsb Hs1]
  · isplitl [Hsb]; · iexact Hsb
    iexact Hs1
  rw [Finset.sdiff_union_of_subset (Finset.subset_univ (sbSrc c 1).view.set)]
  ihave Hxg := (pointsTo_join (Finset.sdiff_disjoint)) $$ [Hxg Hgx3]
  · isplitl [Hxg]; · iexact Hxg
    iexact Hgx3
  rw [Finset.sdiff_union_of_subset hJ3]
  ihave Hxg := (pointsTo_join (Finset.sdiff_disjoint)) $$ [Hxg Hgx2]
  · isplitl [Hxg]; · iexact Hxg
    iexact Hgx2
  rw [Finset.sdiff_union_of_subset hJ2]
  ihave Hxg := (pointsTo_join (Finset.sdiff_disjoint)) $$ [Hxg Hgx1]
  · isplitl [Hxg]; · iexact Hxg
    iexact Hgx1
  rw [Finset.sdiff_union_of_subset (Finset.subset_univ (xgDst (peer c 1)).view.set)]
  -- the post
  rw [wp_ret]; imodintro
  iapply Hk
  unfold bodyPost Φ₁ Dat.owesAt Pipeline.owesWithin
  rw [show (dats m ρ 0 c).owed t₀.succ = 0 from rfl, ownSems_eq, Gen.scopedRest0_eq]
  isplitl [HzS0 HzS1 HzS2 HzRc HzR1 HzR2 HzR3 Hsb Hxg]
  · isplitl [HzS0 HzS1 HzS2 HzRc HzR1 HzR2 HzR3]
    · isplitl [HzS0]; · iexact HzS0
      isplitl [HzS1]; · iexact HzS1
      isplitl [HzS2]; · iexact HzS2
      isplitl [HzRc]; · iexact HzRc
      isplitl [HzR1]; · iexact HzR1
      isplitl [HzR2]; · iexact HzR2
      iexact HzR3
    · isplitl [Hsb]; · iexists _; iexact Hsb
      iexists _; iexact Hxg
  isplitl [HO]
  · iexists _
    isplitr [HO]
    swap
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _
  isplitr [Hout]
  swap
  · iexact Hout
  · ipureintro
    rw [hv1, hv3, hv2]
    unfold outAt
    rw [hout c _ _ _ g2]
    rfl

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

end Body

set_option maxRecDepth 4000 in
/-- The pipeline's body obligation on device `c`: the body lemma at the names the launch allocated, with the slot facts
    of the two scratch buffers and the cover of the result block by its two stores. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq']
  show bodyPre' m ρ c ⊢ wp frame (wpE (defs₀ (F := F)) 𝒱₀ c none) Set.univ
    (cc0_body xM (Memref.isWhole_whole _) wM (Memref.isWhole_whole _) oM (Memref.isWhole_whole _) sbM (Memref.isWhole_whole _) xgM (Memref.isWhole_whole _) cc0_scratch2 cc0_scratch3)
    (fun _ => bodyPost m ρ c)
  unfold bodyPre' Φ₀ start
  iintro ⟨⟨⟨⟨%K, Hg⟩, Hrest⟩, Hscr⟩, Ho, Hx, Hw, Hout⟩
  iapply (sound_body m ρ K xg_disj sb_disj load_sub (fun c r fx f0 fn => landed c r fx f0 fn) (fun c r fx f h => got_of_landed c r fx f h)
    (fun c fxs fw f0 f0' => outFinal_indep c fxs fw f0 f0') c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hw]; · iexact Hw
    iexact Hout
  · iintro H; iexact H

/-- info: 'Cert.KernelIdeal.A2A.body_obligation' depends on axioms: [propext, Classical.choice, Quot.sound] -/
#guard_msgs in #print axioms body_obligation

end Cert.KernelIdeal.A2A

end
-- ==== Proof.Launch.lean ====
/-
  The launch of the four-device all-to-all.

  The launch element funds the rounds of every device's eight cells and mints each device the duty tokens of its OWN
  cells: the three barrier duties, the three departures, the three arrivals. Each device then allocates the invariants of
  its eight cells from its seven own semaphores and the barrier semaphore at zero, and the tokens are dealt around the
  mesh to the devices that PAY the duties: the barrier token of device `c`'s duty `r` goes to the peer of `c` at offset
  `1 + r`, for which `c` is the peer at offset `3 - r`, that is `1 + (2 - r)`; the arrival token of the cell that device
  `c` keeps for that peer goes to that peer; the departure tokens stay. The launch credit of a device is what the other
  three owe it: three barrier units, one from each, and one copy's credit on each of its three receive cells. With the
  body of one device proved, the run of @main on the mesh follows, and the three windows' arrays end as the proof data
  says: the two inputs unchanged, the result array holding the result staging buffer's final contents.
-/
import proofs.«900402_g7700000000000403_dist_a2a_gemm_m1024_k1024_n1024_f32_gelu_v7x_i4_1_alg».proof.Proof.Protocol
import proofs.«900402_g7700000000000403_dist_a2a_gemm_m1024_k1024_n1024_f32_gelu_v7x_i4_1_alg».proof.Proof.Gen.KernelIdeal.Launch
import proofs.«900402_g7700000000000403_dist_a2a_gemm_m1024_k1024_n1024_f32_gelu_v7x_i4_1_alg».proof.Proof.Gen.KernelIdeal.Points
import Idealize.ShloMosaic.Lib.Pipeline.Launch
import Idealize.ShloMosaic.Lib.Pipeline.Kit
import Idealize.ShloMosaic.Lib.Tactic

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The mesh facts the dealing needs -/

/-- Device `c` is, for its peer at offset `1 + r`, the peer at offset `1 + (2 - r)`. -/
theorem peer_peer_off (c : Dev nD) (r : Fin 3) : peer (peer c (offOf r)) (offOf (2 - r)) = c := by revert c r; decide
theorem two_sub_two_sub (r : Fin 3) : 2 - (2 - r) = r := by revert r; decide

/-- A duty of a device's barrier cell, sent to the device that pays it and named as that device names it: an involution. -/
def around : Dev nD × Fin 3 ≃ Dev nD × Fin 3 where
  toFun cr := (peer cr.1 (offOf cr.2), 2 - cr.2)
  invFun cr := (peer cr.1 (offOf cr.2), 2 - cr.2)
  left_inv := fun ⟨c, r⟩ => by revert c r; decide
  right_inv := fun ⟨c, r⟩ => by revert c r; decide

/-! ## The cells and the tokens minted -/

theorem csem_injective : ∀ k k' : Fin 8, csem k = csem k' → k = k' := by decide

theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : csem k = csem k' := congrArg Prod.snd h
  rw [csem_injective k k' h2]

/-- The thirty-two cells of the protocol. -/
def a2aCells : Finset (GSem nD τ sig) := Finset.univ.map ⟨kcell, kcell_injective⟩

/-- A device's own cells' duty tokens as minted: (device, which kind of cell, which of its three) — its barrier's three
    duties, the one duty of each send cell, the one duty of each of the three receive cells it keeps for its peers. -/
abbrev tokOf (x : Dev nD × Fin 3 × Fin 3) : GSem nD τ sig × ℕ × Fin 3 := match x.2.1 with
  | 0 => (barCell x.1, 0, x.2.2)
  | 1 => (sendCell x.1 x.2.2, 0, 0)
  | 2 => (recvCell x.1 (peer x.1 (offOf x.2.2)), 0, 0)

theorem tokOf_injective : Function.Injective (tokOf : Dev nD × Fin 3 × Fin 3 → GSem nD τ sig × ℕ × Fin 3) := by decide

def a2aToks : Finset (GSem nD τ sig × ℕ × Fin 3) := Finset.univ.map ⟨tokOf, tokOf_injective⟩

/-- The launch element: the pipeline's staging cells, and the protocol's cells with the tokens above. -/
def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop((bigSep Finset.univ fun d : Fin 3 => dutyTok ER (barCell c) 0 d)
    ∗ (bigSep Finset.univ fun j : Fin 3 => dutyTok ER (sendCell c j) 0 0)
    ∗ (bigSep Finset.univ fun r : Fin 3 => dutyTok ER (recvCell c (peer c (offOf r))) 0 0))

/-- What the launch element deals device `c`. -/
def G (c : Dev nD) : sProp 𝕄 :=
  iprop((bigSep Finset.univ fun k : Fin 8 => roundState ER (a2a m ρ) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_a2a : BI.own (ER (initOf a2aCells a2aToks)) ⊢ (|==> bigSep Finset.univ (G m ρ) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_univ_prod, bigSep_fin3]; rfl
  iintro HX
  imod (Rounds.fund ER (a2a m ρ) a2aCells a2aToks) $$ HX with ⟨Hst, Hr, Hat, Htok⟩
  imodintro
  ihave Hst' := (Entails.of_eq (hX fun g => roundState ER (a2a m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each device allocates its eight cells' invariants -/

omit [FloatOps F] in
/-- The three send and four receive semaphores are the kernel's own seven; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
omit [FloatOps F] in
/-- the barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (a2a m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2a m ρ) (kcell (c, k)) 0)
      ⊢ (|={Set.univ}=> bigSep Finset.univ fun k => iprop(∃ κ : ℕ, cellInv ER (a2a m ρ) κ (kcell (c, k))) : sProp 𝕄) from by
        rw [← bigSep_sep']
        exact (bigSep_mono fun k _ => (Rounds.body_intro ER (a2a m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh; the devices' ghost state -/

omit [FloatOps F] in
/-- A barrier's token for duty `r` goes to the peer at offset `1 + r`, which pays it as ITS duty `2 - r`; the arrival token
    of the receive cell kept for that peer goes to that peer; the departure tokens stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (barCell c) 0 d : sProp 𝕄))
      = bigSep Finset.univ fun c : Dev nD => bigSep Finset.univ fun r : Fin 3 => dutyTok ER (barCell (peer c (offOf r))) 0 (2 - r) :=
    (bigSep_univ_prod (fun cr : Dev nD × Fin 3 => (dutyTok ER (barCell cr.1) 0 cr.2 : sProp 𝕄))).symm.trans
      ((bigSep_univ_equiv around _).trans (bigSep_univ_prod _))
  have hR : (bigSep Finset.univ fun c : Dev nD => bigSep Finset.univ fun r : Fin 3 => (dutyTok ER (recvCell c (peer c (offOf r))) 0 0 : sProp 𝕄))
      = bigSep Finset.univ fun c : Dev nD => bigSep Finset.univ fun r : Fin 3 => dutyTok ER (recvCell (peer c (offOf r)) c) 0 0 :=
    (bigSep_univ_prod (fun cr : Dev nD × Fin 3 => (dutyTok ER (recvCell cr.1 (peer cr.1 (offOf cr.2))) 0 0 : sProp 𝕄))).symm.trans
      ((bigSep_univ_equiv around _).trans ((bigSep_univ_prod _).trans (bigSep_congr fun c _ => bigSep_congr fun r _ => by
        show (dutyTok ER (recvCell (peer c (offOf r)) (peer (peer c (offOf r)) (offOf (2 - r)))) 0 0 : sProp 𝕄) = _
        rw [peer_peer_off])))
  unfold toks payToks
  rw [bigSep_sep', bigSep_sep', bigSep_sep', bigSep_sep', hB, hR]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 8 → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k => iprop(∃ κ : ℕ, cellInv ER (a2a m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (a2a m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2a m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device `d` owing `n` units on one cell `cell d`, exactly one of those cells being semaphore `sm` of device `c`:
    the launch deals `c` the credit of that one due. -/
theorem launchCred_cell (cell : Dev nD → GSem nD τ sig) (n : ℕ) (c : Dev nD) (sm : SemLoc sig) (d₀ : Dev nD)
    (h₀ : cell d₀ = ((c : Thread nD τ), sm)) (huniq : ∀ d, cell d = ((c : Thread nD τ), sm) → d = d₀) :
    (Pipeline.launchCred (fun d => tallyAt (cell d) () n) c : sProp 𝕄) ⊢ cred (tallyAt ((c : Thread nD τ), sm) () n) := by
  refine (Pipeline.launchCred_elim _ c sm).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ d₀ →
      tallyOn (nD := nD) (sig := sig) (cell d) (Finsupp.single () n) ((c : Thread nD τ), sm) = 0 := fun d _ hd => by
    unfold tallyOn
    exact Pi.single_eq_of_ne (fun h => hd (huniq d h.symm)) _
  rw [Finset.sum_eq_single d₀ h0 (fun h => absurd (Finset.mem_univ _) h)]
  unfold tallyOn
  rw [h₀, Pi.single_eq_same]

omit [FloatOps F] in
/-- The barrier unit every device owes its peer at offset `o`: device `c` is that peer for exactly one device. -/
theorem launch_bar (c : Dev nD) (o : Fin 4) :
    (Pipeline.launchCred (fun d => tallyAt (barCell (peer d o)) () 1) c : sProp 𝕄) ⊢ cred (tallyAt (barCell c) () 1) :=
  launchCred_cell (fun d => barCell (peer d o)) 1 c (.reg barS) (peer c (back o)) (by rw [peer_back']) fun d h => by
    have h1 : peer d o = c := congrArg (fun g : GSem nD τ sig => g.1.1) h
    rw [← h1, peer_back]

omit [FloatOps F] in
/-- The copy every device owes its peer at offset `o`, on the receive cell that peer keeps for it. -/
theorem launch_recv (c : Dev nD) (o : Fin 4) :
    (Pipeline.launchCred (fun d => tallyAt (recvCell (peer d o) d) () N) c : sProp 𝕄) ⊢ cred (tallyAt (recvCell c (peer c (back o))) () N) :=
  launchCred_cell (fun d => recvCell (peer d o) d) N c (.dma (recvSem (peer c (back o)))) (peer c (back o)) (by rw [peer_back']) fun d h => by
    have h1 : peer d o = c := congrArg (fun g : GSem nD τ sig => g.1.1) h
    rw [← h1, peer_back]

omit [FloatOps F] in
/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- What the launch deals device `c`: the three units of its barrier, one from each peer, and one copy's credit on each of
    the three receive cells it keeps for its peers. -/
theorem creds (c : Dev nD) :
    (Pipeline.launchCred O₀ c : sProp 𝕄) ⊢ iprop(cred (tallyAt (barCell c) () 3)
      ∗ bigSep Finset.univ fun r : Fin 3 => cred (tallyAt (recvCell c (peer c (offOf r))) () N)) := by
  have e0 : (Pipeline.launchCred O₀ c : sProp 𝕄)
      = iprop(Pipeline.launchCred O₁ c ∗ Pipeline.launchCred (fun d => tallyAt (barCell (peer d 1)) () 1) c) :=
    Pipeline.launchCred_add O₁ (fun d => tallyAt (barCell (peer d 1)) () 1) c
  have e1 : (Pipeline.launchCred O₁ c : sProp 𝕄)
      = iprop(Pipeline.launchCred O₂ c ∗ Pipeline.launchCred (fun d => tallyAt (barCell (peer d 2)) () 1) c) :=
    Pipeline.launchCred_add O₂ (fun d => tallyAt (barCell (peer d 2)) () 1) c
  have e2 : (Pipeline.launchCred O₂ c : sProp 𝕄)
      = iprop(Pipeline.launchCred owedCopies c ∗ Pipeline.launchCred (fun d => tallyAt (barCell (peer d 3)) () 1) c) :=
    Pipeline.launchCred_add owedCopies (fun d => tallyAt (barCell (peer d 3)) () 1) c
  have e3 : (Pipeline.launchCred owedCopies c : sProp 𝕄)
      = iprop(Pipeline.launchCred (fun d => tallyAt (recvCell (peer d 3) d) () N + tallyAt (recvCell (peer d 1) d) () N) c
          ∗ Pipeline.launchCred (fun d => tallyAt (recvCell (peer d 2) d) () N) c) :=
    Pipeline.launchCred_add (fun d => tallyAt (recvCell (peer d 3) d) () N + tallyAt (recvCell (peer d 1) d) () N)
      (fun d => tallyAt (recvCell (peer d 2) d) () N) c
  have e4 : (Pipeline.launchCred (fun d => tallyAt (recvCell (peer d 3) d) () N + tallyAt (recvCell (peer d 1) d) () N) c : sProp 𝕄)
      = iprop(Pipeline.launchCred (fun d => tallyAt (recvCell (peer d 3) d) () N) c
          ∗ Pipeline.launchCred (fun d => tallyAt (recvCell (peer d 1) d) () N) c) :=
    Pipeline.launchCred_add (fun d => tallyAt (recvCell (peer d 3) d) () N) (fun d => tallyAt (recvCell (peer d 1) d) () N) c
  rw [e0, e1, e2, e3, e4, bigSep_fin3]
  iintro ⟨⟨⟨⟨⟨R3, R1⟩, R2⟩, B3⟩, B2⟩, B1⟩
  isplitl [B1 B2 B3]
  · iapply (cred_three (F := F) (barCell c))
    isplitl [B1]; · iapply (launch_bar (F := F) c 1); iexact B1
    isplitl [B2]; · iapply (launch_bar (F := F) c 2); iexact B2
    iapply (launch_bar (F := F) c 3); iexact B3
  isplitl [R3]; · iapply (launch_recv (F := F) c 3); iexact R3
  isplitl [R2]; · iapply (launch_recv (F := F) c 2); iexact R2
  iapply (launch_recv (F := F) c 1); iexact R1

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl]
  unfold Φ₁
  iintro H
  isplitr; · iempintro
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of four devices, for any float values, from any memory with zero counters, given the body of one
    device: every weakly fair execution of @main — the four kernels meeting on the barrier semaphore, then each shipping a
    slot to each of the others — terminates, and every final state has each window's array of each device at the contents
    the proof data computes. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_a2a m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The two input arrays end holding what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The result array ends holding the result staging buffer's final contents: the one point writes the whole block back,
    and the block is the whole array. -/
theorem finalA_out (c : Dev nD) : finalA m ρ c (2 : Fin 3) = outAt m ρ c := by
  have h := (dats (F := F) m ρ 0 c).arrAt_succ (2 : Fin 3) t0_0
  rw [flush0_2 t0_0, if_pos rfl] at h
  exact h.trans (Memref.write_access_unit_zero_univ (Elt F) main_v1 (funext fun a => Nat.zero_mul _) _ _ _)

/-- info: 'Cert.KernelIdeal.A2A.run_main' depends on axioms: [propext, Classical.choice, Quot.sound] -/
#guard_msgs in #print axioms run_main

end Cert.KernelIdeal.A2A

end
-- ==== Proof.KMesh.lean ====
/-
  The mesh arithmetic of the four-device all-to-all: device `c`'s peer at offset `o` is device `(c + o) mod 4`.
  Every device id and every block offset the kernel computes from its own position is one of these peers; each closed
  form below is decided over the four devices (and the three non-zero offsets).
-/
import proofs.«900402_g7700000000000403_dist_a2a_gemm_m1024_k1024_n1024_f32_gelu_v7x_i4_1_alg».proof.Proof.Gen.Kernel

set_option maxRecDepth 16384

namespace Cert.Kernel.A2A

open Cert.Kernel Cert.Kernel.Gen
open Idealize.ShloMosaic

/-- The device `o` places after `c` around the mesh. -/
def peer (c : Dev nD) (o : Fin 4) : Dev nD := ⟨(c.val + o.val) % 4, Nat.mod_lt _ (by decide)⟩

/-- The offset `4 - o`: going `o` places on and then `back o` places on returns to the start. -/
def back (o : Fin 4) : Fin 4 := ⟨(4 - o.val) % 4, Nat.mod_lt _ (by decide)⟩

theorem peer_zero (c : Dev nD) : peer c 0 = c := by revert c; decide
theorem peer_back (c : Dev nD) (o : Fin 4) : peer (peer c o) (back o) = c := by revert c o; decide
theorem peer_back' (c : Dev nD) (o : Fin 4) : peer (peer c (back o)) o = c := by revert c o; decide
theorem peer_ne (c : Dev nD) (o : Fin 4) (ho : o ≠ 0) : peer c o ≠ c := by revert c o; decide
theorem peer_inj_off (c : Dev nD) (o o' : Fin 4) (h : peer c o = peer c o') : o = o' := by revert c o o'; decide
theorem peer_inj_dev (c c' : Dev nD) (o : Fin 4) (h : peer c o = peer c' o) : c = c' := by revert c c' o; decide
theorem exists_off (c p : Dev nD) : ∃ o : Fin 4, peer c o = p := by revert c p; decide

/-- The three barrier signals go to the peers at offsets 1, 2, 3; the three remote copies to those at 2, 1, 3. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 2 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 3 := by revert c; decide +kernel

/-- The offset `1 + r` as an offset around the mesh. -/
def offOf (r : Fin 3) : Fin 4 := ⟨1 + r.val, by omega⟩

/-- Row block of the peer at offset `1 + r` in the device's `x` block and in `w`; its slot in the two scratch buffers;
    its receive semaphore. -/
theorem off1_eq (c : Dev nD) (r : Fin 3) : k0_off1 c (BitVec.ofNat 32 (1 + r.val)) = ![256 * (peer c (offOf r)).val, 0] := by
  revert c r; decide +kernel
theorem off2_eq (c : Dev nD) (r : Fin 3) : k0_off2 c (BitVec.ofNat 32 (1 + r.val)) = ![(peer c (offOf r)).val, 0, 0] := by
  revert c r; decide +kernel
theorem off5_eq (c : Dev nD) (r : Fin 3) : k0_off5 c (BitVec.ofNat 32 (1 + r.val)) = ![(peer c (offOf r)).val, 0, 0] := by
  revert c r; decide +kernel
theorem off8_eq (c : Dev nD) (r : Fin 3) : k0_off8 c (BitVec.ofNat 32 (1 + r.val)) = ![(peer c (offOf r)).val] := by
  revert c r; decide +kernel
theorem off9_eq (c : Dev nD) (r : Fin 3) : k0_off9 c (BitVec.ofNat 32 (1 + r.val)) = ![256 * (peer c (offOf r)).val, 0] := by
  revert c r; decide +kernel

end Cert.Kernel.A2A
-- ==== Proof.KSpec.lean ====
/-
  What one device of the four-device all-to-all matmul computes, as pure functions of the staged arrays.

  Device `c` holds the column block `c` of `x` (1024 × 256) and all of `w` (1024 × 1024). For each other device
  `p` it rounds rows `256 p … 256 p + 255` of its block to bf16 (`sent`) and ships them to `p`; what it receives from `p`
  is rows `256 c …` of `p`'s block. Its 256 × 1024 result is the gelu of the sum of four 256 × 256 by 256 × 1024 products:
  its own rows against rows `256 c …` of `w`, then the pieces received from the peers at offsets 1, 3, 2 against the
  matching row blocks of `w`, computed in two column halves.
-/
import proofs.«900402_g7700000000000403_dist_a2a_gemm_m1024_k1024_n1024_f32_gelu_v7x_i4_1_alg».proof.Proof.Gen.Kernel.Skeleton
import proofs.«900402_g7700000000000403_dist_a2a_gemm_m1024_k1024_n1024_f32_gelu_v7x_i4_1_alg».proof.Proof.KMesh

noncomputable section

namespace Cert.Kernel.A2A

open Cert.Kernel Cert.Kernel.Gen
open Idealize.ShloMosaic Idealize.SL.Sem

variable {F : FTy → Type} [FloatOps F]

abbrev xM : Memref sig .tc .vmem S1024x256 .f32 := Memref.whole cc0_stg0_0
abbrev wM : Memref sig .tc .vmem S1024x1024 .f32 := Memref.whole cc0_stg1_0
abbrev oM : Memref sig .tc .vmem S256x1024 .f32 := Memref.whole cc0_stg2_0
abbrev sbM : Memref sig .tc .vmem S4x256x256 .bf16 := Memref.whole cc0_scratch0
abbrev xgM : Memref sig .tc .vmem S4x256x256 .bf16 := Memref.whole cc0_scratch1

/-- Contents of the staged `x` block, of `w`, of the result, and of a scratch buffer of four bf16 slots. -/
abbrev XC (F : FTy → Type) : Type := (cc0_stg0_0 : Ref sig .tc).ty.Contents (Elt F)
abbrev WC (F : FTy → Type) : Type := (cc0_stg1_0 : Ref sig .tc).ty.Contents (Elt F)
abbrev OC (F : FTy → Type) : Type := (cc0_stg2_0 : Ref sig .tc).ty.Contents (Elt F)
abbrev SC (F : FTy → Type) : Type := (cc0_scratch0 : Ref sig .tc).ty.Contents (Elt F)

/-- The rectangles the body reads and writes. -/
abbrev rX (c : Dev nD) (r : Fin 3) : Rect S1024x256 := Rect.unit (s := S1024x256) (k0_off1 c (BitVec.ofNat 32 (1 + r.val))) S256x256.size (k0_off1_inb c r)
abbrev rXown (c : Dev nD) : Rect S1024x256 := Rect.unit (s := S1024x256) (k0_off6 c) S256x256.size (k0_off6_inb c)
abbrev rWown (c : Dev nD) : Rect S1024x1024 := Rect.unit (s := S1024x1024) (k0_off7 c) S256x1024.size (k0_off7_inb c)
abbrev rW (c : Dev nD) (r : Fin 3) : Rect S1024x1024 := Rect.unit (s := S1024x1024) (k0_off9 c (BitVec.ofNat 32 (1 + r.val))) S256x1024.size (k0_off9_inb c r)
abbrev rSlot (c : Dev nD) (r : Fin 3) : Rect S4x256x256 := Rect.unit (s := S4x256x256) (k0_off2 c (BitVec.ofNat 32 (1 + r.val))) S1x256x256.size (k0_off2_inb c r)
abbrev rOutL : Rect S256x1024 := Rect.unit (s := S256x1024) ![0, 0] S256x512.size inb_S256x1024_S256x512_0_0
abbrev rOutR : Rect S256x1024 := Rect.unit (s := S256x1024) ![0, 512] S256x512.size inb_S256x1024_S256x512_0_512

/-- Rows `256 p …` of the device's `x` block, `p` the peer at offset `1 + r`; its own rows; the row blocks of `w`. -/
def xRows (c : Dev nD) (r : Fin 3) (fx : XC F) : Vec F S256x256 .f32 := (xM).view.readAt (Elt F) (rX c r).toLoadRect fx
def xOwn (c : Dev nD) (fx : XC F) : Vec F S256x256 .f32 := (xM).view.readAt (Elt F) (rXown c).toLoadRect fx
def wOwn (c : Dev nD) (fw : WC F) : Vec F S256x1024 .f32 := (wM).view.readAt (Elt F) (rWown c).toLoadRect fw
def wRows (c : Dev nD) (r : Fin 3) (fw : WC F) : Vec F S256x1024 .f32 := (wM).view.readAt (Elt F) (rW c r).toLoadRect fw

/-- What device `c` puts in the slot it ships to the peer at offset `1 + r`: those rows rounded to bf16. -/
def sent (c : Dev nD) (r : Fin 3) (fx : XC F) : FVec F S1x256x256 .bf16 := k0_pay1 (xRows c r fx)

/-- What device `c` holds after the peer at offset `1 + r` has shipped to it: that peer's `sent` for the offset back. -/
def got (c : Dev nD) (r : Fin 3) (fxs : Dev nD → XC F) : FVec F S1x256x256 .bf16 :=
  sent (peer c (offOf r)) (2 - r) (fxs (peer c (offOf r)))

/-- The two accumulators before the epilogue (left and right column halves), in the kernel's own order of summation:
    own block, then the peers at offsets 1, 3, 2. -/
def accL (c : Dev nD) (fxs : Dev nD → XC F) (fw : WC F) : FVec F S256x512 .f32 :=
  k0_pay17 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw)
def accR (c : Dev nD) (fxs : Dev nD → XC F) (fw : WC F) : FVec F S256x512 .f32 :=
  k0_pay18 (k0_pay14 (k0_pay10 (k0_pay4 (xOwn c (fxs c))) (k0_pay5 (wOwn c fw))
      (got c 0 fxs) (wRows c 0 fw)) (got c 2 fxs) (wRows c 2 fw)) (got c 1 fxs) (wRows c 1 fw)

/-- The two stored halves: the gelu of each accumulator. -/
def outL (c : Dev nD) (fxs : Dev nD → XC F) (fw : WC F) : FVec F S256x512 .f32 :=
  k0_pay21
    (k0_pay19 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw))
    (k0_pay20 (k0_pay13 (k0_pay9 (k0_pay4 (xOwn c (fxs c))) (k0_pay6 (wOwn c fw)) (constant S256x512 .f32 0x00000000#32)
      (got c 0 fxs) (wRows c 0 fw)) (got c 2 fxs) (wRows c 2 fw)) (got c 1 fxs) (wRows c 1 fw))
    (Scalar.ofBits .f32 0x3F800000#32)
def outR (c : Dev nD) (fxs : Dev nD → XC F) (fw : WC F) : FVec F S256x512 .f32 := k0_pay22 (accR c fxs fw)

/-- The result staging buffer after the two stores, from any earlier contents `f0`. -/
def outFinal (c : Dev nD) (fxs : Dev nD → XC F) (fw : WC F) (f0 : OC F) : OC F :=
  ((oM).access rOutR : View sig .tc _ _ _).write (Elt F)
    (((oM).access rOutL : View sig .tc _ _ _).write (Elt F) f0 (outL c fxs fw) Finset.univ) (outR c fxs fw) Finset.univ

end Cert.Kernel.A2A

end
-- ==== Proof.KProtocol.lean ====
/-
  The protocol of the four-device all-to-all, as one round per semaphore.

  Every device `c` has eight semaphores in play: the barrier semaphore (three signals of one unit, one from each other
  device, waited for together); three send semaphores (one per outgoing copy, credited when the copy has been read out of
  its source slot); and four receive semaphores, the one indexed by its own id unused, the one indexed `p` credited when
  device `p`'s copy has landed in slot `p` of the receive buffer.

  What each landing hands the waiter:
  * the barrier unit paid by device `p` hands `c` slot `c` of `p`'s receive buffer (which `c` will overwrite) and the fact
    that `p`'s receive semaphore `c` is at its first round;
  * a send semaphore's credit hands back the source slot, still holding what was sent;
  * a receive semaphore's credit hands over the slot it filled, holding the sender's rounded rows.
-/
import proofs.«900402_g7700000000000403_dist_a2a_gemm_m1024_k1024_n1024_f32_gelu_v7x_i4_1_alg».proof.Proof.Gen.Kernel.Frame
import proofs.«900402_g7700000000000403_dist_a2a_gemm_m1024_k1024_n1024_f32_gelu_v7x_i4_1_alg».proof.Proof.KSpec
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Semaphores and cells -/

abbrev barS : Sem sig := (SemArray.scalar (sig.barrier 0 rfl) : Sems sig S_).sem
abbrev sendSem (j : Fin 3) : DmaSem sig := ⟨3 + j.val, by have := j.isLt; show 3 + j.val < 10; omega⟩
abbrev recvSem (p : Dev nD) : DmaSem sig := ⟨6 + p.val, by have : p.val < 4 := p.isLt; show 6 + p.val < 10; omega⟩

abbrev barCell (c : Dev nD) : GSem nD τ sig := ((c : Thread nD τ), .reg barS)
abbrev sendCell (c : Dev nD) (j : Fin 3) : GSem nD τ sig := ((c : Thread nD τ), .dma (sendSem j))
abbrev recvCell (c : Dev nD) (p : Dev nD) : GSem nD τ sig := ((c : Thread nD τ), .dma (recvSem p))

/-- The kernel's own (scoped) semaphores: three send, four receive. -/
abbrev osem : Fin 7 → SemLoc sig := fun k => if h : k.val < 3 then .dma (sendSem ⟨k.val, h⟩) else .dma (recvSem ⟨k.val - 3, by have := k.isLt; show k.val - 3 < 4; omega⟩)
/-- All eight of the protocol's: the barrier first. -/
abbrev csem : Fin 8 → SemLoc sig := fun k =>
  if k.val = 0 then .reg barS else if h : k.val < 4 then .dma (sendSem ⟨k.val - 1, by omega⟩) else .dma (recvSem ⟨k.val - 4, by have := k.isLt; show k.val - 4 < 4; omega⟩)
abbrev kcell (ck : Dev nD × Fin 8) : GSem nD τ sig := ((ck.1 : Thread nD τ), csem ck.2)

/-- The semaphores the printed body names are these. -/
theorem send_sem_eq0 : (((cc0_scratch2).slice (Rect.unit (s := S3) ![0] S1.size inb_S3_S1_0)).squeeze S_ squeezes_S1_S_).sem = sendSem 0 := by decide
theorem send_sem_eq1 : (((cc0_scratch2).slice (Rect.unit (s := S3) ![1] S1.size inb_S3_S1_1)).squeeze S_ squeezes_S1_S_).sem = sendSem 1 := by decide
theorem send_sem_eq2 : (((cc0_scratch2).slice (Rect.unit (s := S3) ![2] S1.size inb_S3_S1_2)).squeeze S_ squeezes_S1_S_).sem = sendSem 2 := by decide
theorem recv_sem_own (c : Dev nD) :
    (((cc0_scratch3).slice (Rect.unit (s := S4) (k0_off3 c) S1.size (k0_off3_inb c))).squeeze S_ squeezes_S1_S_).sem = recvSem c := by
  revert c; decide +kernel
theorem recv_sem_peer (c : Dev nD) (r : Fin 3) :
    (((cc0_scratch3).slice (Rect.unit (s := S4) (k0_off8 c (BitVec.ofNat 32 (1 + r.val))) S1.size (k0_off8_inb c r))).squeeze S_ squeezes_S1_S_).sem
      = recvSem (peer c (offOf r)) := by
  revert c r; decide +kernel

/-- Which of the protocol's semaphores a semaphore is. -/
inductive Role where
  | bar
  | send (j : Fin 3)
  | recv (p : Dev nD)
  | other
  deriving DecidableEq

def roleOf : SemLoc sig → Role
  | .reg s => if s = barS then .bar else .other
  | .dma q => if h : 3 ≤ q.val ∧ q.val < 6 then .send ⟨q.val - 3, by omega⟩
      else if h' : 6 ≤ q.val then .recv ⟨q.val - 6, by have : q.val < 10 := q.isLt; show q.val - 6 < 4; omega⟩ else .other

theorem role_bar : roleOf (.reg barS) = .bar := by decide
theorem role_send (j : Fin 3) : roleOf (.dma (sendSem j)) = .send j := by revert j; decide
theorem role_recv (p : Dev nD) : roleOf (.dma (recvSem p)) = .recv p := by revert p; decide

/-! ## Slots of the two scratch buffers -/

/-- Slot `q` of a scratch buffer, and row block `q` of the `x` block, by their plain offsets. -/
theorem slot_inb (q : Dev nD) : ∀ a, (![q.val, 0, 0] : Fin 3 → Nat) a + S1x256x256.size a ≤ S4x256x256.size a := by revert q; decide
theorem rows_inb (q : Dev nD) : ∀ a, (![256 * q.val, 0] : Fin 2 → Nat) a + S256x256.size a ≤ S1024x256.size a := by revert q; decide
abbrev slotRect (q : Dev nD) : Rect S4x256x256 := Rect.unit (s := S4x256x256) ![q.val, 0, 0] S1x256x256.size (slot_inb q)
abbrev rowsRect (q : Dev nD) : Rect S1024x256 := Rect.unit (s := S1024x256) ![256 * q.val, 0] S256x256.size (rows_inb q)

/-- The source of device `c`'s copy to the peer at offset `1 + r` (a slot of its send buffer), and the destination of
    every copy device `c` makes (slot `c` of the addressed device's receive buffer), as the body spells them. -/
abbrev sbSrc (c : Dev nD) (r : Fin 3) : Memref sig .tc .vmem S256x256 .bf16 :=
  ((sbM).slice (Rect.unit (s := S4x256x256) (k0_off5 c (BitVec.ofNat 32 (1 + r.val))) S1x256x256.size (k0_off5_inb c r)) (fun _ => rfl)).squeeze S256x256 squeezes_S1x256x256_S256x256
abbrev xgDst (c : Dev nD) : Memref sig .tc .vmem S256x256 .bf16 :=
  ((xgM).slice (Rect.unit (s := S4x256x256) (k0_off4 c) S1x256x256.size (k0_off4_inb c)) (fun _ => rfl)).squeeze S256x256 squeezes_S1x256x256_S256x256

/-- What device `p` ships to device `c`: rows `256 c …` of its `x` block, rounded. -/
def sentTo (c : Dev nD) (fx : XC F) : FVec F S1x256x256 .bf16 := k0_pay1 ((xM).view.readAt (Elt F) (rowsRect c).toLoadRect fx)

/-- One copy's credit, the same for every slot. -/
abbrev N : ℕ := (xgDst (0 : Dev nD)).view.dmaCredit
theorem N_pos : 0 < N := View.dmaCredit_pos _ (by decide)
theorem amount_dst (c : Dev nD) (sm : DmaSem sig) : (xgDst c).view.amount (.dma sm) = N := rfl

/-! ## Contents -/

def xstg (c : Dev nD) : XC F := (win0_0.blk (0 : Fin 1)).view.read (Elt F) ((s₀ m ρ).mem ((c : Thread nD τ).loc main_arg0))
def wstg (c : Dev nD) : WC F := (win0_1.blk (0 : Fin 1)).view.read (Elt F) ((s₀ m ρ).mem ((c : Thread nD τ).loc main_arg1))
/-- The result staging buffer after the body. -/
def outAt (c : Dev nD) : OC F := outFinal c (fun d => xstg m ρ d) (wstg m ρ c) (fun _ => Classical.arbitrary _)

def sbPts (c : Dev nD) (r : Fin 3) (f : Buf (Elt F) ((sbSrc c r).view.loc (c : Thread nD τ))) : sProp 𝕄 :=
  (sbSrc c r).view.loc (c : Thread nD τ) ↦[(sbSrc c r).view.set]{fullShare} f
/-- Slot `q` of device `p`'s receive buffer. -/
def xgPts (p q : Dev nD) (f : Buf (Elt F) ((xgDst q).view.loc (p : Thread nD τ))) : sProp 𝕄 :=
  (xgDst q).view.loc (p : Thread nD τ) ↦[(xgDst q).view.set]{fullShare} f

omit [FloatOps F] in
instance sbPts_storable (c : Dev nD) (r : Fin 3) (f) : BI.Storable (upEmb : UEmb _ 𝕄) (sbPts (F := F) c r f) := by unfold sbPts; infer_instance
omit [FloatOps F] in
instance xgPts_storable (p q : Dev nD) (f) : BI.Storable (upEmb : UEmb _ 𝕄) (xgPts (F := F) p q f) := by unfold xgPts; infer_instance

/-! ## The schedule -/

/-- The barrier unit device `peer c (1 + d)` pays device `c`: slot `c` of the payer's receive buffer, and that the payer's
    receive semaphore `c` is at its first round. -/
def barPay (c : Dev nD) (d : Fin 3) : sProp 𝕄 :=
  iprop((∃ f, xgPts (peer c (offOf d)) c f) ∗ reached ER (recvCell (peer c (offOf d)) c) 0)
/-- A send semaphore's credit: the source slot back. -/
def sendPay (c : Dev nD) (j : Fin 3) : sProp 𝕄 := iprop(∃ f, sbPts c j f)
/-- A receive semaphore's credit: slot `p` of the receive buffer, holding what `p` shipped. -/
def recvPay (c p : Dev nD) : sProp 𝕄 :=
  iprop(∃ f, ⌜(xgM).view.readAt (Elt F) (slotRect p).toLoadRect f = sentTo c (xstg m ρ p)⌝ ∗ xgPts c p f)

def a2a : Rounds.Schedule (GSem nD τ sig) (Fin 3) 𝕄 where
  duties g r := if r = 0 ∧ g.1.2 = .tc then
      (match roleOf g.2 with
        | .bar => Finset.univ
        | .send _ => {0}
        | .recv p => if p = g.1.1 then ∅ else {0}
        | .other => ∅)
    else ∅
  unitless _ := False
  amount g _ _ := match roleOf g.2 with
    | .bar => 1
    | _ => N
  payload g _ d := match roleOf g.2 with
    | .bar => barPay g.1.1 d
    | .send j => sendPay g.1.1 j
    | .recv p => recvPay m ρ g.1.1 p
    | .other => iprop(emp)
  amount_pos g _ _ _ := by
    cases roleOf g.2 <;> first | exact Nat.one_pos | exact N_pos

instance a2a_payload_storable (g : GSem nD τ sig) (r : ℕ) (d : Fin 3) :
    BI.Storable (upEmb : UEmb _ 𝕄) ((a2a (F := F) m ρ).payload g r d) := by
  show BI.Storable upEmb (match roleOf g.2 with
    | .bar => barPay g.1.1 d
    | .send j => sendPay g.1.1 j
    | .recv p => recvPay m ρ g.1.1 p
    | .other => iprop(emp))
  unfold barPay sendPay recvPay
  split <;> infer_instance

section Tables
variable (c : Dev nD)

theorem duties_bar : (a2a (F := F) m ρ).duties (barCell c) 0 = Finset.univ := by
  dsimp only [a2a]; rw [if_pos ⟨rfl, rfl⟩, role_bar]
theorem duties_send (j : Fin 3) : (a2a (F := F) m ρ).duties (sendCell c j) 0 = {0} := by
  dsimp only [a2a]; rw [if_pos ⟨rfl, rfl⟩, role_send]
theorem duties_recv (p : Dev nD) (hp : p ≠ c) : (a2a (F := F) m ρ).duties (recvCell c p) 0 = {0} := by
  dsimp only [a2a]; rw [if_pos ⟨rfl, rfl⟩, role_recv]; exact if_neg hp
theorem duties_recv_own : ∀ r, (a2a (F := F) m ρ).duties (recvCell c c) r = ∅ := fun r => by
  dsimp only [a2a]; split
  · rw [role_recv]; exact if_pos rfl
  · rfl
theorem duties_later (g : GSem nD τ sig) : ∀ r, 1 ≤ r → (a2a (F := F) m ρ).duties g r = ∅ :=
  fun r hr => by dsimp only [a2a]; rw [if_neg fun h => by omega]

theorem amount_bar (d : Fin 3) : (a2a (F := F) m ρ).amount (barCell c) 0 d = 1 := by dsimp only [a2a]; rw [role_bar]
theorem amount_send (j d : Fin 3) : (a2a (F := F) m ρ).amount (sendCell c j) 0 d = N := by dsimp only [a2a]; rw [role_send]
theorem amount_recv (p : Dev nD) (d : Fin 3) : (a2a (F := F) m ρ).amount (recvCell c p) 0 d = N := by dsimp only [a2a]; rw [role_recv]

theorem expect_bar : (a2a (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (j : Fin 3) : (a2a (F := F) m ρ).expect (sendCell c j) 0 = N := by
  unfold Schedule.expect Schedule.amountOf; rw [duties_send, Finset.sum_singleton, amount_send]
theorem expect_recv (p : Dev nD) (hp : p ≠ c) : (a2a (F := F) m ρ).expect (recvCell c p) 0 = N := by
  unfold Schedule.expect Schedule.amountOf; rw [duties_recv m ρ c p hp, Finset.sum_singleton, amount_recv]

theorem payload_bar (d : Fin 3) : (a2a (F := F) m ρ).payload (barCell c) 0 d = barPay c d := by dsimp only [a2a]; rw [role_bar]
theorem payload_send (j d : Fin 3) : (a2a (F := F) m ρ).payload (sendCell c j) 0 d = sendPay c j := by dsimp only [a2a]; rw [role_send]
theorem payload_recv (p : Dev nD) (d : Fin 3) : (a2a (F := F) m ρ).payload (recvCell c p) 0 d = recvPay m ρ c p := by
  dsimp only [a2a]; rw [role_recv]

theorem bigSep_fin3 (Φ : Fin 3 → sProp 𝕄) : bigSep Finset.univ Φ = iprop(Φ 0 ∗ Φ 1 ∗ Φ 2) := bigSep_univ_eq_bigSepL [0, 1, 2] (by decide) (by decide) Φ

/-- The whole of a barrier's round: the three peers' payloads. -/
theorem rest_bar : bigSep ((a2a (F := F) m ρ).duties (barCell c) 0 \ ∅) (fun d => (a2a (F := F) m ρ).payload (barCell c) 0 d)
    = iprop(barPay c 0 ∗ barPay c 1 ∗ barPay c 2) := by
  rw [Finset.sdiff_empty, duties_bar, bigSep_fin3, payload_bar, payload_bar, payload_bar]
theorem rest_send (j : Fin 3) : bigSep ((a2a (F := F) m ρ).duties (sendCell c j) 0 \ ∅) (fun d => (a2a (F := F) m ρ).payload (sendCell c j) 0 d) = sendPay c j := by
  rw [Finset.sdiff_empty, duties_send, bigSep_singleton, payload_send]
theorem rest_recv (p : Dev nD) (hp : p ≠ c) : bigSep ((a2a (F := F) m ρ).duties (recvCell c p) 0 \ ∅) (fun d => (a2a (F := F) m ρ).payload (recvCell c p) 0 d) = recvPay m ρ c p := by
  rw [Finset.sdiff_empty, duties_recv m ρ c p hp, bigSep_singleton, payload_recv]

end Tables

/-! ## What each device owes at launch; the levels -/

/-- Device `c` owes each peer's receive cell `c` one copy's credit and each peer's barrier cell one unit, summed so
    that the body's steps peel the summands from the right: the signals to the peers at offsets 1, 2, 3, then the copies to
    those at offsets 2, 1, 3. -/
def owedCopies (c : Dev nD) : CellTallies nD τ sig Unit :=
  tallyAt (recvCell (peer c 3) c) () N + tallyAt (recvCell (peer c 1) c) () N + tallyAt (recvCell (peer c 2) c) () N
def O₂ (c : Dev nD) : CellTallies nD τ sig Unit := owedCopies c + tallyAt (barCell (peer c 3)) () 1
def O₁ (c : Dev nD) : CellTallies nD τ sig Unit := O₂ c + tallyAt (barCell (peer c 2)) () 1
def O₀ (c : Dev nD) : CellTallies nD τ sig Unit := O₁ c + tallyAt (barCell (peer c 1)) () 1

def L (g : GSem nD τ sig) : Finset Unit := if g.1.2 = .tc then {()} else ∅
/-- Barrier cells at level 1, receive cells at 2, everything else (staging, send) at 0: a device waits on its barrier
    owing only receive credits, and on its receive and send cells owing nothing. -/
def lv (g : GSem nD τ sig) (_ : Unit) : ℕ := match roleOf g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]
theorem lv_recv (c p : Dev nD) : lv (recvCell c p) () = 2 := by unfold lv; rw [role_recv]

theorem tallyAt_pos {g' g : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owedCopies_pos {c : Dev nD} {g : GSem nD τ sig} {u : Unit} (h : 0 < owedCopies c g u) : ∃ o : Fin 4, g = recvCell (peer c o) c := by
  unfold owedCopies at h
  rcases Pipeline.add_pos_cases h with h | h
  · rcases Pipeline.add_pos_cases h with h | h
    · exact ⟨3, tallyAt_pos h⟩
    · exact ⟨1, tallyAt_pos h⟩
  · exact ⟨2, tallyAt_pos h⟩

theorem O₀_pos {c : Dev nD} {g : GSem nD τ sig} {u : Unit} (h : 0 < O₀ c g u) :
    (∃ o : Fin 4, g = recvCell (peer c o) c) ∨ (∃ o : Fin 4, g = barCell (peer c o)) := by
  unfold O₀ O₁ O₂ at h
  rcases Pipeline.add_pos_cases h with h | h
  · rcases Pipeline.add_pos_cases h with h | h
    · rcases Pipeline.add_pos_cases h with h | h
      · exact .inl (owedCopies_pos h)
      · exact .inr ⟨3, tallyAt_pos h⟩
    · exact .inr ⟨2, tallyAt_pos h⟩
  · exact .inr ⟨1, tallyAt_pos h⟩

omit [FloatOps F] in
/-- The pipeline's own waits, on the staging semaphores (level 0), while the device owes everything or nothing. -/
theorem mayWait_stage (c : Dev nD) (q : DmaSem sig) (hq : roleOf (.dma q) = .other) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have hl : lv ((c : Thread nD τ), .dma q) () = 0 := by unfold lv; rw [hq]
    rcases O₀_pos hg with ⟨o, rfl⟩ | ⟨o, rfl⟩
    · exact ⟨by rw [L_tc]; exact Finset.mem_singleton_self _, by rw [hl, lv_recv]; decide⟩
    · exact ⟨by rw [L_tc]; exact Finset.mem_singleton_self _, by rw [hl, lv_bar]; decide⟩
  · rw [MayWait_zero]; iintro -; iempintro

omit [FloatOps F] in
/-- At its barrier wait a device owes the three receive credits only: receive cells, above its barrier cell. -/
theorem mayWait_bar (c : Dev nD) : (levAts L lv : sProp 𝕄) ⊢ MayWait (c : Thread nD τ) (.reg barS) () (owedCopies c) :=
  Pipeline.mayWait_of_levAts (by rw [L_tc]; exact Finset.mem_singleton_self _) fun g u hg => by
    obtain ⟨o, rfl⟩ := owedCopies_pos hg
    exact ⟨by rw [L_tc]; exact Finset.mem_singleton_self _, by rw [show lv ((c : Thread nD τ), .reg barS) () = 1 from lv_bar c, lv_recv]; decide⟩

/-! ## Ghost state -/

/-- Every cell's invariant, under the names `K`, and that every cell is at its first round: persistent, known to all. -/
def records (K : Dev nD × Fin 8 → ℕ) : sProp 𝕄 :=
  iprop((bigSep Finset.univ fun ck : Dev nD × Fin 8 => cellInv ER (a2a m ρ) (K ck) (kcell ck))
    ∗ bigSep Finset.univ fun ck : Dev nD × Fin 8 => reached ER (kcell ck) 0)

instance records_persistent (K : Dev nD × Fin 8 → ℕ) : BI.Persistent (records m ρ K) := by unfold records; infer_instance

/-- The index of a send or receive cell among a device's eight. -/
abbrev sendIx (j : Fin 3) : Fin 8 := ⟨1 + j.val, by omega⟩
abbrev recvIx (p : Dev nD) : Fin 8 := ⟨4 + p.val, by have : p.val < 4 := p.isLt; omega⟩
theorem kcell_bar (c : Dev nD) : kcell (c, 0) = barCell c := rfl
theorem kcell_send (c : Dev nD) (j : Fin 3) : kcell (c, sendIx j) = sendCell c j := by revert c j; decide
theorem kcell_recv (c p : Dev nD) : kcell (c, recvIx p) = recvCell c p := by revert c p; decide

/-- Device `c`'s positions on its own eight cells. -/
def positions (c : Dev nD) : sProp 𝕄 := bigSep Finset.univ fun k : Fin 8 => atPos ER (kcell (c, k)) 0 ∅ 0
/-- The tokens of the nine duties device `c` pays: for each peer, that peer's barrier unit and the arrival on that
    peer's receive cell `c`; and the departures of its own three copies. -/
def payToks (c : Dev nD) : sProp 𝕄 :=
  iprop((bigSep Finset.univ fun r : Fin 3 => dutyTok ER (barCell (peer c (offOf r))) 0 (2 - r))
    ∗ (bigSep Finset.univ fun r : Fin 3 => dutyTok ER (recvCell (peer c (offOf r)) c) 0 0)
    ∗ (bigSep Finset.univ fun r : Fin 3 => dutyTok ER (sendCell c r) 0 0))

def ghost (K : Dev nD × Fin 8 → ℕ) (c : Dev nD) : sProp 𝕄 := iprop(records m ρ K ∗ positions c ∗ payToks c)

/-- What device `c`'s body starts from: the ghost state at some names, the credit tokens of its barrier wait (three
    units) and of its three receive waits, and the level facts. -/
def start (c : Dev nD) : sProp 𝕄 :=
  iprop((∃ K, ghost m ρ K c) ∗ cred (tallyAt (barCell c) () 3)
    ∗ (bigSep Finset.univ fun r : Fin 3 => cred (tallyAt (recvCell c (peer c (offOf r))) () N)) ∗ levAts L lv)

def Φ₀ (c : Dev nD) : sProp 𝕄 := iprop(start m ρ c ∗ Pipeline.scopedRest cfg0.spec c)
/-- After the point: the two scratch buffers whole again, the seven own semaphores at zero. -/
def Φ₁ (c : Dev nD) : sProp 𝕄 := iprop(Pipeline.ownSems0 osem c ∗ Pipeline.scopedRest cfg0.spec c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.A2A

end
-- ==== Proof.KSlots.lean ====
/-
  The two scratch buffers by slots: which elements a slot's view covers, that distinct slots share none, and what a
  copy from a send-buffer slot into a receive-buffer slot leaves to be read there.
-/
import proofs.«900402_g7700000000000403_dist_a2a_gemm_m1024_k1024_n1024_f32_gelu_v7x_i4_1_alg».proof.Proof.KProtocol
import Idealize.ShloMosaic.Lib.Pipeline.Value

set_option maxRecDepth 16384

noncomputable section

namespace Cert.Kernel.A2A

open Cert.Kernel Cert.Kernel.Gen
open Idealize.ShloMosaic Idealize.ShloMosaic.TcCoe
open Idealize.SL.Sem

variable {F : FTy → Type} [FloatOps F]

/-! ## The printed offsets are the plain ones -/

theorem rSlot_eq (c : Dev nD) (r : Fin 3) : rSlot c r = slotRect (peer c (offOf r)) := Rect.unit_congr (off2_eq c r) _ _
theorem rX_eq (c : Dev nD) (r : Fin 3) : rX c r = rowsRect (peer c (offOf r)) := Rect.unit_congr (off1_eq c r) _ _
theorem rSrc_eq (c : Dev nD) (r : Fin 3) :
    Rect.unit (s := S4x256x256) (k0_off5 c (BitVec.ofNat 32 (1 + r.val))) S1x256x256.size (k0_off5_inb c r) = slotRect (peer c (offOf r)) :=
  Rect.unit_congr (off5_eq c r) _ _
theorem rDst_eq (c : Dev nD) : Rect.unit (s := S4x256x256) (k0_off4 c) S1x256x256.size (k0_off4_inb c) = slotRect c :=
  Rect.unit_congr (k0_off4_eq c) _ _

/-! ## Which elements a slot covers -/

theorem xgDst_set (p : Dev nD) : (xgDst p).view.set = (slotRect p).set := by
  simp only [Memref.view_squeeze, Memref.view_slice, Memref.view_whole, View.set_reshape, View.set_slice_whole]
  exact congrArg (fun R : Rect S4x256x256 => R.set) (rDst_eq p)
theorem sbSrc_set (c : Dev nD) (r : Fin 3) : (sbSrc c r).view.set = (slotRect (peer c (offOf r))).set := by
  simp only [Memref.view_squeeze, Memref.view_slice, Memref.view_whole, View.set_reshape, View.set_slice_whole]
  exact congrArg (fun R : Rect S4x256x256 => R.set) (rSrc_eq c r)

theorem slot_disjoint (p q : Dev nD) (h : p ≠ q) : Disjoint (slotRect p).set (slotRect q).set := by
  rw [Finset.disjoint_left]
  intro i hp hq
  rw [Rect.mem_set_unit] at hp hq
  have h1 := hp 0; have h2 := hq 0
  apply h; apply Fin.ext
  simp only [Matrix.cons_val_zero] at h1 h2
  omega

theorem offOf_inj : ∀ r r' : Fin 3, offOf r = offOf r' → r = r' := by decide

theorem xg_disj (p q : Dev nD) (h : p ≠ q) : Disjoint ((xgDst p).view.set) ((xgDst q).view.set) := by
  rw [xgDst_set, xgDst_set]; exact slot_disjoint p q h
theorem sb_disj (c : Dev nD) (r r' : Fin 3) (h : r ≠ r') : Disjoint ((sbSrc c r).view.set) ((sbSrc c r').view.set) := by
  rw [sbSrc_set, sbSrc_set]
  exact slot_disjoint _ _ (fun e => h (offOf_inj _ _ (peer_inj_off c _ _ e)))

/-! ## Reading a rectangle after a write through a rectangle -/

section Moves

variable {κ : Kind} {sp : Space} {s : Shape} {e : EltTy} {Val : EltTy → Type}

/-- Loads at equal offsets read the same. -/
theorem readAt_unit_congr (v : View sig κ sp s e) {off off' size : Fin s.rank → Nat} (h : off = off')
    (p : ∀ a, off a + size a ≤ s.size a) (p' : ∀ a, off' a + size a ≤ s.size a) (f : v.ty.Contents Val) :
    v.readAt Val (Rect.unit off size p).toLoadRect f = v.readAt Val (Rect.unit off' size p').toLoadRect f := by
  subst h; rfl

/-- What is written through a rectangle on every index is read back through the rectangle at the same offsets. -/
theorem read_unit_write_unit (v : View sig κ sp s e) {off off' size : Fin s.rank → Nat} (h : off = off')
    (p : ∀ a, off a + size a ≤ s.size a) (p' : ∀ a, off' a + size a ≤ s.size a) (f : v.ty.Contents Val)
    (w : (Rect.unit off size p).shape.Idx → Val e) :
    (v.slice (Rect.unit off' size p')).read Val ((v.slice (Rect.unit off size p)).write Val f w Finset.univ) = w := by
  subst h; exact View.read_write_univ (v := v.slice (Rect.unit off size p)) f w

/-- A write through a rectangle of a whole buffer is not seen through a rectangle that shares no element with it. -/
theorem read_slice_write_disjoint (b : Ref sig κ) (r r' : Rect b.ty.shape) (h : Disjoint r.set r'.set)
    (f : b.ty.Contents Val) (w : r'.shape.Idx → Val b.ty.elt) :
    ((View.whole b).slice r).read Val (((View.whole b).slice r').write Val f w Finset.univ) = ((View.whole b).slice r).read Val f :=
  View.read_slice_write_slice_of_disjoint (v := View.whole b) r r' f w Finset.univ
    (Finset.disjoint_left.mpr fun i hi hj => Finset.disjoint_left.mp h (by rwa [View.set_slice_whole] at hi)
      (by rw [View.setOn_univ, View.set_slice_whole] at hj; exact hj))

/-- A re-indexed view reads, at an index, what the view reads at the index's place. -/
theorem read_reshape_apply (u : View sig κ sp s e) (s' : Shape) (hn : s'.numel = s.numel) (fs : u.ty.Contents Val) (z : s'.Idx) :
    (u.reshape s' hn).read Val fs z = u.read Val fs (Shape.reshapeEquiv hn z) := rfl

/-- A copy of every element from a view `u`, re-indexed to the shape `s'`, into a rectangle of `v` re-indexed to the same
    shape, leaves to be read through the rectangle at the same offsets what `u` read: the two re-indexings cancel. -/
theorem read_unit_copy (v : View sig κ sp s e) {sp' : Space} {off off' size : Fin s.rank → Nat} (h : off = off')
    (p : ∀ a, off a + size a ≤ s.size a) (p' : ∀ a, off' a + size a ≤ s.size a)
    (u : View sig κ sp' ⟨s.rank, size⟩ e) (s' : Shape) (hn : s'.numel = (⟨s.rank, size⟩ : Shape).numel)
    (fd : v.ty.Contents Val) (fs : u.ty.Contents Val) :
    (v.slice (Rect.unit off' size p')).read Val
        (((v.slice (Rect.unit off size p)).reshape s' hn).write Val fd ((u.reshape s' hn).read Val fs) Finset.univ)
      = u.read Val fs := by
  subst h
  funext y
  have hy : (v.slice (Rect.unit off size p')).emb y
      = ((v.slice (Rect.unit off size p)).reshape s' hn).emb ((Shape.reshapeEquiv hn).symm y) := by
    show _ = (v.slice (Rect.unit off size p)).emb (Shape.reshapeEquiv hn ((Shape.reshapeEquiv hn).symm y))
    rw [Equiv.apply_symm_apply]
  rw [View.read_apply, hy, View.write_emb_of_mem _ _ (Finset.mem_univ _), cast_cast, cast_eq, read_reshape_apply,
    Equiv.apply_symm_apply]

end Moves

/-! ## The send buffer's slots after the three stores; what lands in a receive slot -/

/-- The send buffer after the three rounded row blocks are stored (program order: offsets 2, 1, 3), from any earlier contents. -/
def sbAfter (c : Dev nD) (fx : XC F) (f0 : SC F) : SC F :=
  ((sbM).access (rSlot c 2) : View sig .tc _ _ _).write (Elt F)
    (((sbM).access (rSlot c 0) : View sig .tc _ _ _).write (Elt F)
      (((sbM).access (rSlot c 1) : View sig .tc _ _ _).write (Elt F) f0 (k0_pay1 (xRows c 1 fx)) Finset.univ)
      (k0_pay2 (xRows c 0 fx)) Finset.univ)
    (k0_pay3 (xRows c 2 fx)) Finset.univ

/-- The rectangle a copy's source is read through. -/
abbrev rSrc (c : Dev nD) (r : Fin 3) : Rect S4x256x256 :=
  Rect.unit (s := S4x256x256) (k0_off5 c (BitVec.ofNat 32 (1 + r.val))) S1x256x256.size (k0_off5_inb c r)

/-- A load of the receive buffer at the slot of the peer at offset `1 + r` reads only elements of that peer's slot. -/
theorem load_sub (c : Dev nD) (r : Fin 3) : (xgM).view.setOn (rSlot c r).toLoadRect.set ⊆ (xgDst (peer c (offOf r))).view.set := by
  rw [xgDst_set, ← rSlot_eq]
  intro i hi
  rw [View.setOn, Finset.mem_map] at hi
  obtain ⟨j, hj, rfl⟩ := hi
  exact hj

theorem peer_offOf_two_sub (c : Dev nD) (r : Fin 3) : peer (peer c (offOf r)) (offOf (2 - r)) = c := by revert c r; decide

/-- What device `c` reads in the slot of its peer `p` at offset `1 + r`, once `p`'s rows for `c` have landed there, is what `p`
    sent to ITS peer at offset `1 + (2 - r)`, which is `c`. -/
theorem got_of_landed (c : Dev nD) (r : Fin 3) (fx : XC F) (f : SC F)
    (h : (xgM).view.readAt (Elt F) (slotRect (peer c (offOf r))).toLoadRect f = sentTo c fx) :
    (xgM).view.readAt (Elt F) (rSlot c r).toLoadRect f = sent (peer c (offOf r)) (2 - r) fx := by
  have e1 : (xgM).view.readAt (Elt F) (rSlot c r).toLoadRect f = (xgM).view.readAt (Elt F) (slotRect (peer c (offOf r))).toLoadRect f :=
    readAt_unit_congr (xgM).view (off2_eq c r) _ _ f
  have hp := peer_offOf_two_sub c r
  have e2 : sent (peer c (offOf r)) (2 - r) fx = sentTo c fx := by
    unfold sent sentTo xRows
    exact congrArg (k0_pay1 (F := F))
      (readAt_unit_congr (xM).view ((off1_eq (peer c (offOf r)) (2 - r)).trans (by rw [hp])) _ _ fx)
  rw [e1, h, e2]

/-- A slot of the send buffer read after a store to the same slot: what was stored; -/
theorem sb_hit (c : Dev nD) (r : Fin 3) (f : SC F) (w : FVec F S1x256x256 .bf16) :
    ((sbM).view.slice (rSrc c r)).read (Elt F) (((sbM).access (rSlot c r) : View sig .tc _ _ _).write (Elt F) f w Finset.univ) = w :=
  read_unit_write_unit (sbM).view ((off2_eq c r).trans (off5_eq c r).symm) _ _ f w

/-- after a store to another slot: what it held before. -/
theorem sb_miss (c : Dev nD) (r k : Fin 3) (h : r ≠ k) (f : SC F) (w : FVec F S1x256x256 .bf16) :
    ((sbM).view.slice (rSrc c r)).read (Elt F) (((sbM).access (rSlot c k) : View sig .tc _ _ _).write (Elt F) f w Finset.univ)
      = ((sbM).view.slice (rSrc c r)).read (Elt F) f :=
  read_slice_write_disjoint cc0_scratch0 (rSrc c r) (rSlot c k) (by
    rw [show rSrc c r = slotRect (peer c (offOf r)) from rSrc_eq c r, rSlot_eq]
    exact slot_disjoint _ _ (fun e => h (offOf_inj _ _ (peer_inj_off c _ _ e)))) f w

/-- After the three stores the slot of the peer at offset `1 + r` holds that peer's rows of the device's block, rounded. -/
theorem sb_slot (c : Dev nD) (r : Fin 3) (fx : XC F) (f0 : SC F) :
    ((sbM).view.slice (rSrc c r)).read (Elt F) (sbAfter c fx f0) = k0_pay1 (xRows c r fx) := by
  have hr : ∀ r : Fin 3, r ≠ 2 → r ≠ 0 → r = 1 := by decide
  unfold sbAfter
  by_cases h2 : r = 2
  · subst h2; exact sb_hit c 2 _ _
  · rw [sb_miss c r 2 h2]
    by_cases h0 : r = 0
    · subst h0; exact sb_hit c 0 _ _
    · rw [sb_miss c r 0 h0]
      have h1 := hr r h2 h0
      subst h1; exact sb_hit c 1 _ _

/-- What is read in slot `c` of a receive buffer once device `c`'s copy to the peer at offset `1 + r` has landed there: the
    rows of `c`'s block that are that peer's, rounded. -/
theorem landed (c : Dev nD) (r : Fin 3) (fx : XC F) (f0 fn : SC F) :
    (xgM).view.readAt (Elt F) (slotRect c).toLoadRect
        ((xgDst c).view.write (Elt F) fn ((sbSrc c r).view.read (Elt F) (sbAfter c fx f0)) Finset.univ)
      = sentTo (peer c (offOf r)) fx := by
  have e1 := read_unit_copy (Val := Elt F) (xgM).view (k0_off4_eq c) (k0_off4_inb c) (slot_inb c)
    ((sbM).view.slice (rSrc c r)) S256x256 squeezes_S1x256x256_S256x256.numel_eq fn (sbAfter c fx f0)
  refine Eq.trans e1 ?_
  rw [sb_slot]
  unfold sentTo
  exact congrArg (k0_pay1 (F := F)) (readAt_unit_congr (xM).view (off1_eq c r) _ _ fx)

end Cert.Kernel.A2A

end
-- ==== Proof.KValueStores.lean ====
/-
  The result buffer after the two stores, for any float values.

  The first store fills columns 0 … 511 of the 256 × 1024 buffer, the second columns 512 … 1023. A column from 512 on
  therefore holds the second payload; a column below 512 is outside the second rectangle and holds the first payload.
  Together the two rectangles cover the buffer, so nothing of its earlier contents survives.
-/
import proofs.«900402_g7700000000000403_dist_a2a_gemm_m1024_k1024_n1024_f32_gelu_v7x_i4_1_alg».proof.Proof.KSpec
import Idealize.ShloMosaic.Lib.ValueIdx

noncomputable section

namespace Cert.Kernel.A2A

open Cert.Kernel Cert.Kernel.Gen
open Idealize.ShloMosaic Idealize.ShloMosaic.ValueIdx Idealize.SL.Sem

variable {F : FTy → Type} [FloatOps F]

theorem storeL_lt (j : Fin 512) : j.val < 1024 := by omega
theorem storeR_lt (j : Fin 512) : 512 + j.val < 1024 := by omega

/-- After a store of `wL` into the left half and then of `wR` into the right half, a column from 512 on holds `wR`. -/
theorem halves_right (f0 : OC F) (wL wR : FVec F S256x512 .f32) (i : Fin 256) (j : Fin 512) :
    ((oM).access rOutR : View sig .tc _ _ _).write (Elt F)
        (((oM).access rOutL : View sig .tc _ _ _).write (Elt F) f0 wL Finset.univ) wR Finset.univ
        (ix2 i ⟨512 + j.val, storeR_lt j⟩)
      = wR (ix2 i j) := by
  have e : (ix2 i ⟨512 + j.val, storeR_lt j⟩ : S256x1024.Idx) = ((oM).access rOutR : View sig .tc _ _ _).emb (ix2 i j) :=
    funext fun a => Fin.ext (by
      match a with
      | ⟨0, _⟩ => show i.val = 0 + 1 * i.val; omega
      | ⟨1, _⟩ => show 512 + j.val = 512 + 1 * j.val; omega)
  rw [e]
  exact View.write_emb_of_mem _ _ (Finset.mem_univ _)

/-- A column below 512 is outside the right half, -/
theorem left_not_mem_right (i : Fin 256) (j : Fin 512) :
    (ix2 i ⟨j.val, storeL_lt j⟩ : S256x1024.Idx) ∉ ((oM).access rOutR : View sig .tc _ _ _).setOn Finset.univ := by
  show _ ∉ ((View.whole cc0_stg2_0).slice rOutR).set
  rw [View.set_slice_whole, Rect.mem_set_unit]
  intro h
  have h1 := (h ⟨1, by decide⟩).1
  have h2 : (512 : Nat) ≤ j.val := h1
  omega

/-- so it holds what the first store left there: `wL`. -/
theorem halves_left (f0 : OC F) (wL wR : FVec F S256x512 .f32) (i : Fin 256) (j : Fin 512) :
    ((oM).access rOutR : View sig .tc _ _ _).write (Elt F)
        (((oM).access rOutL : View sig .tc _ _ _).write (Elt F) f0 wL Finset.univ) wR Finset.univ
        (ix2 i ⟨j.val, storeL_lt j⟩)
      = wL (ix2 i j) := by
  rw [View.write_of_not_mem _ _ _ (left_not_mem_right i j)]
  have e : (ix2 i ⟨j.val, storeL_lt j⟩ : S256x1024.Idx) = ((oM).access rOutL : View sig .tc _ _ _).emb (ix2 i j) :=
    funext fun a => Fin.ext (by
      match a with
      | ⟨0, _⟩ => show i.val = 0 + 1 * i.val; omega
      | ⟨1, _⟩ => show j.val = 0 + 1 * j.val; omega)
  rw [e]
  exact View.write_emb_of_mem _ _ (Finset.mem_univ _)

/-- Every entry after the two stores: the first payload below column 512, the second from there on. -/
theorem halves_read (f0 : OC F) (wL wR : FVec F S256x512 .f32) (i : Fin 256) (J : Fin 1024) :
    ((oM).access rOutR : View sig .tc _ _ _).write (Elt F)
        (((oM).access rOutL : View sig .tc _ _ _).write (Elt F) f0 wL Finset.univ) wR Finset.univ (ix2 i J)
      = if h : J.val < 512 then wL (ix2 i ⟨J.val, h⟩) else wR (ix2 i ⟨J.val - 512, by omega⟩) := by
  by_cases hJ : J.val < 512
  · rw [dif_pos hJ]
    exact halves_left f0 wL wR i ⟨J.val, hJ⟩
  · rw [dif_neg hJ]
    have hJ' : J.val - 512 < 512 := by omega
    have key := halves_right f0 wL wR i ⟨J.val - 512, hJ'⟩
    have eJ : (⟨512 + (⟨J.val - 512, hJ'⟩ : Fin 512).val, storeR_lt ⟨J.val - 512, hJ'⟩⟩ : Fin 1024) = J :=
      Fin.ext (by show 512 + (J.val - 512) = J.val; omega)
    rw [eJ] at key
    exact key

/-- The result buffer at an entry: the stored left half below column 512, the stored right half from there on. -/
theorem outFinal_read (c : Dev nD) (fxs : Dev nD → XC F) (fw : WC F) (f0 : OC F) (i : Fin 256) (J : Fin 1024) :
    outFinal c fxs fw f0 (ix2 i J)
      = if h : J.val < 512 then outL c fxs fw (ix2 i ⟨J.val, h⟩) else outR c fxs fw (ix2 i ⟨J.val - 512, by omega⟩) :=
  halves_read f0 (outL c fxs fw) (outR c fxs fw) i J

/-- The two stores cover the buffer: its contents afterwards do not depend on what it held before. -/
theorem outFinal_indep (c : Dev nD) (fxs : Dev nD → XC F) (fw : WC F) (f0 f0' : OC F) :
    outFinal c fxs fw f0 = outFinal c fxs fw f0' := by
  funext y
  obtain ⟨i, J, rfl⟩ : ∃ (i : Fin 256) (J : Fin 1024), y = ix2 i J := ⟨y 0, y 1, eq_ix2 y⟩
  rw [outFinal_read, outFinal_read]

end Cert.Kernel.A2A

/-- info: 'Cert.Kernel.A2A.outFinal_indep' depends on axioms: [propext, Classical.choice, Quot.sound] -/
#guard_msgs in #print axioms Cert.Kernel.A2A.outFinal_indep

end
-- ==== Proof.KBody.lean ====
/-
  One device's body of the four-device all-to-all, run from its share of the protocol's ghost state.

  In program order: the device rounds the three row blocks of its `x` block bound for its peers into its send buffer; tells each
  peer, on that peer's barrier semaphore, that it is inside the kernel, handing over the slot of its receive buffer that peer
  will fill; waits for the three peers' units, receiving slot `c` of each peer's receive buffer; starts its three copies; multiplies
  its own rows; for each peer waits for that peer's copy, reads the slot it filled and accumulates the product; stores the gelu of
  the two halves; and waits for its three copies to have left. Every semaphore it owns ends at zero and both scratch buffers whole.
-/
import proofs.«900402_g7700000000000403_dist_a2a_gemm_m1024_k1024_n1024_f32_gelu_v7x_i4_1_alg».proof.Proof.KProtocol
import proofs.«900402_g7700000000000403_dist_a2a_gemm_m1024_k1024_n1024_f32_gelu_v7x_i4_1_alg».proof.Proof.KSlots
import proofs.«900402_g7700000000000403_dist_a2a_gemm_m1024_k1024_n1024_f32_gelu_v7x_i4_1_alg».proof.Proof.KValueStores

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- The four devices, listed from `c` around the mesh. -/
theorem bigSep_peers (c : Dev nD) (Φ : Dev nD → sProp 𝕄) : bigSep Finset.univ Φ = iprop(Φ c ∗ Φ (peer c 1) ∗ Φ (peer c 2) ∗ Φ (peer c 3)) :=
  bigSep_univ_eq_bigSepL [c, peer c 1, peer c 2, peer c 3] (by revert c; decide) (by revert c; decide) Φ

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_elim' {I : Type} [DecidableEq I] [Fintype I] (Φ : I → sProp 𝕄) (i : I) : bigSep Finset.univ Φ ⊢ Φ i := bigSep_elim (Finset.mem_univ i)
theorem inv_at (K : Dev nD × Fin 8 → ℕ) (ck : Dev nD × Fin 8) :
    (bigSep Finset.univ fun ck : Dev nD × Fin 8 => (cellInv ER (a2a m ρ) (K ck) (kcell ck) : sProp 𝕄)) ⊢ cellInv ER (a2a m ρ) (K ck) (kcell ck) :=
  bigSep_elim (Finset.mem_univ ck)
omit [FloatOps F] in
theorem reached_at (ck : Dev nD × Fin 8) :
    (bigSep Finset.univ fun ck : Dev nD × Fin 8 => (reached ER (kcell ck) 0 : sProp 𝕄)) ⊢ reached ER (kcell ck) 0 :=
  bigSep_elim (Finset.mem_univ ck)

/-- Going to the peer at offset `1 + r` and from there to the peer at offset `1 + (2 - r)` comes back. -/
theorem peer_round (c : Dev nD) (r : Fin 3) : peer (peer c (offOf r)) (offOf (2 - r)) = c := by revert c r; decide
theorem peer_ne_self (c : Dev nD) (r : Fin 3) : peer c (offOf r) ≠ c := by revert c r; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 8 → ℕ)

def bodyPre (c : Dev nD) : sProp 𝕄 :=
  iprop((ghost m ρ K c ∗ cred (tallyAt (barCell c) () 3)
      ∗ (bigSep Finset.univ fun r : Fin 3 => cred (tallyAt (recvCell c (peer c (offOf r))) () N)) ∗ levAts L lv
      ∗ Pipeline.scopedRest cfg0.spec c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

theorem inv_bar (d : Dev nD) :
    (bigSep Finset.univ fun ck : Dev nD × Fin 8 => (cellInv ER (a2a m ρ) (K ck) (kcell ck) : sProp 𝕄)) ⊢ cellInv ER (a2a m ρ) (K (d, 0)) (barCell d) := inv_at m ρ K (d, 0)
theorem inv_send (d : Dev nD) (j : Fin 3) :
    (bigSep Finset.univ fun ck : Dev nD × Fin 8 => (cellInv ER (a2a m ρ) (K ck) (kcell ck) : sProp 𝕄)) ⊢ cellInv ER (a2a m ρ) (K (d, sendIx j)) (sendCell d j) := by
  rw [← kcell_send]; exact inv_at m ρ K (d, sendIx j)
theorem inv_recv (d p : Dev nD) :
    (bigSep Finset.univ fun ck : Dev nD × Fin 8 => (cellInv ER (a2a m ρ) (K ck) (kcell ck) : sProp 𝕄)) ⊢ cellInv ER (a2a m ρ) (K (d, recvIx p)) (recvCell d p) := by
  rw [← kcell_recv]; exact inv_at m ρ K (d, recvIx p)
omit [FloatOps F] in
theorem reached_bar (d : Dev nD) :
    (bigSep Finset.univ fun ck : Dev nD × Fin 8 => (reached ER (kcell ck) 0 : sProp 𝕄)) ⊢ reached ER (barCell d) 0 := reached_at (d, 0)
omit [FloatOps F] in
theorem reached_send (d : Dev nD) (j : Fin 3) :
    (bigSep Finset.univ fun ck : Dev nD × Fin 8 => (reached ER (kcell ck) 0 : sProp 𝕄)) ⊢ reached ER (sendCell d j) 0 := by
  rw [← kcell_send]; exact reached_at (d, sendIx j)
omit [FloatOps F] in
theorem reached_recv (d p : Dev nD) :
    (bigSep Finset.univ fun ck : Dev nD × Fin 8 => (reached ER (kcell ck) 0 : sProp 𝕄)) ⊢ reached ER (recvCell d p) 0 := by
  rw [← kcell_recv]; exact reached_at (d, recvIx p)

omit [FloatOps F] in
/-- A device's positions, its own receive cells listed around the mesh from itself. -/
theorem positions_eq (c : Dev nD) : (positions c : sProp 𝕄) =
    iprop(atPos ER (barCell c) 0 ∅ 0 ∗ atPos ER (sendCell c 0) 0 ∅ 0 ∗ atPos ER (sendCell c 1) 0 ∅ 0 ∗ atPos ER (sendCell c 2) 0 ∅ 0
      ∗ atPos ER (recvCell c c) 0 ∅ 0 ∗ atPos ER (recvCell c (peer c 1)) 0 ∅ 0 ∗ atPos ER (recvCell c (peer c 2)) 0 ∅ 0 ∗ atPos ER (recvCell c (peer c 3)) 0 ∅ 0) := by
  unfold positions
  rw [bigSep_fin8, ← bigSep_peers c (fun p => (atPos ER (recvCell c p) 0 ∅ 0 : sProp 𝕄)), bigSep_fin4]
  rfl

omit [FloatOps F] in
/-- The kernel's own semaphores at zero, the receive ones listed around the mesh from the device itself. -/
theorem ownSems_eq (c : Dev nD) : (Pipeline.ownSems0 (Ix := Unit) (Name := ℕ) (U := UU) (Lvl := ℕ) (Val := Elt F) (τ := τ) osem c : sProp 𝕄) =
    iprop(semVal (sendCell c 0) 0 ∗ semVal (sendCell c 1) 0 ∗ semVal (sendCell c 2) 0
      ∗ semVal (recvCell c c) 0 ∗ semVal (recvCell c (peer c 1)) 0 ∗ semVal (recvCell c (peer c 2)) 0 ∗ semVal (recvCell c (peer c 3)) 0) := by
  unfold Pipeline.ownSems0
  rw [bigSep_fin7, ← bigSep_peers c (fun p => (semVal (recvCell c p) 0 : sProp 𝕄)), bigSep_fin4]
  rfl

/-- One copy: device `c`'s slot for the peer at offset `1 + r`, into slot `c` of that peer's receive buffer. -/
theorem wp_send_a2a (c n : Dev nD) (r : Fin 3) (hn : n = peer c (offOf r))
    {hsc : (xgDst c : Memref sig (Dev.tc n : Thread nD τ).2.kind .vmem S256x256 .bf16).view.ref.isScScratch = false}
    {hsrc : (sbSrc c r).view.WordExact} {hdst : (xgDst c).view.WordExact}
    {hsem : DmaTarget.Typed .vmem (.dma (recvSem c)) (.remote (Dev.tc n : Thread nD τ) (xgDst c) (.dma (sendSem r)) hsc)}
    {α : Type} {Q : α → sProp 𝕄} {k : PUnit → Prog (TpuEff nD τ sig (Elt F) Λ₀ .tc) α}
    (fs : Buf (Elt F) ((sbSrc c r).view.loc (c : Thread nD τ))) (fn : Buf (Elt F) ((xgDst c).view.loc (peer c (offOf r) : Thread nD τ)))
    (O : CellTallies nD τ sig Unit) (W : Waits sig Unit)
    (hland : (xgM).view.readAt (Elt F) (slotRect c).toLoadRect ((xgDst c).view.write (Elt F) fn ((sbSrc c r).view.read (Elt F) fs) Finset.univ)
      = sentTo (peer c (offOf r)) (xstg m ρ c)) :
    iprop(cellInv ER (a2a m ρ) (K (c, sendIx r)) (sendCell c r) ∗ cellInv ER (a2a m ρ) (K (peer c (offOf r), recvIx c)) (recvCell (peer c (offOf r)) c)
        ∗ sbPts c r fs ∗ xgPts (peer c (offOf r)) c fn
        ∗ owes (c : Thread nD τ) (O + tallyAt (recvCell (peer c (offOf r)) c) () N) W
        ∗ dutyTok ER (sendCell c r) 0 0 ∗ reached ER (sendCell c r) 0
        ∗ dutyTok ER (recvCell (peer c (offOf r)) c) 0 0 ∗ reached ER (recvCell (peer c (offOf r)) c) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSrc c r) (.remote (Dev.tc n : Thread nD τ) (xgDst c) (.dma (sendSem r)) hsc) (.dma (recvSem c)) hsrc hdst hsem) k) Q) := by
  subst hn
  unfold sbPts xgPts
  exact Rounds.wp_send_pointsTo 𝒱₀ ER (a2a m ρ) (c : Thread nD τ) none (κ₁ := K (c, sendIx r)) (κ₂ := K (peer c (offOf r), recvIx c))
    (r₁ := 0) (r₂ := 0) (d₁ := 0) (d₂ := 0) (fd := fn)
    (by rw [duties_send]; exact Finset.mem_singleton_self _)
    (by rw [duties_recv m ρ _ _ (peer_ne_self c r).symm]; exact Finset.mem_singleton_self _)
    () () N rfl (amount_send m ρ c r 0) (amount_recv m ρ (peer c (offOf r)) c 0) O rfl (W := W)
    (by rw [payload_send]; unfold sendPay sbPts; iintro H; iexists fs; iexact H)
    (by rw [payload_recv]; unfold recvPay xgPts; iintro H; iexists _; isplitr; · (ipureintro; exact hland)
        iexact H)

/-- The receive semaphores the body waits on, for the peers at offsets 1, 2, 3. -/
theorem recv_sem_p1 (c : Dev nD) :
    (((cc0_scratch3).slice (Rect.unit (s := S4) (k0_off8 c 1#32) S1.size (k0_off8_inb c 0))).squeeze S_ squeezes_S1_S_).sem = recvSem (peer c 1) := recv_sem_peer c 0
theorem recv_sem_p2 (c : Dev nD) :
    (((cc0_scratch3).slice (Rect.unit (s := S4) (k0_off8 c 2#32) S1.size (k0_off8_inb c 1))).squeeze S_ squeezes_S1_S_).sem = recvSem (peer c 2) := recv_sem_peer c 1
theorem recv_sem_p3 (c : Dev nD) :
    (((cc0_scratch3).slice (Rect.unit (s := S4) (k0_off8 c 3#32) S1.size (k0_off8_inb c 2))).squeeze S_ squeezes_S1_S_).sem = recvSem (peer c 3) := recv_sem_peer c 2

/-- `rest_send` at a send semaphore however it is spelt. -/
theorem rest_send' (c : Dev nD) (j : Fin 3) (q : DmaSem sig) (hq : q = sendSem j) :
    bigSep ((a2a (F := F) m ρ).duties ((c : Thread nD τ), .dma q) 0 \ ∅) (fun d => (a2a (F := F) m ρ).payload ((c : Thread nD τ), .dma q) 0 d) = sendPay c j := by
  subst hq; exact rest_send m ρ c j

set_option maxHeartbeats 8000000 in
/-- The body, run from `bodyPre` one rule per effect in program order, to `bodyPost`. The facts about the scratch buffers'
    slots it uses are its hypotheses: distinct slots share no element; a slot read through the body's load rectangle lies in the
    slot; what lands in a peer's slot reads as the rounded rows sent; a slot known by its plain rectangle reads the same
    through the body's; and the two result stores leave nothing of the buffer's earlier contents. -/
theorem sound_body
    (hxg_disj : ∀ p q : Dev nD, p ≠ q → Disjoint ((xgDst p).view.set) ((xgDst q).view.set))
    (hsb_disj : ∀ (c : Dev nD) (r r' : Fin 3), r ≠ r' → Disjoint ((sbSrc c r).view.set) ((sbSrc c r').view.set))
    (hload_sub : ∀ (c : Dev nD) (r : Fin 3), (xgM).view.setOn (rSlot c r).toLoadRect.set ⊆ (xgDst (peer c (offOf r))).view.set)
    (hland : ∀ (c : Dev nD) (r : Fin 3) (fx : XC F) (f0 fn : SC F),
      (xgM).view.readAt (Elt F) (slotRect c).toLoadRect ((xgDst c).view.write (Elt F) fn ((sbSrc c r).view.read (Elt F) (sbAfter c fx f0)) Finset.univ)
        = sentTo (peer c (offOf r)) fx)
    (hgot : ∀ (c : Dev nD) (r : Fin 3) (fx : XC F) (f : SC F),
      (xgM).view.readAt (Elt F) (slotRect (peer c (offOf r))).toLoadRect f = sentTo c fx →
      (xgM).view.readAt (Elt F) (rSlot c r).toLoadRect f = sent (peer c (offOf r)) (2 - r) fx)
    (hout : ∀ (c : Dev nD) (fxs : Dev nD → XC F) (fw : WC F) (f0 f0' : OC F), outFinal c fxs fw f0 = outFinal c fxs fw f0')
    (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) wM (Memref.isWhole_whole _) oM (Memref.isWhole_whole _) sbM (Memref.isWhole_whole _) xgM (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  simp only [recv_sem_own c, recv_sem_p1 c, recv_sem_p2 c, recv_sem_p3 c, dev1_eq c, dev2_eq c, dev3_eq c]
  unfold bodyPre ghost payToks records
  rw [Gen.scopedRest0_eq, positions_eq]
  simp only [bigSep_fin3]
  iintro ⟨⟨⟨⟨⟨#HI, #HR⟩, ⟨HaB, HaS0, HaS1, HaS2, HaRc, HaR1, HaR2, HaR3⟩, ⟨HtB0, HtB1, HtB2⟩, ⟨HtR0, HtR1, HtR2⟩, ⟨HtS0, HtS1, HtS2⟩⟩, HcB, ⟨HcR0, HcR1, HcR2⟩, #Hlev,
      ⟨%fsb0, Hsb⟩, ⟨%fxg0, Hxg⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = O₀ c from rfl]

  -- the three row blocks bound for the peers, rounded, into the send buffer (offsets 2, 1, 3)
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 1) (Mk := Finset.univ) (Finset.subset_univ _)) $$ Hsb; iintro Hsb
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 0) (Mk := Finset.univ) (Finset.subset_univ _)) $$ Hsb; iintro Hsb
  iapply (wp_load 𝒱₀ (c : Thread nD τ) none Set.univ (m := xM) (Finset.subset_univ _)) $$ Hx; iintro Hx
  iapply (wp_load 𝒱₀ (c : Thread nD τ) none Set.univ (m := sbM) (Finset.subset_univ _)) $$ Hsb; iintro Hsb
  iapply (wp_store 𝒱₀ (c : Thread nD τ) none Set.univ (m := sbM) (r := rSlot c 2) (Mk := Finset.univ) (Finset.subset_univ _)) $$ Hsb; iintro Hsb
  have hJ2 : (xgDst (peer c 2)).view.set ⊆ Finset.univ \ (xgDst (peer c 1)).view.set :=
    Finset.subset_sdiff.mpr ⟨Finset.subset_univ _, hxg_disj _ _ (fun e => absurd (peer_inj_off c _ _ e) (by decide))⟩
  have hJ3 : (xgDst (peer c 3)).view.set ⊆ (Finset.univ \ (xgDst (peer c 1)).view.set) \ (xgDst (peer c 2)).view.set :=
    Finset.subset_sdiff.mpr ⟨Finset.subset_sdiff.mpr ⟨Finset.subset_univ _, hxg_disj _ _ (fun e => absurd (peer_inj_off c _ _ e) (by decide))⟩,
      hxg_disj _ _ (fun e => absurd (peer_inj_off c _ _ e) (by decide))⟩
  have hI0 : (sbSrc c 0).view.set ⊆ Finset.univ \ (sbSrc c 1).view.set :=
    Finset.subset_sdiff.mpr ⟨Finset.subset_univ _, hsb_disj c 0 1 (by decide)⟩
  have hI2 : (sbSrc c 2).view.set ⊆ (Finset.univ \ (sbSrc c 1).view.set) \ (sbSrc c 0).view.set :=
    Finset.subset_sdiff.mpr ⟨Finset.subset_sdiff.mpr ⟨Finset.subset_univ _, hsb_disj c 2 1 (by decide)⟩, hsb_disj c 2 0 (by decide)⟩
  -- the receive buffer by slots: one for each peer, and the rest
  ihave Hs := (pointsTo_split_subset (I := (xgDst (peer c 1)).view.set) (Finset.subset_univ _)).1 $$ Hxg
  icases Hs with ⟨Hxg1, Hxg⟩
  ihave Hs := (pointsTo_split_subset (I := (xgDst (peer c 2)).view.set) hJ2).1 $$ Hxg
  icases Hs with ⟨Hxg2, Hxg⟩
  ihave Hs := (pointsTo_split_subset (I := (xgDst (peer c 3)).view.set) hJ3).1 $$ Hxg
  icases Hs with ⟨Hxg3, Hxg⟩
  -- the three barrier units, each handing the peer the slot it will fill
  have hp1 : peer (peer c 1) (offOf 2) = c := peer_round c 0
  have hp2 : peer (peer c 2) (offOf 1) = c := peer_round c 1
  have hp3 : peer (peer c 3) (offOf 0) = c := peer_round c 2
  iapply (Rounds.wp_signal 𝒱₀ ER (a2a m ρ) (c : Thread nD τ) none (dst := (peer c 1 : Thread nD τ)) (κ := K (peer c 1, 0))
      (d := 2) (by rw [duties_bar]; exact Finset.mem_univ _) ((amount_bar m ρ (peer c 1) 2).trans (by decide)) () (O₁ c) rfl)
    $$ [HO HtB0 Hxg1]
  · isplitr; · iapply (inv_bar m ρ K (peer c 1)); iexact HI
    isplitl [HO]; · iexact HO
    isplitl [HtB0]; · iexact HtB0
    isplitl [Hxg1]
    · rw [payload_bar]; unfold barPay xgPts; rw [hp1]
      isplitl [Hxg1]; · iexists fxg0; iexact Hxg1
      iapply (reached_recv c (peer c 1)); iexact HR
    · iapply (reached_bar (peer c 1)); iexact HR
  iintro HO

  unfold O₁
  iapply (Rounds.wp_signal 𝒱₀ ER (a2a m ρ) (c : Thread nD τ) none (dst := (peer c 2 : Thread nD τ)) (κ := K (peer c 2, 0))
      (d := 1) (by rw [duties_bar]; exact Finset.mem_univ _) ((amount_bar m ρ (peer c 2) 1).trans (by decide)) () (O₂ c) rfl)
    $$ [HO HtB1 Hxg2]
  · isplitr; · iapply (inv_bar m ρ K (peer c 2)); iexact HI
    isplitl [HO]; · iexact HO
    isplitl [HtB1]; · iexact HtB1
    isplitl [Hxg2]
    · rw [payload_bar]; unfold barPay xgPts; rw [hp2]
      isplitl [Hxg2]; · iexists fxg0; iexact Hxg2
      iapply (reached_recv c (peer c 2)); iexact HR
    · iapply (reached_bar (peer c 2)); iexact HR
  iintro HO
  unfold O₂
  iapply (Rounds.wp_signal 𝒱₀ ER (a2a m ρ) (c : Thread nD τ) none (dst := (peer c 3 : Thread nD τ)) (κ := K (peer c 3, 0))
      (d := 0) (by rw [duties_bar]; exact Finset.mem_univ _) ((amount_bar m ρ (peer c 3) 0).trans (by decide)) () (owedCopies c) rfl)
    $$ [HO HtB2 Hxg3]
  · isplitr; · iapply (inv_bar m ρ K (peer c 3)); iexact HI
    isplitl [HO]; · iexact HO
    isplitl [HtB2]; · iexact HtB2
    isplitl [Hxg3]
    · rw [payload_bar]; unfold barPay xgPts; rw [hp3]
      isplitl [Hxg3]; · iexists fxg0; iexact Hxg3
      iapply (reached_recv c (peer c 3)); iexact HR
    · iapply (reached_bar (peer c 3)); iexact HR
  iintro HO
  -- the wait for the three peers' units: slot `c` of each peer's receive buffer comes with them
  iapply (Rounds.wp_wait_rest_token 𝒱₀ ER (a2a m ρ) (c : Thread nD τ) none (κ := K (c, 0))
      (wpE_semWait_eq 𝒱₀ (c : Thread nD τ) none Set.univ) (Set.mem_univ _) () (O := owedCopies c) (W := W) (R := 0) (m := 0) (T := ∅)
      (by rw [expect_bar]; decide)) $$ [HcB HO HaB]
  · isplitr; · iapply (inv_bar m ρ K c); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨⟨⟨%fn1, Hd1⟩, -⟩, ⟨⟨%fn2, Hd2⟩, -⟩, ⟨⟨%fn3, Hd3⟩, -⟩⟩

  -- the send buffer by slots: one for each copy, and the rest
  ihave Hs := (pointsTo_split_subset (I := (sbSrc c 1).view.set) (Finset.subset_univ _)).1 $$ Hsb
  icases Hs with ⟨Hsb1, Hsb⟩
  ihave Hs := (pointsTo_split_subset (I := (sbSrc c 0).view.set) hI0).1 $$ Hsb
  icases Hs with ⟨Hsb0, Hsb⟩
  ihave Hs := (pointsTo_split_subset (I := (sbSrc c 2).view.set) hI2).1 $$ Hsb
  icases Hs with ⟨Hsb2, Hsb⟩
  -- the three copies: to the peers at offsets 2, 1, 3
  unfold owedCopies
  iapply (wp_send_a2a m ρ K c _ 1 (dev4_eq c) (sbAfter c (xstg m ρ c) fsb0) fn2
      (tallyAt (recvCell (peer c 3) c) () N + tallyAt (recvCell (peer c 1) c) () N) _
      (hland c 1 (xstg m ρ c) fsb0 fn2)) $$ [Hsb1 Hd2 HO HtS1 HtR1]
  · isplitr; · iapply (inv_send m ρ K c 1); iexact HI
    isplitr; · iapply (inv_recv m ρ K (peer c 2) c); iexact HI
    isplitl [Hsb1]; · unfold sbPts; iexact Hsb1
    isplitl [Hd2]; · iexact Hd2
    isplitl [HO]; · iexact HO
    isplitl [HtS1]; · iexact HtS1
    isplitr; · iapply (reached_send c 1); iexact HR
    isplitl [HtR1]; · iexact HtR1
    iapply (reached_recv (peer c 2) c); iexact HR
  iintro ⟨HcS1, HO⟩
  iapply (wp_send_a2a m ρ K c _ 0 (dev5_eq c) (sbAfter c (xstg m ρ c) fsb0) fn1
      (tallyAt (recvCell (peer c 3) c) () N) _
      (hland c 0 (xstg m ρ c) fsb0 fn1)) $$ [Hsb0 Hd1 HO HtS0 HtR0]
  · isplitr; · iapply (inv_send m ρ K c 0); iexact HI
    isplitr; · iapply (inv_recv m ρ K (peer c 1) c); iexact HI
    isplitl [Hsb0]; · unfold sbPts; iexact Hsb0
    isplitl [Hd1]; · iexact Hd1
    isplitl [HO]; · iexact HO
    isplitl [HtS0]; · iexact HtS0
    isplitr; · iapply (reached_send c 0); iexact HR
    isplitl [HtR0]; · iexact HtR0
    iapply (reached_recv (peer c 1) c); iexact HR
  iintro ⟨HcS0, HO⟩
  iapply (wp_send_a2a m ρ K c _ 2 (dev6_eq c) (sbAfter c (xstg m ρ c) fsb0) fn3
      0 _
      (hland c 2 (xstg m ρ c) fsb0 fn3)) $$ [Hsb2 Hd3 HO HtS2 HtR2]
  · isplitr; · iapply (inv_send m ρ K c 2); iexact HI
    isplitr; · iapply (inv_recv m ρ K (peer c 3) c); iexact HI
    isplitl [Hsb2]; · unfold sbPts; iexact Hsb2
    isplitl [Hd3]; · iexact Hd3
    isplitl [HO]; · rw [zero_add]; iexact HO
    isplitl [HtS2]; · iexact HtS2
    isplitr; · iapply (reached_send c 2); iexact HR
    isplitl [HtR2]; · iexact HtR2
    iapply (reached_recv (peer c 3) c); iexact HR
  iintro ⟨HcS2, HO⟩
  -- the device's own rows and the matching rows of the weights
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw

  -- the copy from the peer at offset 1 has landed: its slot, holding that peer's rounded rows
  iapply (Rounds.wp_wait_rest_token 𝒱₀ ER (a2a m ρ) (c : Thread nD τ) none (κ := K (c, recvIx (peer c 1)))
      (wpE_waitDma2_eq 𝒱₀ (c : Thread nD τ) none Set.univ) (Set.mem_univ _) () (O := 0) (R := 0) (m := 0) (T := ∅)
      (by rw [Nat.zero_add, expect_recv m ρ c (peer c 1) (peer_ne_self c 0)])) $$ [HcR0 HO HaR1]
  · isplitr; · iapply (inv_recv m ρ K c (peer c 1)); iexact HI
    isplitl [HcR0]; · iexact HcR0
    isplitl [HO]; · iexact HO
    isplitr; · rw [MayWait_zero]; iempintro
    iexact HaR1
  iintro ⟨HO, HaR1, -, Hpay⟩
  ihave Hp := (Entails.of_eq (rest_recv m ρ c (peer c 1) (peer_ne_self c 0))) $$ Hpay
  unfold recvPay xgPts
  icases Hp with ⟨%gx1, %hgx1, Hgx1⟩
  have hv1 := hgot c 0 (xstg m ρ (peer c 1)) gx1 hgx1
  iapply (wp_load 𝒱₀ (c : Thread nD τ) none Set.univ (m := xgM) (S := (xgDst (peer c 1)).view.set) (q := fullShare) (f := gx1) (hload_sub c 0)) $$ Hgx1; iintro Hgx1
  iapply (wp_load 𝒱₀ (c : Thread nD τ) none Set.univ (m := wM) (Finset.subset_univ _)) $$ Hw; iintro Hw

  -- the copy from the peer at offset 3 has landed: its slot, holding that peer's rounded rows
  iapply (Rounds.wp_wait_rest_token 𝒱₀ ER (a2a m ρ) (c : Thread nD τ) none (κ := K (c, recvIx (peer c 3)))
      (wpE_waitDma2_eq 𝒱₀ (c : Thread nD τ) none Set.univ) (Set.mem_univ _) () (O := 0) (R := 0) (m := 0) (T := ∅)
      (by rw [Nat.zero_add, expect_recv m ρ c (peer c 3) (peer_ne_self c 2)])) $$ [HcR2 HO HaR3]
  · isplitr; · iapply (inv_recv m ρ K c (peer c 3)); iexact HI
    isplitl [HcR2]; · iexact HcR2
    isplitl [HO]; · iexact HO
    isplitr; · rw [MayWait_zero]; iempintro
    iexact HaR3
  iintro ⟨HO, HaR3, -, Hpay⟩
  ihave Hp := (Entails.of_eq (rest_recv m ρ c (peer c 3) (peer_ne_self c 2))) $$ Hpay
  unfold recvPay xgPts
  icases Hp with ⟨%gx3, %hgx3, Hgx3⟩
  have hv3 := hgot c 2 (xstg m ρ (peer c 3)) gx3 hgx3
  iapply (wp_load 𝒱₀ (c : Thread nD τ) none Set.univ (m := xgM) (S := (xgDst (peer c 3)).view.set) (q := fullShare) (f := gx3) (hload_sub c 2)) $$ Hgx3; iintro Hgx3
  iapply (wp_load 𝒱₀ (c : Thread nD τ) none Set.univ (m := wM) (Finset.subset_univ _)) $$ Hw; iintro Hw

  -- the copy from the peer at offset 2 has landed: its slot, holding that peer's rounded rows
  iapply (Rounds.wp_wait_rest_token 𝒱₀ ER (a2a m ρ) (c : Thread nD τ) none (κ := K (c, recvIx (peer c 2)))
      (wpE_waitDma2_eq 𝒱₀ (c : Thread nD τ) none Set.univ) (Set.mem_univ _) () (O := 0) (R := 0) (m := 0) (T := ∅)
      (by rw [Nat.zero_add, expect_recv m ρ c (peer c 2) (peer_ne_self c 1)])) $$ [HcR1 HO HaR2]
  · isplitr; · iapply (inv_recv m ρ K c (peer c 2)); iexact HI
    isplitl [HcR1]; · iexact HcR1
    isplitl [HO]; · iexact HO
    isplitr; · rw [MayWait_zero]; iempintro
    iexact HaR2
  iintro ⟨HO, HaR2, -, Hpay⟩
  ihave Hp := (Entails.of_eq (rest_recv m ρ c (peer c 2) (peer_ne_self c 1))) $$ Hpay
  unfold recvPay xgPts
  icases Hp with ⟨%gx2, %hgx2, Hgx2⟩
  have hv2 := hgot c 1 (xstg m ρ (peer c 2)) gx2 hgx2
  iapply (wp_load 𝒱₀ (c : Thread nD τ) none Set.univ (m := xgM) (S := (xgDst (peer c 2)).view.set) (q := fullShare) (f := gx2) (hload_sub c 1)) $$ Hgx2; iintro Hgx2
  iapply (wp_load 𝒱₀ (c : Thread nD τ) none Set.univ (m := wM) (Finset.subset_univ _)) $$ Hw; iintro Hw

  -- the gelu of the two halves into the result block
  iapply (wp_load 𝒱₀ (c : Thread nD τ) none Set.univ (m := oM) (Finset.subset_univ _)) $$ Hout; iintro Hout
  iapply (wp_store 𝒱₀ (c : Thread nD τ) none Set.univ (m := oM) (r := rOutL) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rOutR) (Mk := Finset.univ) (Finset.subset_univ _)) $$ Hout; iintro Hout
  -- the three copies have left their source slots

  iapply (Rounds.wp_wait_rest_token 𝒱₀ ER (a2a m ρ) (c : Thread nD τ) none (κ := K (c, sendIx 1))
      (wpE_waitDma2_eq 𝒱₀ (c : Thread nD τ) none Set.univ) (Set.mem_univ _) () (O := 0) (R := 0) (m := 0) (T := ∅)
      (by show 0 + _ = (a2a m ρ).expect (sendCell c 1) 0; rw [Nat.zero_add, expect_send])) $$ [HcS1 HO HaS1]
  · isplitr; · iapply (inv_send m ρ K c 1); iexact HI
    isplitl [HcS1]; · iexact HcS1
    isplitl [HO]; · iexact HO
    isplitr; · rw [MayWait_zero]; iempintro
    iexact HaS1
  iintro ⟨HO, HaS1, -, Hpay⟩
  ihave Hp := (Entails.of_eq (rest_send' m ρ c 1 _ send_sem_eq1)) $$ Hpay
  unfold sendPay sbPts
  icases Hp with ⟨%fs1, Hs1⟩

  iapply (Rounds.wp_wait_rest_token 𝒱₀ ER (a2a m ρ) (c : Thread nD τ) none (κ := K (c, sendIx 0))
      (wpE_waitDma2_eq 𝒱₀ (c : Thread nD τ) none Set.univ) (Set.mem_univ _) () (O := 0) (R := 0) (m := 0) (T := ∅)
      (by show 0 + _ = (a2a m ρ).expect (sendCell c 0) 0; rw [Nat.zero_add, expect_send])) $$ [HcS0 HO HaS0]
  · isplitr; · iapply (inv_send m ρ K c 0); iexact HI
    isplitl [HcS0]; · iexact HcS0
    isplitl [HO]; · iexact HO
    isplitr; · rw [MayWait_zero]; iempintro
    iexact HaS0
  iintro ⟨HO, HaS0, -, Hpay⟩
  ihave Hp := (Entails.of_eq (rest_send' m ρ c 0 _ send_sem_eq0)) $$ Hpay
  unfold sendPay sbPts
  icases Hp with ⟨%fs0, Hs0⟩

  iapply (Rounds.wp_wait_rest_token 𝒱₀ ER (a2a m ρ) (c : Thread nD τ) none (κ := K (c, sendIx 2))
      (wpE_waitDma2_eq 𝒱₀ (c : Thread nD τ) none Set.univ) (Set.mem_univ _) () (O := 0) (R := 0) (m := 0) (T := ∅)
      (by show 0 + _ = (a2a m ρ).expect (sendCell c 2) 0; rw [Nat.zero_add, expect_send])) $$ [HcS2 HO HaS2]
  · isplitr; · iapply (inv_send m ρ K c 2); iexact HI
    isplitl [HcS2]; · iexact HcS2
    isplitl [HO]; · iexact HO
    isplitr; · rw [MayWait_zero]; iempintro
    iexact HaS2
  iintro ⟨HO, HaS2, -, Hpay⟩
  ihave Hp := (Entails.of_eq (rest_send' m ρ c 2 _ send_sem_eq2)) $$ Hpay
  unfold sendPay sbPts
  icases Hp with ⟨%fs2, Hs2⟩

  -- the seven own cells close: their counters at zero are the device's again

  imod (Rounds.cell_close ER (a2a m ρ) (Set.mem_univ (K (c, sendIx 0))) (fun h => h) (R := 0 + 1) (duties_later m ρ (sendCell c 0))) $$ [HaS0] with HzS0
  · isplitr; · iapply (inv_send m ρ K c 0); iexact HI
    iexact HaS0
  imod (Rounds.cell_close ER (a2a m ρ) (Set.mem_univ (K (c, sendIx 1))) (fun h => h) (R := 0 + 1) (duties_later m ρ (sendCell c 1))) $$ [HaS1] with HzS1
  · isplitr; · iapply (inv_send m ρ K c 1); iexact HI
    iexact HaS1
  imod (Rounds.cell_close ER (a2a m ρ) (Set.mem_univ (K (c, sendIx 2))) (fun h => h) (R := 0 + 1) (duties_later m ρ (sendCell c 2))) $$ [HaS2] with HzS2
  · isplitr; · iapply (inv_send m ρ K c 2); iexact HI
    iexact HaS2
  imod (Rounds.cell_close ER (a2a m ρ) (Set.mem_univ (K (c, recvIx c))) (fun h => h) (R := 0) (fun r _ => duties_recv_own m ρ c r)) $$ [HaRc] with HzRc
  · isplitr; · iapply (inv_recv m ρ K c c); iexact HI
    iexact HaRc
  imod (Rounds.cell_close ER (a2a m ρ) (Set.mem_univ (K (c, recvIx (peer c 1)))) (fun h => h) (R := 0 + 1) (duties_later m ρ (recvCell c (peer c 1)))) $$ [HaR1] with HzR1
  · isplitr; · iapply (inv_recv m ρ K c (peer c 1)); iexact HI
    iexact HaR1
  imod (Rounds.cell_close ER (a2a m ρ) (Set.mem_univ (K (c, recvIx (peer c 2)))) (fun h => h) (R := 0 + 1) (duties_later m ρ (recvCell c (peer c 2)))) $$ [HaR2] with HzR2
  · isplitr; · iapply (inv_recv m ρ K c (peer c 2)); iexact HI
    iexact HaR2
  imod (Rounds.cell_close ER (a2a m ρ) (Set.mem_univ (K (c, recvIx (peer c 3)))) (fun h => h) (R := 0 + 1) (duties_later m ρ (recvCell c (peer c 3)))) $$ [HaR3] with HzR3
  · isplitr; · iapply (inv_recv m ρ K c (peer c 3)); iexact HI
    iexact HaR3
  -- the two scratch buffers whole again
  ihave Hsb := (pointsTo_join (Finset.sdiff_disjoint)) $$ [Hsb Hs2]
  · isplitl [Hsb]; · iexact Hsb
    iexact Hs2
  rw [Finset.sdiff_union_of_subset hI2]
  ihave Hsb := (pointsTo_join (Finset.sdiff_disjoint)) $$ [Hsb Hs0]
  · isplitl [Hsb]; · iexact Hsb
    iexact Hs0
  rw [Finset.sdiff_union_of_subset hI0]
  ihave Hsb := (pointsTo_join (Finset.sdiff_disjoint)) $$ [Hsb Hs1]
  · isplitl [Hsb]; · iexact Hsb
    iexact Hs1
  rw [Finset.sdiff_union_of_subset (Finset.subset_univ (sbSrc c 1).view.set)]
  ihave Hxg := (pointsTo_join (Finset.sdiff_disjoint)) $$ [Hxg Hgx3]
  · isplitl [Hxg]; · iexact Hxg
    iexact Hgx3
  rw [Finset.sdiff_union_of_subset hJ3]
  ihave Hxg := (pointsTo_join (Finset.sdiff_disjoint)) $$ [Hxg Hgx2]
  · isplitl [Hxg]; · iexact Hxg
    iexact Hgx2
  rw [Finset.sdiff_union_of_subset hJ2]
  ihave Hxg := (pointsTo_join (Finset.sdiff_disjoint)) $$ [Hxg Hgx1]
  · isplitl [Hxg]; · iexact Hxg
    iexact Hgx1
  rw [Finset.sdiff_union_of_subset (Finset.subset_univ (xgDst (peer c 1)).view.set)]
  -- the post
  rw [wp_ret]; imodintro
  iapply Hk
  unfold bodyPost Φ₁ Dat.owesAt Pipeline.owesWithin
  rw [show (dats m ρ 0 c).owed t₀.succ = 0 from rfl, ownSems_eq, Gen.scopedRest0_eq]
  isplitl [HzS0 HzS1 HzS2 HzRc HzR1 HzR2 HzR3 Hsb Hxg]
  · isplitl [HzS0 HzS1 HzS2 HzRc HzR1 HzR2 HzR3]
    · isplitl [HzS0]; · iexact HzS0
      isplitl [HzS1]; · iexact HzS1
      isplitl [HzS2]; · iexact HzS2
      isplitl [HzRc]; · iexact HzRc
      isplitl [HzR1]; · iexact HzR1
      isplitl [HzR2]; · iexact HzR2
      iexact HzR3
    · isplitl [Hsb]; · iexists _; iexact Hsb
      iexists _; iexact Hxg
  isplitl [HO]
  · iexists _
    isplitr [HO]
    swap
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _
  isplitr [Hout]
  swap
  · iexact Hout
  · ipureintro
    rw [hv1, hv3, hv2]
    unfold outAt
    rw [hout c _ _ _ g2]
    rfl

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

end Body

set_option maxRecDepth 4000 in
/-- The pipeline's body obligation on device `c`: the body lemma at the names the launch allocated, with the slot facts
    of the two scratch buffers and the cover of the result block by its two stores. -/
theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq']
  show bodyPre' m ρ c ⊢ wp frame (wpE (defs₀ (F := F)) 𝒱₀ c none) Set.univ
    (cc0_body xM (Memref.isWhole_whole _) wM (Memref.isWhole_whole _) oM (Memref.isWhole_whole _) sbM (Memref.isWhole_whole _) xgM (Memref.isWhole_whole _) cc0_scratch2 cc0_scratch3)
    (fun _ => bodyPost m ρ c)
  unfold bodyPre' Φ₀ start
  iintro ⟨⟨⟨⟨%K, Hg⟩, Hrest⟩, Hscr⟩, Ho, Hx, Hw, Hout⟩
  iapply (sound_body m ρ K xg_disj sb_disj load_sub (fun c r fx f0 fn => landed c r fx f0 fn) (fun c r fx f h => got_of_landed c r fx f h)
    (fun c fxs fw f0 f0' => outFinal_indep c fxs fw f0 f0') c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hw]; · iexact Hw
    iexact Hout
  · iintro H; iexact H

/-- info: 'Cert.Kernel.A2A.body_obligation' depends on axioms: [propext, Classical.choice, Quot.sound] -/
#guard_msgs in #print axioms body_obligation

end Cert.Kernel.A2A

end
-- ==== Proof.KLaunch.lean ====
/-
  The launch of the four-device all-to-all.

  The launch element funds the rounds of every device's eight cells and mints each device the duty tokens of its OWN
  cells: the three barrier duties, the three departures, the three arrivals. Each device then allocates the invariants of
  its eight cells from its seven own semaphores and the barrier semaphore at zero, and the tokens are dealt around the
  mesh to the devices that PAY the duties: the barrier token of device `c`'s duty `r` goes to the peer of `c` at offset
  `1 + r`, for which `c` is the peer at offset `3 - r`, that is `1 + (2 - r)`; the arrival token of the cell that device
  `c` keeps for that peer goes to that peer; the departure tokens stay. The launch credit of a device is what the other
  three owe it: three barrier units, one from each, and one copy's credit on each of its three receive cells. With the
  body of one device proved, the run of @main on the mesh follows, and the three windows' arrays end as the proof data
  says: the two inputs unchanged, the result array holding the result staging buffer's final contents.
-/
import proofs.«900402_g7700000000000403_dist_a2a_gemm_m1024_k1024_n1024_f32_gelu_v7x_i4_1_alg».proof.Proof.KProtocol
import proofs.«900402_g7700000000000403_dist_a2a_gemm_m1024_k1024_n1024_f32_gelu_v7x_i4_1_alg».proof.Proof.Gen.Kernel.Launch
import proofs.«900402_g7700000000000403_dist_a2a_gemm_m1024_k1024_n1024_f32_gelu_v7x_i4_1_alg».proof.Proof.Gen.Kernel.Points
import Idealize.ShloMosaic.Lib.Pipeline.Launch
import Idealize.ShloMosaic.Lib.Pipeline.Kit
import Idealize.ShloMosaic.Lib.Tactic

set_option maxRecDepth 16384

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The mesh facts the dealing needs -/

/-- Device `c` is, for its peer at offset `1 + r`, the peer at offset `1 + (2 - r)`. -/
theorem peer_peer_off (c : Dev nD) (r : Fin 3) : peer (peer c (offOf r)) (offOf (2 - r)) = c := by revert c r; decide
theorem two_sub_two_sub (r : Fin 3) : 2 - (2 - r) = r := by revert r; decide

/-- A duty of a device's barrier cell, sent to the device that pays it and named as that device names it: an involution. -/
def around : Dev nD × Fin 3 ≃ Dev nD × Fin 3 where
  toFun cr := (peer cr.1 (offOf cr.2), 2 - cr.2)
  invFun cr := (peer cr.1 (offOf cr.2), 2 - cr.2)
  left_inv := fun ⟨c, r⟩ => by revert c r; decide
  right_inv := fun ⟨c, r⟩ => by revert c r; decide

/-! ## The cells and the tokens minted -/

theorem csem_injective : ∀ k k' : Fin 8, csem k = csem k' → k = k' := by decide

theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : csem k = csem k' := congrArg Prod.snd h
  rw [csem_injective k k' h2]

/-- The thirty-two cells of the protocol. -/
def a2aCells : Finset (GSem nD τ sig) := Finset.univ.map ⟨kcell, kcell_injective⟩

/-- A device's own cells' duty tokens as minted: (device, which kind of cell, which of its three) — its barrier's three
    duties, the one duty of each send cell, the one duty of each of the three receive cells it keeps for its peers. -/
abbrev tokOf (x : Dev nD × Fin 3 × Fin 3) : GSem nD τ sig × ℕ × Fin 3 := match x.2.1 with
  | 0 => (barCell x.1, 0, x.2.2)
  | 1 => (sendCell x.1 x.2.2, 0, 0)
  | 2 => (recvCell x.1 (peer x.1 (offOf x.2.2)), 0, 0)

theorem tokOf_injective : Function.Injective (tokOf : Dev nD × Fin 3 × Fin 3 → GSem nD τ sig × ℕ × Fin 3) := by decide

def a2aToks : Finset (GSem nD τ sig × ℕ × Fin 3) := Finset.univ.map ⟨tokOf, tokOf_injective⟩

/-- The launch element: the pipeline's staging cells, and the protocol's cells with the tokens above. -/
def u₀ : UU :=
  (initOf (Pipeline.cells cfgs cellOf_inj) (Pipeline.launchToks cfgs cellOf_inj), initOf a2aCells a2aToks)

/-- The duty tokens of device `c`'s own cells. -/
def toks (c : Dev nD) : sProp 𝕄 :=
  iprop((bigSep Finset.univ fun d : Fin 3 => dutyTok ER (barCell c) 0 d)
    ∗ (bigSep Finset.univ fun j : Fin 3 => dutyTok ER (sendCell c j) 0 0)
    ∗ (bigSep Finset.univ fun r : Fin 3 => dutyTok ER (recvCell c (peer c (offOf r))) 0 0))

/-- What the launch element deals device `c`. -/
def G (c : Dev nD) : sProp 𝕄 :=
  iprop((bigSep Finset.univ fun k : Fin 8 => roundState ER (a2a m ρ) (kcell (c, k)) 0)
    ∗ (bigSep Finset.univ fun k : Fin 8 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_a2a : BI.own (ER (initOf a2aCells a2aToks)) ⊢ (|==> bigSep Finset.univ (G m ρ) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by unfold toks; rw [bigSep_univ_prod, bigSep_fin3]; rfl
  iintro HX
  imod (Rounds.fund ER (a2a m ρ) a2aCells a2aToks) $$ HX with ⟨Hst, Hr, Hat, Htok⟩
  imodintro
  ihave Hst' := (Entails.of_eq (hX fun g => roundState ER (a2a m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Each device allocates its eight cells' invariants -/

omit [FloatOps F] in
/-- The three send and four receive semaphores are the kernel's own seven; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
omit [FloatOps F] in
/-- the barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (a2a m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2a m ρ) (kcell (c, k)) 0)
      ⊢ (|={Set.univ}=> bigSep Finset.univ fun k => iprop(∃ κ : ℕ, cellInv ER (a2a m ρ) κ (kcell (c, k))) : sProp 𝕄) from by
        rw [← bigSep_sep']
        exact (bigSep_mono fun k _ => (Rounds.body_intro ER (a2a m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh; the devices' ghost state -/

omit [FloatOps F] in
/-- A barrier's token for duty `r` goes to the peer at offset `1 + r`, which pays it as ITS duty `2 - r`; the arrival token
    of the receive cell kept for that peer goes to that peer; the departure tokens stay. -/
theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (barCell c) 0 d : sProp 𝕄))
      = bigSep Finset.univ fun c : Dev nD => bigSep Finset.univ fun r : Fin 3 => dutyTok ER (barCell (peer c (offOf r))) 0 (2 - r) :=
    (bigSep_univ_prod (fun cr : Dev nD × Fin 3 => (dutyTok ER (barCell cr.1) 0 cr.2 : sProp 𝕄))).symm.trans
      ((bigSep_univ_equiv around _).trans (bigSep_univ_prod _))
  have hR : (bigSep Finset.univ fun c : Dev nD => bigSep Finset.univ fun r : Fin 3 => (dutyTok ER (recvCell c (peer c (offOf r))) 0 0 : sProp 𝕄))
      = bigSep Finset.univ fun c : Dev nD => bigSep Finset.univ fun r : Fin 3 => dutyTok ER (recvCell (peer c (offOf r)) c) 0 0 :=
    (bigSep_univ_prod (fun cr : Dev nD × Fin 3 => (dutyTok ER (recvCell cr.1 (peer cr.1 (offOf cr.2))) 0 0 : sProp 𝕄))).symm.trans
      ((bigSep_univ_equiv around _).trans ((bigSep_univ_prod _).trans (bigSep_congr fun c _ => bigSep_congr fun r _ => by
        show (dutyTok ER (recvCell (peer c (offOf r)) (peer (peer c (offOf r)) (offOf (2 - r)))) 0 0 : sProp 𝕄) = _
        rw [peer_peer_off])))
  unfold toks payToks
  rw [bigSep_sep', bigSep_sep', bigSep_sep', bigSep_sep', hB, hR]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 8 → ℕ) (c : Dev nD) : iprop(records m ρ K ∗ positions c ∗ payToks c) ⊢ G' m ρ c := by
  unfold G' ghost
  iintro H
  iexists K
  iexact H

theorem regroup :
    (bigSep Finset.univ fun c : Dev nD => iprop((bigSep Finset.univ fun k => iprop(∃ κ : ℕ, cellInv ER (a2a m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (a2a m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2a m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device `d` owing `n` units on one cell `cell d`, exactly one of those cells being semaphore `sm` of device `c`:
    the launch deals `c` the credit of that one due. -/
theorem launchCred_cell (cell : Dev nD → GSem nD τ sig) (n : ℕ) (c : Dev nD) (sm : SemLoc sig) (d₀ : Dev nD)
    (h₀ : cell d₀ = ((c : Thread nD τ), sm)) (huniq : ∀ d, cell d = ((c : Thread nD τ), sm) → d = d₀) :
    (Pipeline.launchCred (fun d => tallyAt (cell d) () n) c : sProp 𝕄) ⊢ cred (tallyAt ((c : Thread nD τ), sm) () n) := by
  refine (Pipeline.launchCred_elim _ c sm).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ d₀ →
      tallyOn (nD := nD) (sig := sig) (cell d) (Finsupp.single () n) ((c : Thread nD τ), sm) = 0 := fun d _ hd => by
    unfold tallyOn
    exact Pi.single_eq_of_ne (fun h => hd (huniq d h.symm)) _
  rw [Finset.sum_eq_single d₀ h0 (fun h => absurd (Finset.mem_univ _) h)]
  unfold tallyOn
  rw [h₀, Pi.single_eq_same]

omit [FloatOps F] in
/-- The barrier unit every device owes its peer at offset `o`: device `c` is that peer for exactly one device. -/
theorem launch_bar (c : Dev nD) (o : Fin 4) :
    (Pipeline.launchCred (fun d => tallyAt (barCell (peer d o)) () 1) c : sProp 𝕄) ⊢ cred (tallyAt (barCell c) () 1) :=
  launchCred_cell (fun d => barCell (peer d o)) 1 c (.reg barS) (peer c (back o)) (by rw [peer_back']) fun d h => by
    have h1 : peer d o = c := congrArg (fun g : GSem nD τ sig => g.1.1) h
    rw [← h1, peer_back]

omit [FloatOps F] in
/-- The copy every device owes its peer at offset `o`, on the receive cell that peer keeps for it. -/
theorem launch_recv (c : Dev nD) (o : Fin 4) :
    (Pipeline.launchCred (fun d => tallyAt (recvCell (peer d o) d) () N) c : sProp 𝕄) ⊢ cred (tallyAt (recvCell c (peer c (back o))) () N) :=
  launchCred_cell (fun d => recvCell (peer d o) d) N c (.dma (recvSem (peer c (back o)))) (peer c (back o)) (by rw [peer_back']) fun d h => by
    have h1 : peer d o = c := congrArg (fun g : GSem nD τ sig => g.1.1) h
    rw [← h1, peer_back]

omit [FloatOps F] in
/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

/-- What the launch deals device `c`: the three units of its barrier, one from each peer, and one copy's credit on each of
    the three receive cells it keeps for its peers. -/
theorem creds (c : Dev nD) :
    (Pipeline.launchCred O₀ c : sProp 𝕄) ⊢ iprop(cred (tallyAt (barCell c) () 3)
      ∗ bigSep Finset.univ fun r : Fin 3 => cred (tallyAt (recvCell c (peer c (offOf r))) () N)) := by
  have e0 : (Pipeline.launchCred O₀ c : sProp 𝕄)
      = iprop(Pipeline.launchCred O₁ c ∗ Pipeline.launchCred (fun d => tallyAt (barCell (peer d 1)) () 1) c) :=
    Pipeline.launchCred_add O₁ (fun d => tallyAt (barCell (peer d 1)) () 1) c
  have e1 : (Pipeline.launchCred O₁ c : sProp 𝕄)
      = iprop(Pipeline.launchCred O₂ c ∗ Pipeline.launchCred (fun d => tallyAt (barCell (peer d 2)) () 1) c) :=
    Pipeline.launchCred_add O₂ (fun d => tallyAt (barCell (peer d 2)) () 1) c
  have e2 : (Pipeline.launchCred O₂ c : sProp 𝕄)
      = iprop(Pipeline.launchCred owedCopies c ∗ Pipeline.launchCred (fun d => tallyAt (barCell (peer d 3)) () 1) c) :=
    Pipeline.launchCred_add owedCopies (fun d => tallyAt (barCell (peer d 3)) () 1) c
  have e3 : (Pipeline.launchCred owedCopies c : sProp 𝕄)
      = iprop(Pipeline.launchCred (fun d => tallyAt (recvCell (peer d 3) d) () N + tallyAt (recvCell (peer d 1) d) () N) c
          ∗ Pipeline.launchCred (fun d => tallyAt (recvCell (peer d 2) d) () N) c) :=
    Pipeline.launchCred_add (fun d => tallyAt (recvCell (peer d 3) d) () N + tallyAt (recvCell (peer d 1) d) () N)
      (fun d => tallyAt (recvCell (peer d 2) d) () N) c
  have e4 : (Pipeline.launchCred (fun d => tallyAt (recvCell (peer d 3) d) () N + tallyAt (recvCell (peer d 1) d) () N) c : sProp 𝕄)
      = iprop(Pipeline.launchCred (fun d => tallyAt (recvCell (peer d 3) d) () N) c
          ∗ Pipeline.launchCred (fun d => tallyAt (recvCell (peer d 1) d) () N) c) :=
    Pipeline.launchCred_add (fun d => tallyAt (recvCell (peer d 3) d) () N) (fun d => tallyAt (recvCell (peer d 1) d) () N) c
  rw [e0, e1, e2, e3, e4, bigSep_fin3]
  iintro ⟨⟨⟨⟨⟨R3, R1⟩, R2⟩, B3⟩, B2⟩, B1⟩
  isplitl [B1 B2 B3]
  · iapply (cred_three (F := F) (barCell c))
    isplitl [B1]; · iapply (launch_bar (F := F) c 1); iexact B1
    isplitl [B2]; · iapply (launch_bar (F := F) c 2); iexact B2
    iapply (launch_bar (F := F) c 3); iexact B3
  isplitl [R3]; · iapply (launch_recv (F := F) c 3); iexact R3
  isplitl [R2]; · iapply (launch_recv (F := F) c 2); iexact R2
  iapply (launch_recv (F := F) c 1); iexact R1

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl]
  unfold Φ₁
  iintro H
  isplitr; · iempintro
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- At the compiled mesh of four devices, for any float values, from any memory with zero counters, given the body of one
    device: every weakly fair execution of @main — the four kernels meeting on the barrier semaphore, then each shipping a
    slot to each of the others — terminates, and every final state has each window's array of each device at the contents
    the proof data computes. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_a2a m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays after the run -/

/-- The two input arrays end holding what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

/-- The result array ends holding the result staging buffer's final contents: the one point writes the whole block back,
    and the block is the whole array. -/
theorem finalA_out (c : Dev nD) : finalA m ρ c (2 : Fin 3) = outAt m ρ c := by
  have h := (dats (F := F) m ρ 0 c).arrAt_succ (2 : Fin 3) t0_0
  rw [flush0_2 t0_0, if_pos rfl] at h
  exact h.trans (Memref.write_access_unit_zero_univ (Elt F) main_v1 (funext fun a => Nat.zero_mul _) _ _ _)

/-- info: 'Cert.Kernel.A2A.run_main' depends on axioms: [propext, Classical.choice, Quot.sound] -/
#guard_msgs in #print axioms run_main

end Cert.Kernel.A2A

end
-- ==== Proof.ValueReads.lean ====
/-
  The kernel's building blocks read at an index, at the ideal instance.

  A row block read from the staged `x` block or from `w` is the staged array at the block's first row plus the
  row inside the block. Shipping a 256 × 256 piece rounds it to bf16 and widens it back on arrival: at the ideal
  instance both are the identity, and the unit leading axis added for the slot and dropped again changes no entry.
  A column half of a row block of `w` is the block at the half's first column plus the column inside the half.
  A 256 × 256 by 256 × 512 product into a zero accumulator is, entry by entry, the sum over the 256 contraction
  indices of the products of the entries.
-/
import proofs.«900402_g7700000000000403_dist_a2a_gemm_m1024_k1024_n1024_f32_gelu_v7x_i4_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.A2A

open Cert.KernelIdeal Cert.KernelIdeal.Gen
open Idealize.ShloMosaic Idealize.ShloMosaic.ValueIdx Idealize.SL.Sem

/-! ## Row blocks of the staged arrays -/

/-- Row `i` of a block of 256 rows starting at row `256 p` is a row of the 1024. -/
theorem row_lt (p : Fin 4) (i : Fin 256) : 256 * p.val + i.val < 1024 := by omega

/-- The device's own rows of its `x` block: rows `256 c …`. -/
theorem xOwn_apply (c : Dev nD) (fx : XC Ideal) (i k : Fin 256) :
    xOwn (F := Ideal) c fx (ix2 i k) = fx (ix2 ⟨256 * c.val + i.val, row_lt c i⟩ k) := by
  show fx ((rXown c).toLoadRect.idx (ix2 i k)) = _
  refine congrArg fx (funext fun a => Fin.ext ?_)
  rw [LoadRect.idx_apply]
  show k0_off6 c a + 1 * ((ix2 i k) a).val = _
  rw [k0_off6_eq]
  match a with
  | ⟨0, _⟩ => show 256 * c.val + 1 * i.val = 256 * c.val + i.val; omega
  | ⟨1, _⟩ => show 0 + 1 * k.val = k.val; omega

/-- The rows of its `x` block it ships to the peer at offset `1 + r`: rows `256 p …`, `p` that peer. -/
theorem xRows_apply (c : Dev nD) (r : Fin 3) (fx : XC Ideal) (i k : Fin 256) :
    xRows (F := Ideal) c r fx (ix2 i k) = fx (ix2 ⟨256 * (peer c (offOf r)).val + i.val, row_lt (peer c (offOf r)) i⟩ k) := by
  show fx ((rX c r).toLoadRect.idx (ix2 i k)) = _
  refine congrArg fx (funext fun a => Fin.ext ?_)
  rw [LoadRect.idx_apply]
  show k0_off1 c (BitVec.ofNat 32 (1 + r.val)) a + 1 * ((ix2 i k) a).val = _
  rw [off1_eq]
  match a with
  | ⟨0, _⟩ => show 256 * (peer c (offOf r)).val + 1 * i.val = 256 * (peer c (offOf r)).val + i.val; omega
  | ⟨1, _⟩ => show 0 + 1 * k.val = k.val; omega

/-- The row block of `w` that meets the device's own rows of `x`: rows `256 c …`. -/
theorem wOwn_apply (c : Dev nD) (fw : WC Ideal) (k : Fin 256) (j : Fin 1024) :
    wOwn (F := Ideal) c fw (ix2 k j) = fw (ix2 ⟨256 * c.val + k.val, row_lt c k⟩ j) := by
  show fw ((rWown c).toLoadRect.idx (ix2 k j)) = _
  refine congrArg fw (funext fun a => Fin.ext ?_)
  rw [LoadRect.idx_apply]
  show k0_off7 c a + 1 * ((ix2 k j) a).val = _
  rw [k0_off7_eq]
  match a with
  | ⟨0, _⟩ => show 256 * c.val + 1 * k.val = 256 * c.val + k.val; omega
  | ⟨1, _⟩ => show 0 + 1 * j.val = j.val; omega

/-- The row block of `w` that meets the piece received from the peer at offset `1 + r`: rows `256 p …`. -/
theorem wRows_apply (c : Dev nD) (r : Fin 3) (fw : WC Ideal) (k : Fin 256) (j : Fin 1024) :
    wRows (F := Ideal) c r fw (ix2 k j) = fw (ix2 ⟨256 * (peer c (offOf r)).val + k.val, row_lt (peer c (offOf r)) k⟩ j) := by
  show fw ((rW c r).toLoadRect.idx (ix2 k j)) = _
  refine congrArg fw (funext fun a => Fin.ext ?_)
  rw [LoadRect.idx_apply]
  show k0_off9 c (BitVec.ofNat 32 (1 + r.val)) a + 1 * ((ix2 k j) a).val = _
  rw [off9_eq]
  match a with
  | ⟨0, _⟩ => show 256 * (peer c (offOf r)).val + 1 * k.val = 256 * (peer c (offOf r)).val + k.val; omega
  | ⟨1, _⟩ => show 0 + 1 * j.val = j.val; omega

/-! ## A piece shipped to a peer and received -/

/-- Rounded to bf16, given a unit leading axis for the slot, and on arrival cast back and widened: at the ideal instance
    every step is the identity on the entries. -/
theorem ship_apply (v : Vec Ideal S256x256 .f32) (h1 : S256x256.ShapeCasts S256x256) (h2 : S256x256.ShapeCasts S1x256x256)
    (h3 : S1x256x256.ShapeCasts S256x256) (hb : FTy.bits .bf16 < FTy.bits .f32) (i k : Fin 256) :
    extf (F := Ideal) .f32 (shapeCast S256x256 (shapeCast S1x256x256 (truncf (F := Ideal) .bf16 (shapeCast S256x256 v h1) hb) h2) h3) hb
      (ix2 i k) = v (ix2 i k) := by
  show shapeCast S256x256 (shapeCast S1x256x256 (truncf (F := Ideal) .bf16 (shapeCast S256x256 v h1) hb) h2) h3 (ix2 i k) = _
  refine (shapeCast_1ab_ab_apply _ h3 i k).trans ?_
  refine (shapeCast_ab_1ab_apply _ h2 (0 : Fin 1) i k).trans ?_
  show shapeCast S256x256 v h1 (ix2 i k) = _
  exact congrFun (shapeCast_self v h1) _

theorem recv7_apply (v : Vec Ideal S256x256 .f32) (i k : Fin 256) :
    k0_pay7 (F := Ideal) (k0_pay1 (F := Ideal) v) (ix2 i k) = v (ix2 i k) :=
  ship_apply v _ _ _ _ i k
theorem recv11_apply (v : Vec Ideal S256x256 .f32) (i k : Fin 256) :
    k0_pay11 (F := Ideal) (k0_pay1 (F := Ideal) v) (ix2 i k) = v (ix2 i k) :=
  ship_apply v _ _ _ _ i k
theorem recv15_apply (v : Vec Ideal S256x256 .f32) (i k : Fin 256) :
    k0_pay15 (F := Ideal) (k0_pay1 (F := Ideal) v) (ix2 i k) = v (ix2 i k) :=
  ship_apply v _ _ _ _ i k

/-- The device's own rows pass through a cast to their own shape. -/
theorem own4_apply (v : Vec Ideal S256x256 .f32) (i k : Fin 256) : k0_pay4 (F := Ideal) v (ix2 i k) = v (ix2 i k) :=
  congrFun (shapeCast_self v _) _

/-! ## The two column halves of a row block of `w` -/

theorem colL_lt (j : Fin 512) : j.val < 1024 := by omega
theorem colR_lt (j : Fin 512) : 512 + j.val < 1024 := by omega

/-- Column `j` of the left half is column `j`. -/
theorem halfL_apply (v : Vec Ideal S256x1024 .f32) (h : S256x1024.ShapeCasts S256x1024) (hs : S256x1024.Slices ![0, 0] S256x512)
    (k : Fin 256) (j : Fin 512) :
    extractStridedSlice S256x512 ![0, 0] (shapeCast S256x1024 v h) hs (ix2 k j) = v (ix2 k ⟨j.val, colL_lt j⟩) := by
  rw [shapeCast_self]
  exact slice2_axis1_apply 0 v hs k j ⟨j.val, colL_lt j⟩ (Nat.zero_add _).symm

/-- Column `j` of the right half is column `512 + j`. -/
theorem halfR_apply (v : Vec Ideal S256x1024 .f32) (h : S256x1024.ShapeCasts S256x1024) (hs : S256x1024.Slices ![0, 512] S256x512)
    (k : Fin 256) (j : Fin 512) :
    extractStridedSlice S256x512 ![0, 512] (shapeCast S256x1024 v h) hs (ix2 k j) = v (ix2 k ⟨512 + j.val, colR_lt j⟩) := by
  rw [shapeCast_self]
  exact slice2_axis1_apply 512 v hs k j ⟨512 + j.val, colR_lt j⟩ rfl

/-! ## The block product at an entry -/

/-- The dimension numbers of the kernel's products: rows by the contraction, the contraction by columns. -/
abbrev DD : DotDims S256x256 S256x512 S256x512 := dot_S256x256_S256x512_S256x512_1_0_0_1_n_n

theorem DD_lhs0 (y : S256x512.Idx) (q : DD.contr.Idx) : (DD.lhsIdx y q 0).val = (y 0).val := by
  unfold DotDims.lhsIdx
  rw [dif_neg (show ¬(0 : Fin S256x256.rank) ∈ DD.lhsBatch by decide), dif_pos (show (0 : Fin S256x256.rank) ∈ DD.lhsNonContracting by decide)]
  rfl
theorem DD_lhs1 (y : S256x512.Idx) (q : DD.contr.Idx) : (DD.lhsIdx y q 1).val = (q ⟨0, by decide⟩).val :=
  DD.lhsIdx_val_of_single rfl y q
theorem DD_rhs0 (y : S256x512.Idx) (q : DD.contr.Idx) : (DD.rhsIdx y q 0).val = (q ⟨0, by decide⟩).val :=
  DD.rhsIdx_val_of_single rfl y q
theorem DD_rhs1 (y : S256x512.Idx) (q : DD.contr.Idx) : (DD.rhsIdx y q 1).val = (y 1).val := by
  unfold DotDims.rhsIdx
  rw [dif_neg (show ¬(1 : Fin S256x512.rank) ∈ DD.rhsBatch by decide), dif_pos (show (1 : Fin S256x512.rank) ∈ DD.rhsNonContracting by decide)]
  rfl

/-- A 256 × 256 by 256 × 512 product into a zero accumulator: entry `(i, j)` is `∑ₖ A[i, k] · B[k, j]`. -/
theorem mm_apply (A : FVec Ideal S256x256 .f32) (B : FVec Ideal S256x512 .f32) (i : Fin 256) (j : Fin 512) :
    matmul (F := Ideal) DD none A B (constant (F := Ideal) S256x512 .f32 0x00000000#32) (ix2 i j)
      = ∑ k : Fin 256, A (ix2 i k) * B (ix2 k j) := by
  refine (Ideal.matmul_constant_zero_apply DD none A B (ix2 i j)).trans ?_
  rw [← Equiv.sum_comp (contrEquiv1 DD 256 rfl rfl).symm]
  refine Finset.sum_congr rfl fun k _ => ?_
  have hk := contrEquiv1_symm_val DD 256 rfl rfl k
  have el : DD.lhsIdx (ix2 i j) ((contrEquiv1 DD 256 rfl rfl).symm k) = ix2 i k := funext fun a => Fin.ext (by
    match a with
    | ⟨0, _⟩ => exact DD_lhs0 _ _
    | ⟨1, _⟩ => exact (DD_lhs1 _ _).trans hk)
  have er : DD.rhsIdx (ix2 i j) ((contrEquiv1 DD 256 rfl rfl).symm k) = ix2 k j := funext fun a => Fin.ext (by
    match a with
    | ⟨0, _⟩ => exact (DD_rhs0 _ _).trans hk
    | ⟨1, _⟩ => exact DD_rhs1 _ _)
  rw [el, er]

end Cert.KernelIdeal.A2A

/-- info: 'Cert.KernelIdeal.A2A.mm_apply' depends on axioms: [propext, Classical.choice, Quot.sound] -/
#guard_msgs in #print axioms Cert.KernelIdeal.A2A.mm_apply

end
-- ==== Proof.ValueSum.lean ====
/-
  The arithmetic behind the four-device matmul, with no program in sight.

  A sum over the 1024 contraction indices is the sum of four sums over 256 consecutive indices, one per block
  of columns; device `c` adds the blocks in the order `c`, `c + 1`, `c + 3`, `c + 2` around the mesh. Addition of
  extended reals is commutative and associative, so the order does not matter. The gelu epilogue of the kernel and
  of the reference differ only in how a product of four factors is bracketed.
-/
import proofs.«900402_g7700000000000403_dist_a2a_gemm_m1024_k1024_n1024_f32_gelu_v7x_i4_1_alg».proof.Proof.Mesh
import Idealize.ShloMosaic.PureOps.Ideal

namespace Cert.KernelIdeal.A2A

open Cert.KernelIdeal Idealize.ShloMosaic

/-- Index `k` of block `p` is a contraction index. -/
theorem blk_lt (p : Fin 4) (k : Fin 256) : 256 * p.val + k.val < 1024 := by omega

/-- A sum over `Fin 1024` is the sum over the four blocks of the sums over the 256 indices of each block. -/
theorem sum_1024 {M : Type*} [AddCommMonoid M] (f : Fin 1024 → M) :
    ∑ k, f k = ∑ p : Fin 4, ∑ k : Fin 256, f ⟨256 * p.val + k.val, blk_lt p k⟩ := by
  rw [← Equiv.sum_comp (finProdFinEquiv (m := 4) (n := 256)) f, Fintype.sum_prod_type]
  refine Finset.sum_congr rfl fun p _ => Finset.sum_congr rfl fun k _ => congrArg f (Fin.ext ?_)
  show k.val + 256 * p.val = 256 * p.val + k.val
  omega

/-- Going round the mesh from `c` visits every device once. -/
theorem peer_bijective (c : Dev nD) : Function.Bijective (peer c) :=
  ⟨fun o o' h => peer_inj_off c o o' h, fun p => exists_off c p⟩

/-- The sum over the four blocks in device `c`'s order: its own block, then those of the peers at offsets 1, 3, 2. -/
theorem sum_blocks {M : Type*} [AddCommMonoid M] (B : Dev nD → M) (c : Dev nD) :
    ∑ p : Fin 4, B p = ((B c + B (peer c 1)) + B (peer c 3)) + B (peer c 2) := by
  rw [← Fintype.sum_bijective (peer c) (peer_bijective c) (fun o => B (peer c o)) B (fun _ => rfl),
    Fin.sum_univ_four, peer_zero]
  exact add_right_comm _ _ _

/-- The whole contraction in device `c`'s order. -/
theorem sum_1024_blocks {M : Type*} [AddCommMonoid M] (f : Fin 1024 → M) (c : Dev nD) :
    ∑ k, f k
      = (((∑ k : Fin 256, f ⟨256 * c.val + k.val, blk_lt c k⟩)
          + ∑ k : Fin 256, f ⟨256 * (peer c 1).val + k.val, blk_lt (peer c 1) k⟩)
          + ∑ k : Fin 256, f ⟨256 * (peer c 3).val + k.val, blk_lt (peer c 3) k⟩)
          + ∑ k : Fin 256, f ⟨256 * (peer c 2).val + k.val, blk_lt (peer c 2) k⟩ := by
  rw [sum_1024 f]
  exact sum_blocks (fun p : Dev nD => ∑ k : Fin 256, f ⟨256 * p.val + k.val, blk_lt p k⟩) c

/-- The tanh form of the gelu on the extended reals, its four constants kept as the f32 words both programs print:
    `(½·y)·(1 + tanh(κ·(y + λ·((y·y)·y))))`. -/
noncomputable def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- The two bracketings of the cubic term of the gelu: `((λ·a)·a)·a` in the kernel, `λ·((a·a)·a)` in the reference. -/
theorem cube_assoc (l a : EReal) : ((l * a) * a) * a = l * ((a * a) * a) := by
  rw [mul_assoc l a a, mul_assoc l (a * a) a]

/-- The kernel's epilogue, which cubes by multiplying the scaled value twice more, is the gelu. -/
theorem kernel_gelu (a : EReal) :
    (Ideal.ofBits .f32 0x3F000000#32 * a) * (Ideal.ofBits .f32 0x3F800000#32
      + Ideal.tanh (Ideal.ofBits .f32 0x3F4C422A#32 * (a + ((Ideal.ofBits .f32 0x3D372713#32 * a) * a) * a))) = gelu a := by
  rw [cube_assoc]; rfl

end Cert.KernelIdeal.A2A

/-- info: 'Cert.KernelIdeal.A2A.sum_1024_blocks' depends on axioms: [propext, Classical.choice, Quot.sound] -/
#guard_msgs in #print axioms Cert.KernelIdeal.A2A.sum_1024_blocks

/-- info: 'Cert.KernelIdeal.A2A.kernel_gelu' depends on axioms: [propext, Classical.choice, Quot.sound] -/
#guard_msgs in #print axioms Cert.KernelIdeal.A2A.kernel_gelu
-- ==== Proof.ValueKernel.lean ====
/-
  The kernel's accumulators and stored halves at an entry, at the ideal instance.

  Entry `(i, J)` of device `c`'s 256 × 1024 result gathers, from each device `p`, the inner product of row
  `256 c + i` of `p`'s column block of `x` with column `J` of rows `256 p …` of `w` (`term`). The accumulator adds the
  device's own term, then those of the peers at offsets 1, 3, 2, and the stored value is the gelu of the total.
  Columns below 512 come from the left accumulator, the others from the right.
-/
import proofs.«900402_g7700000000000403_dist_a2a_gemm_m1024_k1024_n1024_f32_gelu_v7x_i4_1_alg».proof.Proof.ValueReads
import proofs.«900402_g7700000000000403_dist_a2a_gemm_m1024_k1024_n1024_f32_gelu_v7x_i4_1_alg».proof.Proof.ValueSum

noncomputable section

namespace Cert.KernelIdeal.A2A

open Cert.KernelIdeal Cert.KernelIdeal.Gen
open Idealize.ShloMosaic Idealize.ShloMosaic.ValueIdx Idealize.SL.Sem

/-- What device `p`'s column block of `x` contributes to entry `(i, J)` of device `c`'s row block of the product. -/
def term (fxs : Dev nD → XC Ideal) (fw : WC Ideal) (c p : Dev nD) (i : Fin 256) (J : Fin 1024) : EReal :=
  ∑ k : Fin 256, (show EReal from fxs p (ix2 ⟨256 * c.val + i.val, row_lt c i⟩ k))
    * (show EReal from fw (ix2 ⟨256 * p.val + k.val, row_lt p k⟩ J))

/-- The device's total at entry `(i, J)`, in its own order of summation. -/
def total (fxs : Dev nD → XC Ideal) (fw : WC Ideal) (c : Dev nD) (i : Fin 256) (J : Fin 1024) : EReal :=
  ((term fxs fw c c i J + term fxs fw c (peer c 1) i J) + term fxs fw c (peer c 3) i J) + term fxs fw c (peer c 2) i J

/-! ## The pieces -/

/-- Going `1 + r` places on and then `1 + (2 - r)` places on is once round the mesh. -/
theorem peer_there_back (c : Dev nD) (r : Fin 3) : peer (peer c (offOf r)) (offOf (2 - r)) = c := by revert c r; decide

/-- What arrives from the peer at offset `1 + r`, before rounding: rows `256 c …` of that peer's block. -/
theorem piece_apply (c : Dev nD) (r : Fin 3) (fxs : Dev nD → XC Ideal) (i k : Fin 256) :
    xRows (F := Ideal) (peer c (offOf r)) (2 - r) (fxs (peer c (offOf r))) (ix2 i k)
      = fxs (peer c (offOf r)) (ix2 ⟨256 * c.val + i.val, row_lt c i⟩ k) := by
  rw [xRows_apply]
  have h : ∀ q : Dev nD, q = c → fxs (peer c (offOf r)) (ix2 ⟨256 * q.val + i.val, row_lt q i⟩ k)
      = fxs (peer c (offOf r)) (ix2 ⟨256 * c.val + i.val, row_lt c i⟩ k) := by rintro q rfl; rfl
  exact h _ (peer_there_back c r)

theorem got_eq (c : Dev nD) (r : Fin 3) (fxs : Dev nD → XC Ideal) :
    got (F := Ideal) c r fxs = k0_pay1 (F := Ideal) (xRows (F := Ideal) (peer c (offOf r)) (2 - r) (fxs (peer c (offOf r)))) := rfl

/-! ## One product, left and right half -/

theorem prodL_apply (A : FVec Ideal S256x256 .f32) (wv : FVec Ideal S256x1024 .f32) (h : S256x1024.ShapeCasts S256x1024)
    (hs : S256x1024.Slices ![0, 0] S256x512) (i : Fin 256) (j : Fin 512) :
    matmul (F := Ideal) DD none A (extractStridedSlice S256x512 ![0, 0] (shapeCast S256x1024 wv h) hs)
        (constant (F := Ideal) S256x512 .f32 0x00000000#32) (ix2 i j)
      = ∑ k : Fin 256, A (ix2 i k) * wv (ix2 k ⟨j.val, colL_lt j⟩) := by
  rw [mm_apply]
  exact Finset.sum_congr rfl fun k _ => by rw [halfL_apply]

theorem prodR_apply (A : FVec Ideal S256x256 .f32) (wv : FVec Ideal S256x1024 .f32) (h : S256x1024.ShapeCasts S256x1024)
    (hs : S256x1024.Slices ![0, 512] S256x512) (i : Fin 256) (j : Fin 512) :
    matmul (F := Ideal) DD none A (extractStridedSlice S256x512 ![0, 512] (shapeCast S256x1024 wv h) hs)
        (constant (F := Ideal) S256x512 .f32 0x00000000#32) (ix2 i j)
      = ∑ k : Fin 256, A (ix2 i k) * wv (ix2 k ⟨512 + j.val, colR_lt j⟩) := by
  rw [mm_apply]
  exact Finset.sum_congr rfl fun k _ => by rw [halfR_apply]

/-- A received piece against the matching row block of `w`: the peer's term. -/
theorem peerSum_apply (c : Dev nD) (r : Fin 3) (fxs : Dev nD → XC Ideal) (fw : WC Ideal) (i : Fin 256) (J : Fin 1024) :
    ∑ k : Fin 256, (xRows (F := Ideal) (peer c (offOf r)) (2 - r) (fxs (peer c (offOf r))) (ix2 i k) : EReal)
        * (wRows (F := Ideal) c r fw (ix2 k J) : EReal)
      = term fxs fw c (peer c (offOf r)) i J :=
  Finset.sum_congr rfl fun k _ => by rw [piece_apply, wRows_apply]

/-- The device's own rows against its own row block of `w`: its own term. -/
theorem ownSum_apply (c : Dev nD) (fxs : Dev nD → XC Ideal) (fw : WC Ideal) (i : Fin 256) (J : Fin 1024) :
    ∑ k : Fin 256, (xOwn (F := Ideal) c (fxs c) (ix2 i k) : EReal) * (wOwn (F := Ideal) c fw (ix2 k J) : EReal) = term fxs fw c c i J :=
  Finset.sum_congr rfl fun k _ => by rw [xOwn_apply, wOwn_apply]

/-- The right half of a row block that is not behind a cast. -/
theorem prodR'_apply (A : FVec Ideal S256x256 .f32) (wv : FVec Ideal S256x1024 .f32)
    (hs : S256x1024.Slices ![0, 512] S256x512) (i : Fin 256) (j : Fin 512) :
    matmul (F := Ideal) DD none A (extractStridedSlice S256x512 ![0, 512] wv hs)
        (constant (F := Ideal) S256x512 .f32 0x00000000#32) (ix2 i j)
      = ∑ k : Fin 256, A (ix2 i k) * wv (ix2 k ⟨512 + j.val, colR_lt j⟩) := by
  rw [mm_apply]
  exact Finset.sum_congr rfl fun k _ => by rw [slice2_axis1_apply 512 wv hs k j ⟨512 + j.val, colR_lt j⟩ rfl]

/-! ## The six accumulation steps at an entry

  Each step adds one block product to what came before; the first step of each half also forms the device's own product. -/

theorem pay9_apply (v169 : FVec Ideal S256x256 .f32) (v174 : FVec Ideal S256x512 .f32) (v198 : Vec Ideal S1x256x256 .bf16)
    (v203 : FVec Ideal S256x1024 .f32) (i : Fin 256) (j : Fin 512) :
    k0_pay9 (F := Ideal) v169 v174 (constant (F := Ideal) S256x512 .f32 0x00000000#32) v198 v203 (ix2 i j)
      = (∑ k : Fin 256, v169 (ix2 i k) * v174 (ix2 k j))
        + ∑ k : Fin 256, k0_pay7 (F := Ideal) v198 (ix2 i k) * v203 (ix2 k ⟨j.val, colL_lt j⟩) := by
  unfold k0_pay9 k0_pay8
  exact congrArg₂ (fun a b : EReal => a + b) (mm_apply _ _ i j) (prodL_apply _ v203 _ _ i j)

theorem pay10_apply (v169 : FVec Ideal S256x256 .f32) (v173 : FVec Ideal S256x1024 .f32) (v198 : Vec Ideal S1x256x256 .bf16)
    (v203 : FVec Ideal S256x1024 .f32) (i : Fin 256) (j : Fin 512) :
    k0_pay10 (F := Ideal) v169 v173 v198 v203 (ix2 i j)
      = (∑ k : Fin 256, v169 (ix2 i k) * v173 (ix2 k ⟨512 + j.val, colR_lt j⟩))
        + ∑ k : Fin 256, k0_pay7 (F := Ideal) v198 (ix2 i k) * v203 (ix2 k ⟨512 + j.val, colR_lt j⟩) := by
  unfold k0_pay10 k0_pay8
  exact congrArg₂ (fun a b : EReal => a + b) (prodR'_apply _ v173 _ i j) (prodR_apply _ v203 _ _ i j)

theorem pay13_apply (v207 : FVec Ideal S256x512 .f32) (v231 : Vec Ideal S1x256x256 .bf16) (v236 : FVec Ideal S256x1024 .f32)
    (i : Fin 256) (j : Fin 512) :
    k0_pay13 (F := Ideal) v207 v231 v236 (ix2 i j)
      = v207 (ix2 i j) + ∑ k : Fin 256, k0_pay11 (F := Ideal) v231 (ix2 i k) * v236 (ix2 k ⟨j.val, colL_lt j⟩) := by
  unfold k0_pay13 k0_pay12
  exact congrArg (fun b : EReal => v207 (ix2 i j) + b) (prodL_apply _ v236 _ _ i j)

theorem pay14_apply (v210 : FVec Ideal S256x512 .f32) (v231 : Vec Ideal S1x256x256 .bf16) (v236 : FVec Ideal S256x1024 .f32)
    (i : Fin 256) (j : Fin 512) :
    k0_pay14 (F := Ideal) v210 v231 v236 (ix2 i j)
      = v210 (ix2 i j) + ∑ k : Fin 256, k0_pay11 (F := Ideal) v231 (ix2 i k) * v236 (ix2 k ⟨512 + j.val, colR_lt j⟩) := by
  unfold k0_pay14 k0_pay12
  exact congrArg (fun b : EReal => v210 (ix2 i j) + b) (prodR_apply _ v236 _ _ i j)

theorem pay17_apply (v240 : FVec Ideal S256x512 .f32) (v264 : Vec Ideal S1x256x256 .bf16) (v269 : FVec Ideal S256x1024 .f32)
    (i : Fin 256) (j : Fin 512) :
    k0_pay17 (F := Ideal) v240 v264 v269 (ix2 i j)
      = v240 (ix2 i j) + ∑ k : Fin 256, k0_pay15 (F := Ideal) v264 (ix2 i k) * v269 (ix2 k ⟨j.val, colL_lt j⟩) := by
  unfold k0_pay17 k0_pay16
  exact congrArg (fun b : EReal => v240 (ix2 i j) + b) (prodL_apply _ v269 _ _ i j)

theorem pay18_apply (v243 : FVec Ideal S256x512 .f32) (v264 : Vec Ideal S1x256x256 .bf16) (v269 : FVec Ideal S256x1024 .f32)
    (i : Fin 256) (j : Fin 512) :
    k0_pay18 (F := Ideal) v243 v264 v269 (ix2 i j)
      = v243 (ix2 i j) + ∑ k : Fin 256, k0_pay15 (F := Ideal) v264 (ix2 i k) * v269 (ix2 k ⟨512 + j.val, colR_lt j⟩) := by
  unfold k0_pay18 k0_pay16
  exact congrArg (fun b : EReal => v243 (ix2 i j) + b) (prodR_apply _ v269 _ _ i j)

/-! ## The four terms as the kernel forms them -/

theorem recvSum7 (c : Dev nD) (r : Fin 3) (fxs : Dev nD → XC Ideal) (fw : WC Ideal) (i : Fin 256) (J : Fin 1024) :
    ∑ k : Fin 256, k0_pay7 (F := Ideal) (got (F := Ideal) c r fxs) (ix2 i k) * (wRows (F := Ideal) c r fw (ix2 k J) : EReal)
      = term fxs fw c (peer c (offOf r)) i J := by
  rw [← peerSum_apply]
  exact Finset.sum_congr rfl fun k _ => by rw [got_eq, recv7_apply]
theorem recvSum11 (c : Dev nD) (r : Fin 3) (fxs : Dev nD → XC Ideal) (fw : WC Ideal) (i : Fin 256) (J : Fin 1024) :
    ∑ k : Fin 256, k0_pay11 (F := Ideal) (got (F := Ideal) c r fxs) (ix2 i k) * (wRows (F := Ideal) c r fw (ix2 k J) : EReal)
      = term fxs fw c (peer c (offOf r)) i J := by
  rw [← peerSum_apply]
  exact Finset.sum_congr rfl fun k _ => by rw [got_eq, recv11_apply]
theorem recvSum15 (c : Dev nD) (r : Fin 3) (fxs : Dev nD → XC Ideal) (fw : WC Ideal) (i : Fin 256) (J : Fin 1024) :
    ∑ k : Fin 256, k0_pay15 (F := Ideal) (got (F := Ideal) c r fxs) (ix2 i k) * (wRows (F := Ideal) c r fw (ix2 k J) : EReal)
      = term fxs fw c (peer c (offOf r)) i J := by
  rw [← peerSum_apply]
  exact Finset.sum_congr rfl fun k _ => by rw [got_eq, recv15_apply]

theorem ownSumL (c : Dev nD) (fxs : Dev nD → XC Ideal) (fw : WC Ideal) (i : Fin 256) (j : Fin 512) :
    ∑ k : Fin 256, k0_pay4 (F := Ideal) (xOwn (F := Ideal) c (fxs c)) (ix2 i k) * k0_pay6 (F := Ideal) (wOwn (F := Ideal) c fw) (ix2 k j)
      = term fxs fw c c i ⟨j.val, colL_lt j⟩ := by
  rw [← ownSum_apply]
  refine Finset.sum_congr rfl fun k _ => ?_
  rw [own4_apply]
  exact congrArg (fun b : EReal => (xOwn (F := Ideal) c (fxs c) (ix2 i k) : EReal) * b)
    (halfL_apply (wOwn (F := Ideal) c fw) shapeCasts_S256x1024_S256x1024 slices_S256x1024_o0_0_S256x512 k j)

theorem ownSumR (c : Dev nD) (fxs : Dev nD → XC Ideal) (fw : WC Ideal) (i : Fin 256) (j : Fin 512) :
    ∑ k : Fin 256, k0_pay4 (F := Ideal) (xOwn (F := Ideal) c (fxs c)) (ix2 i k)
        * k0_pay5 (F := Ideal) (wOwn (F := Ideal) c fw) (ix2 k ⟨512 + j.val, colR_lt j⟩)
      = term fxs fw c c i ⟨512 + j.val, colR_lt j⟩ := by
  rw [← ownSum_apply]
  refine Finset.sum_congr rfl fun k _ => ?_
  rw [own4_apply]
  exact congrArg (fun b : EReal => (xOwn (F := Ideal) c (fxs c) (ix2 i k) : EReal) * b)
    (congrFun (shapeCast_self (wOwn (F := Ideal) c fw) shapeCasts_S256x1024_S256x1024) _)

theorem offOf_zero : offOf 0 = 1 := by decide
theorem offOf_one : offOf 1 = 2 := by decide
theorem offOf_two : offOf 2 = 3 := by decide

/-! ## The accumulators and the stored halves -/

/-- The left accumulator at `(i, j)`: the device's total at column `j`. -/
theorem accL_apply (c : Dev nD) (fxs : Dev nD → XC Ideal) (fw : WC Ideal) (i : Fin 256) (j : Fin 512) :
    accL (F := Ideal) c fxs fw (ix2 i j) = total fxs fw c i ⟨j.val, colL_lt j⟩ := by
  unfold accL total
  rw [pay17_apply, pay13_apply, pay9_apply, recvSum15, recvSum11, recvSum7, ownSumL, offOf_zero, offOf_one, offOf_two]

/-- The right accumulator at `(i, j)`: the device's total at column `512 + j`. -/
theorem accR_apply (c : Dev nD) (fxs : Dev nD → XC Ideal) (fw : WC Ideal) (i : Fin 256) (j : Fin 512) :
    accR (F := Ideal) c fxs fw (ix2 i j) = total fxs fw c i ⟨512 + j.val, colR_lt j⟩ := by
  unfold accR total
  rw [pay18_apply, pay14_apply, pay10_apply, recvSum15, recvSum11, recvSum7, ownSumR, offOf_zero, offOf_one, offOf_two]

/-- The left epilogue, entry by entry: the gelu of the left accumulator. -/
theorem epiL_apply (v240 : FVec Ideal S256x512 .f32) (v264 : Vec Ideal S1x256x256 .bf16) (v269 : FVec Ideal S256x1024 .f32)
    (x : S256x512.Idx) :
    k0_pay21 (F := Ideal) (k0_pay19 (F := Ideal) v240 v264 v269) (k0_pay20 (F := Ideal) v240 v264 v269)
        (Scalar.ofBits .f32 0x3F800000#32) x
      = gelu (k0_pay17 (F := Ideal) v240 v264 v269 x) := by
  rw [← kernel_gelu]; rfl

/-- The right epilogue, entry by entry: the gelu of the right accumulator. -/
theorem epiR_apply (v276 : FVec Ideal S256x512 .f32) (x : S256x512.Idx) :
    k0_pay22 (F := Ideal) v276 x = gelu (v276 x) := by
  rw [← kernel_gelu]; rfl

/-- The stored left half at `(i, j)`. -/
theorem outL_apply (c : Dev nD) (fxs : Dev nD → XC Ideal) (fw : WC Ideal) (i : Fin 256) (j : Fin 512) :
    outL (F := Ideal) c fxs fw (ix2 i j) = gelu (total fxs fw c i ⟨j.val, colL_lt j⟩) := by
  unfold outL
  rw [epiL_apply]
  exact congrArg gelu (accL_apply c fxs fw i j)

/-- The stored right half at `(i, j)`. -/
theorem outR_apply (c : Dev nD) (fxs : Dev nD → XC Ideal) (fw : WC Ideal) (i : Fin 256) (j : Fin 512) :
    outR (F := Ideal) c fxs fw (ix2 i j) = gelu (total fxs fw c i ⟨512 + j.val, colR_lt j⟩) := by
  unfold outR
  rw [epiR_apply, accR_apply]

end Cert.KernelIdeal.A2A

/-- info: 'Cert.KernelIdeal.A2A.outL_apply' depends on axioms: [propext, Classical.choice, Quot.sound] -/
#guard_msgs in #print axioms Cert.KernelIdeal.A2A.outL_apply

/-- info: 'Cert.KernelIdeal.A2A.outR_apply' depends on axioms: [propext, Classical.choice, Quot.sound] -/
#guard_msgs in #print axioms Cert.KernelIdeal.A2A.outR_apply

end
-- ==== Proof.ValueRef.lean ====
/-
  The reference read at an index: entry `(I, J)` of its result is the gelu of the inner product of row `I` of the
  first argument with column `J` of the second, over the 1024 contraction indices.
-/
import proofs.«900402_g7700000000000403_dist_a2a_gemm_m1024_k1024_n1024_f32_gelu_v7x_i4_1_alg».proof.Proof.Gen.ReferenceIdeal.Read
import proofs.«900402_g7700000000000403_dist_a2a_gemm_m1024_k1024_n1024_f32_gelu_v7x_i4_1_alg».proof.Proof.ValueSum

noncomputable section

namespace Cert.KernelIdeal.A2A

open Idealize.ShloMosaic Idealize.ShloMosaic.ValueIdx
open Cert.ReferenceIdeal.Read

/-- The reference's matrix product at an entry. -/
theorem ref_dot_apply (X W : (⟨Cert.ReferenceIdeal.S1024x1024, .f32⟩ : BufTy).Contents (Elt Ideal)) (I J : Fin 1024) :
    val_main_v0 (F := Ideal) X W (ix2 I J) = ∑ k : Fin 1024, X (ix2 I k) * W (ix2 k J) := by
  rw [val_main_v0_apply]
  refine Finset.sum_congr rfl fun k _ => ?_
  have el : lidx_main_v0 (ix2 I J) k = ix2 I k :=
    funext fun a => Fin.ext (by match a with | ⟨0, _⟩ => rfl | ⟨1, _⟩ => rfl)
  have er : ridx_main_v0 (ix2 I J) k = ix2 k J :=
    funext fun a => Fin.ext (by match a with | ⟨0, _⟩ => rfl | ⟨1, _⟩ => rfl)
  rw [el, er]

/-- The reference's result at an entry: the gelu of the inner product. -/
theorem ref_apply (X W : (⟨Cert.ReferenceIdeal.S1024x1024, .f32⟩ : BufTy).Contents (Elt Ideal)) (I J : Fin 1024) :
    val_main_v13 (F := Ideal) X W (ix2 I J) = gelu (∑ k : Fin 1024, X (ix2 I k) * W (ix2 k J)) := by
  rw [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_cst_0_apply,
    val_main_v4_apply, val_main_v3_apply, ref_dot_apply]
  rfl

end Cert.KernelIdeal.A2A

/-- info: 'Cert.KernelIdeal.A2A.ref_apply' depends on axioms: [propext, Classical.choice, Quot.sound] -/
#guard_msgs in #print axioms Cert.KernelIdeal.A2A.ref_apply

end
-- ==== Proof.ValueFinal.lean ====
/-
  The device's result buffer is its row block of the reference's result.

  The two stores fill the columns below 512 and the columns from 512 on, so every entry of the 256 × 1024 buffer is
  the gelu of the device's total at that entry (the left accumulator's below column 512, the right one's from there on). With each device holding its column block of `X`, the term that
  device `p` contributes is the part of the inner product over the contraction indices `256 p … 256 p + 255`; the
  four terms in the device's order add up to the whole inner product of row `256 c + i` of `X` with column `J` of
  `W`, whose gelu is the reference's entry `(256 c + i, J)`: entry `(i, J)` of row block `c`.
-/
import proofs.«900402_g7700000000000403_dist_a2a_gemm_m1024_k1024_n1024_f32_gelu_v7x_i4_1_alg».proof.Proof.ValueKernel
import proofs.«900402_g7700000000000403_dist_a2a_gemm_m1024_k1024_n1024_f32_gelu_v7x_i4_1_alg».proof.Proof.ValueRef
import proofs.«900402_g7700000000000403_dist_a2a_gemm_m1024_k1024_n1024_f32_gelu_v7x_i4_1_alg».proof.Proof.ValueStores
import Idealize.ShloMosaic.Lib.Layout

noncomputable section

namespace Cert.KernelIdeal.A2A

open Cert.KernelIdeal Cert.KernelIdeal.Gen
open Idealize.ShloMosaic Idealize.ShloMosaic.ValueIdx Idealize.SL.Sem

/-! ## The result buffer at an entry -/

/-- Every entry of the result buffer is the gelu of the device's total there. -/
theorem outFinal_apply (c : Dev nD) (fxs : Dev nD → XC Ideal) (fw : WC Ideal) (f0 : OC Ideal) (i : Fin 256) (J : Fin 1024) :
    outFinal (F := Ideal) c fxs fw f0 (ix2 i J) = gelu (total fxs fw c i J) := by
  rw [outFinal_read]
  by_cases hJ : J.val < 512
  · rw [dif_pos hJ, outL_apply]
  · rw [dif_neg hJ, outR_apply]
    exact congrArg (fun z => gelu (total fxs fw c i z)) (Fin.ext (by show 512 + (J.val - 512) = J.val; omega))

/-! ## The blocks placed in the whole arrays -/

/-- With device `p` holding column block `p` of `X`, its term is the part of the inner product of row `256 c + i` of `X`
    with column `J` of `W` over the contraction indices of block `p`. -/
theorem term_block (X W : (⟨Cert.ReferenceIdeal.S1024x1024, .f32⟩ : BufTy).Contents (Elt Ideal)) (c p : Dev nD)
    (i : Fin 256) (J : Fin 1024) :
    term (fun d => Layout.block ⟨2, ![1024, 256]⟩ ⟨2, ![1024, 1024]⟩ 1 4 d X) W c p i J
      = ∑ k : Fin 256, X (ix2 ⟨256 * c.val + i.val, row_lt c i⟩ ⟨256 * p.val + k.val, blk_lt p k⟩)
          * W (ix2 ⟨256 * p.val + k.val, blk_lt p k⟩ J) := by
  unfold term
  refine Finset.sum_congr rfl fun k _ => ?_
  beta_reduce
  rw [Layout.block_apply]
  refine congrArg (fun a : EReal => a * W (ix2 ⟨256 * p.val + k.val, blk_lt p k⟩ J)) (congrArg X (funext fun a => Fin.ext ?_))
  match a with
  | ⟨0, _⟩ => rfl
  | ⟨1, _⟩ => show p.val * 256 + k.val = 256 * p.val + k.val; omega

/-- Device `c`'s buffer after the two stores is row block `c` of the reference's result, when each device holds its column
    block of `X` and all of `W`. -/
theorem kernel_value (X W : (⟨Cert.ReferenceIdeal.S1024x1024, .f32⟩ : BufTy).Contents (Elt Ideal)) (c : Dev nD) (f0 : OC Ideal) :
    outFinal (F := Ideal) c (fun d => Layout.block ⟨2, ![1024, 256]⟩ ⟨2, ![1024, 1024]⟩ 1 4 d X) W f0
      = Layout.block ⟨2, ![256, 1024]⟩ ⟨2, ![1024, 1024]⟩ 0 4 c (Cert.ReferenceIdeal.Read.val_main_v13 (F := Ideal) X W) := by
  funext y
  obtain ⟨i, J, rfl⟩ : ∃ (i : Fin 256) (J : Fin 1024), y = ix2 i J := ⟨y 0, y 1, eq_ix2 y⟩
  rw [outFinal_apply, Layout.block_apply]
  have hidx : (Layout.Tiles.idx (S := ⟨2, ![256, 1024]⟩) (T := ⟨2, ![1024, 1024]⟩) (a := 0) (k := 4) (by decide) c (ix2 i J))
      = ix2 ⟨256 * c.val + i.val, row_lt c i⟩ J :=
    funext fun a => Fin.ext (by
      match a with
      | ⟨0, _⟩ => show c.val * 256 + i.val = 256 * c.val + i.val; omega
      | ⟨1, _⟩ => rfl)
  rw [hidx, ref_apply, sum_1024_blocks _ c]
  unfold total
  rw [term_block, term_block, term_block, term_block]

end Cert.KernelIdeal.A2A

/-- info: 'Cert.KernelIdeal.A2A.kernel_value' depends on axioms: [propext, Classical.choice, Quot.sound] -/
#guard_msgs in #print axioms Cert.KernelIdeal.A2A.kernel_value

end
-- ==== Proof.Claims.lean ====
/-
  The five claims of the certificate, from the run of the four devices and the value of one device's result.

  Each device's body being proved, the mesh runs: every execution terminates with the two argument arrays unchanged
  and each device's result array holding its result staging buffer after the two stores — at the word-level values
  and at the ideal ones alike, which gives the two frames of the kernel. The reference's frame is its run with the
  result forgotten. The ideal pass rewrote nothing. At the ideal values, with device `d` holding column block `d` of
  the reference's first argument and all of the second, device `c`'s result buffer is row block `c` of the reference's
  result `gelu(x · w)`: the staged blocks are the argument arrays themselves, read through the whole-array window.
-/
import proofs.«900402_g7700000000000403_dist_a2a_gemm_m1024_k1024_n1024_f32_gelu_v7x_i4_1_alg».proof.Defs
import proofs.«900402_g7700000000000403_dist_a2a_gemm_m1024_k1024_n1024_f32_gelu_v7x_i4_1_alg».proof.Proof.Body
import proofs.«900402_g7700000000000403_dist_a2a_gemm_m1024_k1024_n1024_f32_gelu_v7x_i4_1_alg».proof.Proof.Launch
import proofs.«900402_g7700000000000403_dist_a2a_gemm_m1024_k1024_n1024_f32_gelu_v7x_i4_1_alg».proof.Proof.KBody
import proofs.«900402_g7700000000000403_dist_a2a_gemm_m1024_k1024_n1024_f32_gelu_v7x_i4_1_alg».proof.Proof.KLaunch
import proofs.«900402_g7700000000000403_dist_a2a_gemm_m1024_k1024_n1024_f32_gelu_v7x_i4_1_alg».proof.Proof.ValueFinal
import proofs.«900402_g7700000000000403_dist_a2a_gemm_m1024_k1024_n1024_f32_gelu_v7x_i4_1_alg».proof.Proof.Gen.ReferenceIdeal.Run
import proofs.«900402_g7700000000000403_dist_a2a_gemm_m1024_k1024_n1024_f32_gelu_v7x_i4_1_alg».proof.Proof.Gen.Pre_finite_inputs_Kernel
import proofs.«900402_g7700000000000403_dist_a2a_gemm_m1024_k1024_n1024_f32_gelu_v7x_i4_1_alg».proof.Proof.Gen.Pre_finite_inputs_ReferenceIdeal
import Idealize.ShloMosaic.Lib.Layout

set_option maxRecDepth 16384

noncomputable section

namespace Cert.KernelIdeal.A2A

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The staged `x` block is the device's first argument array: the window's one block is the whole array. -/
theorem xstg_eq (d : Dev nD) : xstg m ρ d = m ((d : Thread nD τ).loc main_arg0) :=
  Memref.read_access_unit_zero (Elt F) main_arg0 (funext fun a => Nat.zero_mul _) _ _

/-- The staged `w` is the device's second argument array. -/
theorem wstg_eq (d : Dev nD) : wstg m ρ d = m ((d : Thread nD τ).loc main_arg1) :=
  Memref.read_access_unit_zero (Elt F) main_arg1 (funext fun a => Nat.zero_mul _) _ _

end Cert.KernelIdeal.A2A

namespace Cert.Proof.A2AClaims

open Idealize.ShloMosaic Idealize.ShloMosaic.TcCoe Idealize.SL.Sem
open Idealize.ShloMosaic.Pipeline (BodyObligation)

/-- The word-level kernel runs and leaves its two argument arrays as they were. -/
theorem frame_k : Cert.frame_Kernel := fun m g _ =>
  (θ_run Cert.Kernel.defs _ _).mono
    (fun _ h c => ⟨(h c 0).trans (Cert.Kernel.A2A.finalA_x m g c), (h c 1).trans (Cert.Kernel.A2A.finalA_w m g c)⟩)
    (Cert.Kernel.A2A.run_main (F := Bits) m g (Cert.Kernel.A2A.body_obligation m g))

/-- So does the kernel at the ideal values. -/
theorem frame_ki : Cert.frame_KernelIdeal := fun m g _ =>
  (θ_run Cert.KernelIdeal.defs _ _).mono
    (fun _ h c => ⟨(h c 0).trans (Cert.KernelIdeal.A2A.finalA_x m g c), (h c 1).trans (Cert.KernelIdeal.A2A.finalA_w m g c)⟩)
    (Cert.KernelIdeal.A2A.run_main (F := Ideal) m g (Cert.KernelIdeal.A2A.body_obligation m g))

/-- The reference runs and leaves its two argument arrays as they were: its run with the result forgotten. -/
theorem frame_ri : Cert.frame_ReferenceIdeal := fun m g _ =>
  (θ_run Cert.ReferenceIdeal.defs _ _).mono (fun _ h c => (h c).2) (Cert.ReferenceIdeal.Value.run (F := Ideal) m g)

/-- The ideal pass rewrote no operation. -/
theorem preserves : Cert.preserves_Kernel_KernelIdeal := trivial

/-- At the ideal values the four devices' result buffers are the four row blocks of the reference's `gelu(x · w)`. -/
theorem algebraic : Cert.algebraic_KernelIdeal_ReferenceIdeal := by
  intro m g m' g' _ hagree
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono
      (fun _ h c => ⟨?_, (h c 0).trans (Cert.KernelIdeal.A2A.finalA_x m g c), (h c 1).trans (Cert.KernelIdeal.A2A.finalA_w m g c)⟩)
      (Cert.KernelIdeal.A2A.run_main (F := Ideal) m g (Cert.KernelIdeal.A2A.body_obligation m g))
    refine ((h c 2).trans (Cert.KernelIdeal.A2A.finalA_out m g c)).trans ?_
    unfold Cert.KernelIdeal.A2A.outAt
    have hx : (fun d => Cert.KernelIdeal.A2A.xstg m g d)
        = fun d => Layout.block ⟨2, ![1024, 256]⟩ ⟨2, ![1024, 1024]⟩ 1 4 d
            (m' (((0 : Dev Cert.ReferenceIdeal.nD).tc : Thread Cert.ReferenceIdeal.nD Cert.ReferenceIdeal.τ).loc Cert.ReferenceIdeal.main_arg0)) :=
      funext fun d => (Cert.KernelIdeal.A2A.xstg_eq m g d).trans (hagree d).1
    have hw : Cert.KernelIdeal.A2A.wstg m g c
        = m' (((0 : Dev Cert.ReferenceIdeal.nD).tc : Thread Cert.ReferenceIdeal.nD Cert.ReferenceIdeal.τ).loc Cert.ReferenceIdeal.main_arg1) :=
      (Cert.KernelIdeal.A2A.wstg_eq m g c).trans (hagree c).2
    rw [hx, hw]
    exact Cert.KernelIdeal.A2A.kernel_value _ _ c _
  · exact (θ_run Cert.ReferenceIdeal.defs _ _).mono
      (fun _ h => ⟨(h 0).1.trans (Cert.ReferenceIdeal.Read.val_main_v13_eq _ _), (h 0).2.1, (h 0).2.2⟩)
      (Cert.ReferenceIdeal.Value.run (F := Ideal) m' g')

end Cert.Proof.A2AClaims

/-- info: 'Cert.Proof.A2AClaims.algebraic' depends on axioms: [propext, Classical.choice, Quot.sound] -/
#guard_msgs in #print axioms Cert.Proof.A2AClaims.algebraic

end
-- ==== Proof.lean ====
/-
  Four devices compute `gelu(x · w)` for 1024 × 1024 matrices: device `c` holds column block `c` of `x` and all of `w`,
  ships to each peer the rows of its block that the peer needs, and adds the four 256-deep partial products of its
  256 rows before the gelu. Proved here: the kernel (at the word level and at the ideal values) and the one-device
  reference terminate with their arguments unchanged, and at the ideal values device `c`'s result is row block `c` of
  the reference's result — the sum over the contraction index split into the four blocks, in any order.
-/
import proofs.«900402_g7700000000000403_dist_a2a_gemm_m1024_k1024_n1024_f32_gelu_v7x_i4_1_alg».proof.Defs
import proofs.«900402_g7700000000000403_dist_a2a_gemm_m1024_k1024_n1024_f32_gelu_v7x_i4_1_alg».proof.Proof.Gen.Kernel
import proofs.«900402_g7700000000000403_dist_a2a_gemm_m1024_k1024_n1024_f32_gelu_v7x_i4_1_alg».proof.Proof.Gen.Kernel.Skeleton
import proofs.«900402_g7700000000000403_dist_a2a_gemm_m1024_k1024_n1024_f32_gelu_v7x_i4_1_alg».proof.Proof.Gen.Kernel.Launch
import proofs.«900402_g7700000000000403_dist_a2a_gemm_m1024_k1024_n1024_f32_gelu_v7x_i4_1_alg».proof.Proof.Gen.Kernel.Points
import proofs.«900402_g7700000000000403_dist_a2a_gemm_m1024_k1024_n1024_f32_gelu_v7x_i4_1_alg».proof.Proof.Gen.Kernel.Frame
import proofs.«900402_g7700000000000403_dist_a2a_gemm_m1024_k1024_n1024_f32_gelu_v7x_i4_1_alg».proof.Proof.Gen.KernelIdeal
import proofs.«900402_g7700000000000403_dist_a2a_gemm_m1024_k1024_n1024_f32_gelu_v7x_i4_1_alg».proof.Proof.Gen.KernelIdeal.Skeleton
import proofs.«900402_g7700000000000403_dist_a2a_gemm_m1024_k1024_n1024_f32_gelu_v7x_i4_1_alg».proof.Proof.Gen.KernelIdeal.Launch
import proofs.«900402_g7700000000000403_dist_a2a_gemm_m1024_k1024_n1024_f32_gelu_v7x_i4_1_alg».proof.Proof.Gen.KernelIdeal.Points
import proofs.«900402_g7700000000000403_dist_a2a_gemm_m1024_k1024_n1024_f32_gelu_v7x_i4_1_alg».proof.Proof.Gen.KernelIdeal.Frame
import proofs.«900402_g7700000000000403_dist_a2a_gemm_m1024_k1024_n1024_f32_gelu_v7x_i4_1_alg».proof.Proof.Gen.ReferenceIdeal
import proofs.«900402_g7700000000000403_dist_a2a_gemm_m1024_k1024_n1024_f32_gelu_v7x_i4_1_alg».proof.Proof.Gen.Pre_finite_inputs_Kernel
import proofs.«900402_g7700000000000403_dist_a2a_gemm_m1024_k1024_n1024_f32_gelu_v7x_i4_1_alg».proof.Proof.Gen.Pre_finite_inputs_ReferenceIdeal
import Idealize.ShloMosaic.Adequacy
import Idealize.ShloMosaic.Init
import proofs.«900402_g7700000000000403_dist_a2a_gemm_m1024_k1024_n1024_f32_gelu_v7x_i4_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    A2AClaims.frame_k, A2AClaims.frame_ki, A2AClaims.frame_ri, A2AClaims.preserves, A2AClaims.algebraic⟩

end Cert.Proof

end
